-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S300x784 : Shape := ⟨2, ![300, 784]⟩
abbrev S300 : Shape := ⟨1, ![300]⟩
abbrev S65536x300 : Shape := ⟨2, ![65536, 300]⟩
abbrev S100x300 : Shape := ⟨2, ![100, 300]⟩
abbrev S100 : Shape := ⟨1, ![100]⟩
abbrev S65536x100 : Shape := ⟨2, ![65536, 100]⟩
abbrev S10x100 : Shape := ⟨2, ![10, 100]⟩
abbrev S10 : Shape := ⟨1, ![10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S300x784 : S_.BroadcastsInDim S300x784 (![] : Fin 0 → Fin S300x784.rank)
  reducesTo_S300x784_S_d0_1 : S300x784.ReducesTo [0, 1] S_
  bcast_S_S300 : S_.BroadcastsInDim S300 (![] : Fin 0 → Fin S300.rank)
  reducesTo_S300_S_d0 : S300.ReducesTo [0] S_
  bcast_S_S65536x300 : S_.BroadcastsInDim S65536x300 (![] : Fin 0 → Fin S65536x300.rank)
  reducesTo_S65536x300_S_d0_1 : S65536x300.ReducesTo [0, 1] S_
  bcast_S_S100x300 : S_.BroadcastsInDim S100x300 (![] : Fin 0 → Fin S100x300.rank)
  reducesTo_S100x300_S_d0_1 : S100x300.ReducesTo [0, 1] S_
  bcast_S_S100 : S_.BroadcastsInDim S100 (![] : Fin 0 → Fin S100.rank)
  reducesTo_S100_S_d0 : S100.ReducesTo [0] S_
  bcast_S_S65536x100 : S_.BroadcastsInDim S65536x100 (![] : Fin 0 → Fin S65536x100.rank)
  reducesTo_S65536x100_S_d0_1 : S65536x100.ReducesTo [0, 1] S_
  bcast_S_S10x100 : S_.BroadcastsInDim S10x100 (![] : Fin 0 → Fin S10x100.rank)
  reducesTo_S10x100_S_d0_1 : S10x100.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S10 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg11 : FVec F S65536x100 .f32) (main_arg12 : FVec F S65536x100 .f32) (main_arg13 : FVec F S10x100 .f32) (main_arg14 : FVec F S10 .f32) (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  let main_v54 : FVec F S65536x100 .f32 := Host.absf main_arg11
  let main_cst_20 : FVec F S_ .f32 := constant S_ .f32 0x7F800000#32
  let main_v55 : FVec F S65536x100 .f32 := broadcastInDim S65536x100 ![] bcast_S_S65536x100 main_cst_20
  let main_v56 : IVec S65536x100 1 := cmpf .olt main_v54 main_v55
  let main_c_21 : IVec S_ 1 := constantI S_ 1 1#1
  let main_v57 : IVec S_ 1 := (fun x v => Host.reduce IntOp.andi x v reducesTo_S65536x100_S_d0_1 h_S_) main_v56 main_c_21
  let main_v58 : IVec S_ 1 := andi main_v53 main_v57
  let main_v59 : FVec F S65536x100 .f32 := Host.absf main_arg12
  let main_cst_22 : FVec F S_ .f32 := constant S_ .f32 0x7F800000#32
  let main_v60 : FVec F S65536x100 .f32 := broadcastInDim S65536x100 ![] bcast_S_S65536x100 main_cst_22
  let main_v61 : IVec S65536x100 1 := cmpf .olt main_v59 main_v60
  let main_c_23 : IVec S_ 1 := constantI S_ 1 1#1
  let main_v62 : IVec S_ 1 := (fun x v => Host.reduce IntOp.andi x v reducesTo_S65536x100_S_d0_1 h_S_) main_v61 main_c_23
  let main_v63 : IVec S_ 1 := andi main_v58 main_v62
  let main_v64 : FVec F S10x100 .f32 := Host.absf main_arg13
  let main_cst_24 : FVec F S_ .f32 := constant S_ .f32 0x7F800000#32
  let main_v65 : FVec F S10x100 .f32 := broadcastInDim S10x100 ![] bcast_S_S10x100 main_cst_24
  let main_v66 : IVec S10x100 1 := cmpf .olt main_v64 main_v65
  let main_c_25 : IVec S_ 1 := constantI S_ 1 1#1
  let main_v67 : IVec S_ 1 := (fun x v => Host.reduce IntOp.andi x v reducesTo_S10x100_S_d0_1 h_S_) main_v66 main_c_25
  fn_part4 (F := F) main_arg14 main_v63 main_v67

def fn_part2 {F : FTy → Type} [FloatOps F] (main_arg7 : FVec F S100x300 .f32) (main_arg8 : FVec F S100 .f32) (main_arg9 : FVec F S100 .f32) (main_arg10 : FVec F S100 .f32) (main_arg11 : FVec F S65536x100 .f32) (main_arg12 : FVec F S65536x100 .f32) (main_arg13 : FVec F S10x100 .f32) (main_arg14 : FVec F S10 .f32) (main_v33 : IVec S_ 1) : IVec S_ 1 :=
  let main_v34 : FVec F S100x300 .f32 := Host.absf main_arg7
  let main_cst_12 : FVec F S_ .f32 := constant S_ .f32 0x7F800000#32
  let main_v35 : FVec F S100x300 .f32 := broadcastInDim S100x300 ![] bcast_S_S100x300 main_cst_12
  let main_v36 : IVec S100x300 1 := cmpf .olt main_v34 main_v35
  let main_c_13 : IVec S_ 1 := constantI S_ 1 1#1
  let main_v37 : IVec S_ 1 := (fun x v => Host.reduce IntOp.andi x v reducesTo_S100x300_S_d0_1 h_S_) main_v36 main_c_13
  let main_v38 : IVec S_ 1 := andi main_v33 main_v37
  let main_v39 : FVec F S100 .f32 := Host.absf main_arg8
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S100 .f32 := Host.absf main_arg9
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  let main_v49 : FVec F S100 .f32 := Host.absf main_arg10
  let main_cst_18 : FVec F S_ .f32 := constant S_ .f32 0x7F800000#32
  let main_v50 : FVec F S100 .f32 := broadcastInDim S100 ![] bcast_S_S100 main_cst_18
  fn_part3 (F := F) main_arg11 main_arg12 main_arg13 main_arg14 main_v48 main_v49 main_v50

def fn_part1 {F : FTy → Type} [FloatOps F] (main_arg4 : FVec F S300 .f32) (main_arg5 : FVec F S65536x300 .f32) (main_arg6 : FVec F S65536x300 .f32) (main_arg7 : FVec F S100x300 .f32) (main_arg8 : FVec F S100 .f32) (main_arg9 : FVec F S100 .f32) (main_arg10 : FVec F S100 .f32) (main_arg11 : FVec F S65536x100 .f32) (main_arg12 : FVec F S65536x100 .f32) (main_arg13 : FVec F S10x100 .f32) (main_arg14 : FVec F S10 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300 .f32 := Host.absf main_arg4
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  let main_v24 : FVec F S65536x300 .f32 := Host.absf main_arg5
  let main_cst_8 : FVec F S_ .f32 := constant S_ .f32 0x7F800000#32
  let main_v25 : FVec F S65536x300 .f32 := broadcastInDim S65536x300 ![] bcast_S_S65536x300 main_cst_8
  let main_v26 : IVec S65536x300 1 := cmpf .olt main_v24 main_v25
  let main_c_9 : IVec S_ 1 := constantI S_ 1 1#1
  let main_v27 : IVec S_ 1 := (fun x v => Host.reduce IntOp.andi x v reducesTo_S65536x300_S_d0_1 h_S_) main_v26 main_c_9
  let main_v28 : IVec S_ 1 := andi main_v23 main_v27
  let main_v29 : FVec F S65536x300 .f32 := Host.absf main_arg6
  let main_cst_10 : FVec F S_ .f32 := constant S_ .f32 0x7F800000#32
  let main_v30 : FVec F S65536x300 .f32 := broadcastInDim S65536x300 ![] bcast_S_S65536x300 main_cst_10
  let main_v31 : IVec S65536x300 1 := cmpf .olt main_v29 main_v30
  let main_c_11 : IVec S_ 1 := constantI S_ 1 1#1
  let main_v32 : IVec S_ 1 := (fun x v => Host.reduce IntOp.andi x v reducesTo_S65536x300_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x784 .f32) (main_arg1 : FVec F S300x784 .f32) (main_arg2 : FVec F S300 .f32) (main_arg3 : FVec F S300 .f32) (main_arg4 : FVec F S300 .f32) (main_arg5 : FVec F S65536x300 .f32) (main_arg6 : FVec F S65536x300 .f32) (main_arg7 : FVec F S100x300 .f32) (main_arg8 : FVec F S100 .f32) (main_arg9 : FVec F S100 .f32) (main_arg10 : FVec F S100 .f32) (main_arg11 : FVec F S65536x100 .f32) (main_arg12 : FVec F S65536x100 .f32) (main_arg13 : FVec F S10x100 .f32) (main_arg14 : FVec F S10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S300x784 .f32 := Host.absf main_arg1
  let main_cst_0 : FVec F S_ .f32 := constant S_ .f32 0x7F800000#32
  let main_v5 : FVec F S300x784 .f32 := broadcastInDim S300x784 ![] bcast_S_S300x784 main_cst_0
  let main_v6 : IVec S300x784 1 := cmpf .olt main_v4 main_v5
  let main_c_1 : IVec S_ 1 := constantI S_ 1 1#1
  let main_v7 : IVec S_ 1 := (fun x v => Host.reduce IntOp.andi x v reducesTo_S300x784_S_d0_1 h_S_) main_v6 main_c_1
  let main_v8 : IVec S_ 1 := andi main_v3 main_v7
  let main_v9 : FVec F S300 .f32 := Host.absf main_arg2
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S300 .f32 := Host.absf main_arg3
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x784 : Shape := ⟨2, ![65536, 784]⟩
abbrev S300x784 : Shape := ⟨2, ![300, 784]⟩
abbrev S300 : Shape := ⟨1, ![300]⟩
abbrev S65536x300 : Shape := ⟨2, ![65536, 300]⟩
abbrev S100x300 : Shape := ⟨2, ![100, 300]⟩
abbrev S100 : Shape := ⟨1, ![100]⟩
abbrev S65536x100 : Shape := ⟨2, ![65536, 100]⟩
abbrev S10x100 : Shape := ⟨2, ![10, 100]⟩
abbrev S10 : Shape := ⟨1, ![10]⟩
abbrev S1x300 : Shape := ⟨2, ![1, 300]⟩
abbrev S1x100 : Shape := ⟨2, ![1, 100]⟩
abbrev S1x10 : Shape := ⟨2, ![1, 10]⟩
abbrev S2x2x300 : Shape := ⟨3, ![2, 2, 300]⟩
abbrev S2048x784 : Shape := ⟨2, ![2048, 784]⟩
abbrev S2048x300 : Shape := ⟨2, ![2048, 300]⟩
abbrev S1x2x300 : Shape := ⟨3, ![1, 2, 300]⟩
abbrev S2x300 : Shape := ⟨2, ![2, 300]⟩
abbrev S_ : Shape := ⟨0, ![]⟩
abbrev S2x2x100 : Shape := ⟨3, ![2, 2, 100]⟩
abbrev S2048x100 : Shape := ⟨2, ![2048, 100]⟩
abbrev S1x2x100 : Shape := ⟨3, ![1, 2, 100]⟩
abbrev S2x100 : Shape := ⟨2, ![2, 100]⟩
abbrev S65536x10 : Shape := ⟨2, ![65536, 10]⟩
abbrev S2048x10 : Shape := ⟨2, ![2048, 10]⟩

abbrev nBuf : Space → Nat
  | .hbm => 65
  | .vmem => 38
  | .smem => 0
  | _ => 0

abbrev bufTy : (tb : Table) → Fin (tcTables nBuf tb) → BufTy
  | .hbm, ⟨0, _⟩ => ⟨S65536x784, .f32⟩
  | .hbm, ⟨1, _⟩ => ⟨S300x784, .f32⟩
  | .hbm, ⟨2, _⟩ => ⟨S300, .f32⟩
  | .hbm, ⟨3, _⟩ => ⟨S300, .f32⟩
  | .hbm, ⟨4, _⟩ => ⟨S300, .f32⟩
  | .hbm, ⟨5, _⟩ => ⟨S65536x300, .f32⟩
  | .hbm, ⟨6, _⟩ => ⟨S65536x300, .f32⟩
  | .hbm, ⟨7, _⟩ => ⟨S100x300, .f32⟩
  | .hbm, ⟨8, _⟩ => ⟨S100, .f32⟩
  | .hbm, ⟨9, _⟩ => ⟨S100, .f32⟩
  | .hbm, ⟨10, _⟩ => ⟨S100, .f32⟩
  | .hbm, ⟨11, _⟩ => ⟨S65536x100, .f32⟩
  | .hbm, ⟨12, _⟩ => ⟨S65536x100, .f32⟩
  | .hbm, ⟨13, _⟩ => ⟨S10x100, .f32⟩
  | .hbm, ⟨14, _⟩ => ⟨S10, .f32⟩
  | .hbm, ⟨15, _⟩ => ⟨S1x300, .f32⟩
  | .hbm, ⟨16, _⟩ => ⟨S1x300, .f32⟩
  | .hbm, ⟨17, _⟩ => ⟨S1x300, .f32⟩
  | .hbm, ⟨18, _⟩ => ⟨S1x100, .f32⟩
  | .hbm, ⟨19, _⟩ => ⟨S1x100, .f32⟩
  | .hbm, ⟨20, _⟩ => ⟨S1x100, .f32⟩
  | .hbm, ⟨21, _⟩ => ⟨S1x10, .f32⟩
  | .hbm, ⟨22, _⟩ => ⟨S65536x300, .f32⟩
  | .hbm, ⟨23, _⟩ => ⟨S2x2x300, .f32⟩
  | .hbm, ⟨24, _⟩ => ⟨S_, .f32⟩
  | .hbm, ⟨25, _⟩ => ⟨S2x300, .f32⟩
  | .hbm, ⟨26, _⟩ => ⟨S1x300, .f32⟩
  | .hbm, ⟨27, _⟩ => ⟨S300, .f32⟩
  | .hbm, ⟨28, _⟩ => ⟨S_, .f32⟩
  | .hbm, ⟨29, _⟩ => ⟨S300, .f32⟩
  | .hbm, ⟨30, _⟩ => ⟨S300, .f32⟩
  | .hbm, ⟨31, _⟩ => ⟨S1x300, .f32⟩
  | .hbm, ⟨32, _⟩ => ⟨S300, .f32⟩
  | .hbm, ⟨33, _⟩ => ⟨S_, .f32⟩
  | .hbm, ⟨34, _⟩ => ⟨S300, .f32⟩
  | .hbm, ⟨35, _⟩ => ⟨S300, .f32⟩
  | .hbm, ⟨36, _⟩ => ⟨S300, .f32⟩
  | .hbm, ⟨37, _⟩ => ⟨S300, .f32⟩
  | .hbm, ⟨38, _⟩ => ⟨S_, .f32⟩
  | .hbm, ⟨39, _⟩ => ⟨S300, .f32⟩
  | .hbm, ⟨40, _⟩ => ⟨S300, .f32⟩
  | .hbm, ⟨41, _⟩ => ⟨S1x300, .f32⟩
  | .hbm, ⟨42, _⟩ => ⟨S1x300, .f32⟩
  | .hbm, ⟨43, _⟩ => ⟨S65536x100, .f32⟩
  | .hbm, ⟨44, _⟩ => ⟨S2x2x100, .f32⟩
  | .hbm, ⟨45, _⟩ => ⟨S_, .f32⟩
  | .hbm, ⟨46, _⟩ => ⟨S2x100, .f32⟩
  | .hbm, ⟨47, _⟩ => ⟨S1x100, .f32⟩
  | .hbm, ⟨48, _⟩ => ⟨S100, .f32⟩
  | .hbm, ⟨49, _⟩ => ⟨S_, .f32⟩
  | .hbm, ⟨50, _⟩ => ⟨S100, .f32⟩
  | .hbm, ⟨51, _⟩ => ⟨S100, .f32⟩
  | .hbm, ⟨52, _⟩ => ⟨S1x100, .f32⟩
  | .hbm, ⟨53, _⟩ => ⟨S100, .f32⟩
  | .hbm, ⟨54, _⟩ => ⟨S_, .f32⟩
  | .hbm, ⟨55, _⟩ => ⟨S100, .f32⟩
  | .hbm, ⟨56, _⟩ => ⟨S100, .f32⟩
  | .hbm, ⟨57, _⟩ => ⟨S100, .f32⟩
  | .hbm, ⟨58, _⟩ => ⟨S100, .f32⟩
  | .hbm, ⟨59, _⟩ => ⟨S_, .f32⟩
  | .hbm, ⟨60, _⟩ => ⟨S100, .f32⟩
  | .hbm, ⟨61, _⟩ => ⟨S100, .f32⟩
  | .hbm, ⟨62, _⟩ => ⟨S1x100, .f32⟩
  | .hbm, ⟨63, _⟩ => ⟨S1x100, .f32⟩
  | .hbm, ⟨64, _⟩ => ⟨S65536x10, .f32⟩
  | .local _ .vmem, ⟨0, _⟩ => ⟨S2048x784, .f32⟩
  | .local _ .vmem, ⟨1, _⟩ => ⟨S2048x784, .f32⟩
  | .local _ .vmem, ⟨2, _⟩ => ⟨S300x784, .f32⟩
  | .local _ .vmem, ⟨3, _⟩ => ⟨S1x300, .f32⟩
  | .local _ .vmem, ⟨4, _⟩ => ⟨S2048x300, .f32⟩
  | .local _ .vmem, ⟨5, _⟩ => ⟨S2048x300, .f32⟩
  | .local _ .vmem, ⟨6, _⟩ => ⟨S1x2x300, .f32⟩
  | .local _ .vmem, ⟨7, _⟩ => ⟨S1x2x300, .f32⟩
  | .local _ .vmem, ⟨8, _⟩ => ⟨S2048x300, .f32⟩
  | .local _ .vmem, ⟨9, _⟩ => ⟨S2048x300, .f32⟩
  | .local _ .vmem, ⟨10, _⟩ => ⟨S2048x300, .f32⟩
  | .local _ .vmem, ⟨11, _⟩ => ⟨S2048x300, .f32⟩
  | .local _ .vmem, ⟨12, _⟩ => ⟨S2048x300, .f32⟩
  | .local _ .vmem, ⟨13, _⟩ => ⟨S2048x300, .f32⟩
  | .local _ .vmem, ⟨14, _⟩ => ⟨S1x300, .f32⟩
  | .local _ .vmem, ⟨15, _⟩ => ⟨S1x300, .f32⟩
  | .local _ .vmem, ⟨16, _⟩ => ⟨S1x300, .f32⟩
  | .local _ .vmem, ⟨17, _⟩ => ⟨S1x300, .f32⟩
  | .local _ .vmem, ⟨18, _⟩ => ⟨S100x300, .f32⟩
  | .local _ .vmem, ⟨19, _⟩ => ⟨S1x100, .f32⟩
  | .local _ .vmem, ⟨20, _⟩ => ⟨S2048x100, .f32⟩
  | .local _ .vmem, ⟨21, _⟩ => ⟨S2048x100, .f32⟩
  | .local _ .vmem, ⟨22, _⟩ => ⟨S1x2x100, .f32⟩
  | .local _ .vmem, ⟨23, _⟩ => ⟨S1x2x100, .f32⟩
  | .local _ .vmem, ⟨24, _⟩ => ⟨S2048x100, .f32⟩
  | .local _ .vmem, ⟨25, _⟩ => ⟨S2048x100, .f32⟩
  | .local _ .vmem, ⟨26, _⟩ => ⟨S2048x100, .f32⟩
  | .local _ .vmem, ⟨27, _⟩ => ⟨S2048x100, .f32⟩
  | .local _ .vmem, ⟨28, _⟩ => ⟨S2048x100, .f32⟩
  | .local _ .vmem, ⟨29, _⟩ => ⟨S2048x100, .f32⟩
  | .local _ .vmem, ⟨30, _⟩ => ⟨S1x100, .f32⟩
  | .local _ .vmem, ⟨31, _⟩ => ⟨S1x100, .f32⟩
  | .local _ .vmem, ⟨32, _⟩ => ⟨S1x100, .f32⟩
  | .local _ .vmem, ⟨33, _⟩ => ⟨S1x100, .f32⟩
  | .local _ .vmem, ⟨34, _⟩ => ⟨S10x100, .f32⟩
  | .local _ .vmem, ⟨35, _⟩ => ⟨S1x10, .f32⟩
  | .local _ .vmem, ⟨36, _⟩ => ⟨S2048x10, .f32⟩
  | .local _ .vmem, ⟨37, _⟩ => ⟨S2048x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23_0 : Ref sig .tc := ⟨.hbm, 43, rfl⟩
abbrev main_v23_1 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg9_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem10_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem9_1 : DmaSem sig := 37

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S300x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x300 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x300 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x300 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x300 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S100x300 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x100 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S2048x100 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x2x100 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x100 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x100 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x100 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x100 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S10x100 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x10 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2048x10 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  shapeCasts_S300_S1x300 : S300.ShapeCasts S1x300
  shapeCasts_S100_S1x100 : S100.ShapeCasts S1x100
  shapeCasts_S10_S1x10 : S10.ShapeCasts S1x10
  inb_S1x2x300_S1x2x300_0_0_0 : ∀ a, (![0, 0, 0] : Fin 3 → Nat) a + S1x2x300.size a ≤ S1x2x300.size a
  h_S1x2x300 : 0 < S1x2x300.numel
  inb_S2048x784_S2048x784_0_0 : ∀ a, (![0, 0] : Fin 2 → Nat) a + S2048x784.size a ≤ S2048x784.size a
  h_S2048x784 : 0 < S2048x784.numel
  bitsLt_bf16_f32 : FTy.bits .bf16 < FTy.bits .f32
  inb_S300x784_S300x784_0_0 : ∀ a, (![0, 0] : Fin 2 → Nat) a + S300x784.size a ≤ S300x784.size a
  h_S300x784 : 0 < S300x784.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2048x300 : S1x300.Broadcasts S2048x300
  inb_S2048x300_S2048x300_0_0 : ∀ a, (![0, 0] : Fin 2 → Nat) a + S2048x300.size a ≤ S2048x300.size a
  h_S2048x300 : 0 < S2048x300.numel
  reduces_S2048x300_S300 : S2048x300.Reduces [0] S300
  shapeCasts_S1x2x300_S1x2x300 : S1x2x300.ShapeCasts S1x2x300
  concatenates_S1x300_S1x300_S2x300_d0 : Shape.Concatenates [S1x300, S1x300] S2x300 0
  shapeCasts_S2x300_S1x2x300 : S2x300.ShapeCasts S1x2x300
  reducesTo_S2x2x300_S2x300_d0 : S2x2x300.ReducesTo [0] S2x300
  h_S_ : 0 < S_.numel
  slices_S2x300_S1x300_0_0 : S2x300.Slices ![0, 0] S1x300
  shapeCasts_S1x300_S300 : S1x300.ShapeCasts S300
  bcast_S_S300 : S_.BroadcastsInDim S300 (![] : Fin 0 → Fin S300.rank)
  slices_S2x300_S1x300_1_0 : S2x300.Slices ![1, 0] S1x300
  inb_S1x2x100_S1x2x100_0_0_0 : ∀ a, (![0, 0, 0] : Fin 3 → Nat) a + S1x2x100.size a ≤ S1x2x100.size a
  h_S1x2x100 : 0 < S1x2x100.numel
  shapeCasts_S2048x300_S2048x300 : S2048x300.ShapeCasts S2048x300
  inb_S100x300_S100x300_0_0 : ∀ a, (![0, 0] : Fin 2 → Nat) a + S100x300.size a ≤ S100x300.size a
  h_S100x300 : 0 < S100x300.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2048x100 : S1x100.Broadcasts S2048x100
  inb_S2048x100_S2048x100_0_0 : ∀ a, (![0, 0] : Fin 2 → Nat) a + S2048x100.size a ≤ S2048x100.size a
  h_S2048x100 : 0 < S2048x100.numel
  reduces_S2048x100_S100 : S2048x100.Reduces [0] S100
  shapeCasts_S1x2x100_S1x2x100 : S1x2x100.ShapeCasts S1x2x100
  concatenates_S1x100_S1x100_S2x100_d0 : Shape.Concatenates [S1x100, S1x100] S2x100 0
  shapeCasts_S2x100_S1x2x100 : S2x100.ShapeCasts S1x2x100
  reducesTo_S2x2x100_S2x100_d0 : S2x2x100.ReducesTo [0] S2x100
  slices_S2x100_S1x100_0_0 : S2x100.Slices ![0, 0] S1x100
  shapeCasts_S1x100_S100 : S1x100.ShapeCasts S100
  bcast_S_S100 : S_.BroadcastsInDim S100 (![] : Fin 0 → Fin S100.rank)
  slices_S2x100_S1x100_1_0 : S2x100.Slices ![1, 0] S1x100
  shapeCasts_S2048x100_S2048x100 : S2048x100.ShapeCasts S2048x100
  inb_S10x100_S10x100_0_0 : ∀ a, (![0, 0] : Fin 2 → Nat) a + S10x100.size a ≤ S10x100.size a
  h_S10x100 : 0 < S10x100.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  inb_S2048x10_S2048x10_0_0 : ∀ a, (![0, 0] : Fin 2 → Nat) a + S2048x10.size a ≤ S2048x10.size a
  h_S2048x10 : 0 < S2048x10.numel
  dot_S2048x784_S300x784_S2048x300_1_1_0_0_n_n_wf : DotDims.WF S2048x784 S300x784 S2048x300 [1] [1] [0] [0] [] []
  dot_S2048x300_S100x300_S2048x100_1_1_0_0_n_n_wf : DotDims.WF S2048x300 S100x300 S2048x100 [1] [1] [0] [0] [] []
  dot_S2048x100_S10x100_S2048x10_1_1_0_0_n_n_wf : DotDims.WF S2048x100 S10x100 S2048x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S65536x784.size a
  hwx0_0 : ∀ i : grid0.Coords, EltTy.bits .f32 = 32 ∨ (Rect.block (s := S65536x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x784.size a ≤ S300x784.size a
  hwx0_1 : ∀ i : grid0.Coords, EltTy.bits .f32 = 32 ∨ (Rect.block (s := S300x784) S300x784.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x300.size a ≤ S65536x300.size a
  hwx0_3 : ∀ i : grid0.Coords, EltTy.bits .f32 = 32 ∨ (Rect.block (s := S65536x300) S2048x300.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x300.size a ≤ S2x2x300.size a
  hwx0_4 : ∀ i : grid0.Coords, EltTy.bits .f32 = 32 ∨ (Rect.block (s := S2x2x300) S1x2x300.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x300.size a ≤ S65536x300.size a
  hwx1_0 : ∀ i : grid1.Coords, EltTy.bits .f32 = 32 ∨ (Rect.block (s := S65536x300) S2048x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x300.size a ≤ S65536x300.size a
  hwx1_1 : ∀ i : grid1.Coords, EltTy.bits .f32 = 32 ∨ (Rect.block (s := S65536x300) S2048x300.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x300.size a ≤ S65536x300.size a
  hwx1_2 : ∀ i : grid1.Coords, EltTy.bits .f32 = 32 ∨ (Rect.block (s := S65536x300) S2048x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x300.size a ≤ S1x300.size a
  hwx1_3 : ∀ i : grid1.Coords, EltTy.bits .f32 = 32 ∨ (Rect.block (s := S1x300) S1x300.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x300.size a ≤ S1x300.size a
  hwx1_4 : ∀ i : grid1.Coords, EltTy.bits .f32 = 32 ∨ (Rect.block (s := S1x300) S1x300.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x300.size a ≤ S1x300.size a
  hwx1_5 : ∀ i : grid1.Coords, EltTy.bits .f32 = 32 ∨ (Rect.block (s := S1x300) S1x300.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x300.size a ≤ S1x300.size a
  hwx1_6 : ∀ i : grid1.Coords, EltTy.bits .f32 = 32 ∨ (Rect.block (s := S1x300) S1x300.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S100x300.size a ≤ S100x300.size a
  hwx1_7 : ∀ i : grid1.Coords, EltTy.bits .f32 = 32 ∨ (Rect.block (s := S100x300) S100x300.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x100.size a ≤ S1x100.size a
  hwx1_8 : ∀ i : grid1.Coords, EltTy.bits .f32 = 32 ∨ (Rect.block (s := S1x100) S1x100.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x100.size a ≤ S65536x100.size a
  hwx1_9 : ∀ i : grid1.Coords, EltTy.bits .f32 = 32 ∨ (Rect.block (s := S65536x100) S2048x100.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x2x100.size a ≤ S2x2x100.size a
  hwx1_10 : ∀ i : grid1.Coords, EltTy.bits .f32 = 32 ∨ (Rect.block (s := S2x2x100) S1x2x100.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x100.size a ≤ S65536x100.size a
  hwx2_0 : ∀ i : grid2.Coords, EltTy.bits .f32 = 32 ∨ (Rect.block (s := S65536x100) S2048x100.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x100.size a ≤ S65536x100.size a
  hwx2_1 : ∀ i : grid2.Coords, EltTy.bits .f32 = 32 ∨ (Rect.block (s := S65536x100) S2048x100.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x100.size a ≤ S65536x100.size a
  hwx2_2 : ∀ i : grid2.Coords, EltTy.bits .f32 = 32 ∨ (Rect.block (s := S65536x100) S2048x100.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x100.size a ≤ S1x100.size a
  hwx2_3 : ∀ i : grid2.Coords, EltTy.bits .f32 = 32 ∨ (Rect.block (s := S1x100) S1x100.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x100.size a ≤ S1x100.size a
  hwx2_4 : ∀ i : grid2.Coords, EltTy.bits .f32 = 32 ∨ (Rect.block (s := S1x100) S1x100.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x100.size a ≤ S1x100.size a
  hwx2_5 : ∀ i : grid2.Coords, EltTy.bits .f32 = 32 ∨ (Rect.block (s := S1x100) S1x100.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x100.size a ≤ S1x100.size a
  hwx2_6 : ∀ i : grid2.Coords, EltTy.bits .f32 = 32 ∨ (Rect.block (s := S1x100) S1x100.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S10x100.size a ≤ S10x100.size a
  hwx2_7 : ∀ i : grid2.Coords, EltTy.bits .f32 = 32 ∨ (Rect.block (s := S10x100) S10x100.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x10.size a ≤ S1x10.size a
  hwx2_8 : ∀ i : grid2.Coords, EltTy.bits .f32 = 32 ∨ (Rect.block (s := S1x10) S1x10.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x10.size a ≤ S65536x10.size a
  hwx2_9 : ∀ i : grid2.Coords, EltTy.bits .f32 = 32 ∨ (Rect.block (s := S65536x10) S2048x10.size (cc2_transform_9 i) (hinb2_9 i)).WholeWords (EltTy.packing .f32)

variable [Facts₀]

def dot_S2048x784_S300x784_S2048x300_1_1_0_0_n_n : DotDims S2048x784 S300x784 S2048x300 where
  lhsContracting := [1]
  rhsContracting := [1]
  lhsNonContracting := [0]
  rhsNonContracting := [0]
  lhsBatch := []
  rhsBatch := []
  wf := dot_S2048x784_S300x784_S2048x300_1_1_0_0_n_n_wf
def dot_S2048x300_S100x300_S2048x100_1_1_0_0_n_n : DotDims S2048x300 S100x300 S2048x100 where
  lhsContracting := [1]
  rhsContracting := [1]
  lhsNonContracting := [0]
  rhsNonContracting := [0]
  lhsBatch := []
  rhsBatch := []
  wf := dot_S2048x300_S100x300_S2048x100_1_1_0_0_n_n_wf
def dot_S2048x100_S10x100_S2048x10_1_1_0_0_n_n : DotDims S2048x100 S10x100 S2048x10 where
  lhsContracting := [1]
  rhsContracting := [1]
  lhsNonContracting := [0]
  rhsNonContracting := [0]
  lhsBatch := []
  rhsBatch := []
  wf := dot_S2048x100_S10x100_S2048x10_1_1_0_0_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S300x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S2048x300.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x2x300.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v7_0) S2048x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S2048x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S2048x300.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x300.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x300.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S100x300.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3) S1x100.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23_0) S2048x100.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v23_1) S1x2x100.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v23_0) S2048x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S2048x100.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S2048x100.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x100.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x100.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S1x100.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5) S1x100.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S10x100.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v6) S1x10.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v39) S2048x10.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S65536x784 : Shape := ⟨2, ![65536, 784]⟩
abbrev S300x784 : Shape := ⟨2, ![300, 784]⟩
abbrev S300 : Shape := ⟨1, ![300]⟩
abbrev S65536x300 : Shape := ⟨2, ![65536, 300]⟩
abbrev S100x300 : Shape := ⟨2, ![100, 300]⟩
abbrev S100 : Shape := ⟨1, ![100]⟩
abbrev S65536x100 : Shape := ⟨2, ![65536, 100]⟩
abbrev S10x100 : Shape := ⟨2, ![10, 100]⟩
abbrev S10 : Shape := ⟨1, ![10]⟩
abbrev S784x300 : Shape := ⟨2, ![784, 300]⟩
abbrev S1x300 : Shape := ⟨2, ![1, 300]⟩
abbrev S_ : Shape := ⟨0, ![]⟩
abbrev S300x100 : Shape := ⟨2, ![300, 100]⟩
abbrev S1x100 : Shape := ⟨2, ![1, 100]⟩
abbrev S100x10 : Shape := ⟨2, ![100, 10]⟩
abbrev S65536x10 : Shape := ⟨2, ![65536, 10]⟩
abbrev S1x10 : Shape := ⟨2, ![1, 10]⟩

abbrev nBuf : Space → Nat
  | .hbm => 128
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S300x784, .f32⟩
  | .hbm, ⟨2, _⟩ => ⟨S300, .f32⟩
  | .hbm, ⟨3, _⟩ => ⟨S300, .f32⟩
  | .hbm, ⟨4, _⟩ => ⟨S300, .f32⟩
  | .hbm, ⟨5, _⟩ => ⟨S65536x300, .f32⟩
  | .hbm, ⟨6, _⟩ => ⟨S65536x300, .f32⟩
  | .hbm, ⟨7, _⟩ => ⟨S100x300, .f32⟩
  | .hbm, ⟨8, _⟩ => ⟨S100, .f32⟩
  | .hbm, ⟨9, _⟩ => ⟨S100, .f32⟩
  | .hbm, ⟨10, _⟩ => ⟨S100, .f32⟩
  | .hbm, ⟨11, _⟩ => ⟨S65536x100, .f32⟩
  | .hbm, ⟨12, _⟩ => ⟨S65536x100, .f32⟩
  | .hbm, ⟨13, _⟩ => ⟨S10x100, .f32⟩
  | .hbm, ⟨14, _⟩ => ⟨S10, .f32⟩
  | .hbm, ⟨15, _⟩ => ⟨S784x300, .f32⟩
  | .hbm, ⟨16, _⟩ => ⟨S65536x300, .f32⟩
  | .hbm, ⟨17, _⟩ => ⟨S1x300, .f32⟩
  | .hbm, ⟨18, _⟩ => ⟨S65536x300, .f32⟩
  | .hbm, ⟨19, _⟩ => ⟨S65536x300, .f32⟩
  | .hbm, ⟨20, _⟩ => ⟨S_, .f32⟩
  | .hbm, ⟨21, _⟩ => ⟨S65536x300, .f32⟩
  | .hbm, ⟨22, _⟩ => ⟨S65536x300, .f32⟩
  | .hbm, ⟨23, _⟩ => ⟨S_, .f32⟩
  | .hbm, ⟨24, _⟩ => ⟨S300, .f32⟩
  | .hbm, ⟨25, _⟩ => ⟨S_, .f32⟩
  | .hbm, ⟨26, _⟩ => ⟨S300, .f32⟩
  | .hbm, ⟨27, _⟩ => ⟨S300, .f32⟩
  | .hbm, ⟨28, _⟩ => ⟨S_, .i32⟩
  | .hbm, ⟨29, _⟩ => ⟨S_, .f32⟩
  | .hbm, ⟨30, _⟩ => ⟨S300, .f32⟩
  | .hbm, ⟨31, _⟩ => ⟨S1x300, .f32⟩
  | .hbm, ⟨32, _⟩ => ⟨S_, .f32⟩
  | .hbm, ⟨33, _⟩ => ⟨S1x300, .f32⟩
  | .hbm, ⟨34, _⟩ => ⟨S1x300, .f32⟩
  | .hbm, ⟨35, _⟩ => ⟨S65536x300, .f32⟩
  | .hbm, ⟨36, _⟩ => ⟨S65536x300, .f32⟩
  | .hbm, ⟨37, _⟩ => ⟨S65536x300, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S300, .f32⟩
  | .hbm, ⟨43, _⟩ => ⟨S300, .f32⟩
  | .hbm, ⟨44, _⟩ => ⟨S300, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S300, .f32⟩
  | .hbm, ⟨50, _⟩ => ⟨S300, .f32⟩
  | .hbm, ⟨51, _⟩ => ⟨S1x300, .f32⟩
  | .hbm, ⟨52, _⟩ => ⟨S65536x300, .f32⟩
  | .hbm, ⟨53, _⟩ => ⟨S65536x300, .f32⟩
  | .hbm, ⟨54, _⟩ => ⟨S1x300, .f32⟩
  | .hbm, ⟨55, _⟩ => ⟨S65536x300, .f32⟩
  | .hbm, ⟨56, _⟩ => ⟨S65536x300, .f32⟩
  | .hbm, ⟨57, _⟩ => ⟨S_, .f32⟩
  | .hbm, ⟨58, _⟩ => ⟨S300, .f32⟩
  | .hbm, ⟨59, _⟩ => ⟨S300, .f32⟩
  | .hbm, ⟨60, _⟩ => ⟨S300, .f32⟩
  | .hbm, ⟨61, _⟩ => ⟨S1x300, .f32⟩
  | .hbm, ⟨62, _⟩ => ⟨S65536x300, .f32⟩
  | .hbm, ⟨63, _⟩ => ⟨S65536x300, .f32⟩
  | .hbm, ⟨64, _⟩ => ⟨S1x300, .f32⟩
  | .hbm, ⟨65, _⟩ => ⟨S65536x300, .f32⟩
  | .hbm, ⟨66, _⟩ => ⟨S65536x300, .f32⟩
  | .hbm, ⟨67, _⟩ => ⟨S65536x300, .f32⟩
  | .hbm, ⟨68, _⟩ => ⟨S65536x300, .f32⟩
  | .hbm, ⟨69, _⟩ => ⟨S300x100, .f32⟩
  | .hbm, ⟨70, _⟩ => ⟨S65536x100, .f32⟩
  | .hbm, ⟨71, _⟩ => ⟨S1x100, .f32⟩
  | .hbm, ⟨72, _⟩ => ⟨S65536x100, .f32⟩
  | .hbm, ⟨73, _⟩ => ⟨S65536x100, .f32⟩
  | .hbm, ⟨74, _⟩ => ⟨S_, .f32⟩
  | .hbm, ⟨75, _⟩ => ⟨S65536x100, .f32⟩
  | .hbm, ⟨76, _⟩ => ⟨S65536x100, .f32⟩
  | .hbm, ⟨77, _⟩ => ⟨S_, .f32⟩
  | .hbm, ⟨78, _⟩ => ⟨S100, .f32⟩
  | .hbm, ⟨79, _⟩ => ⟨S_, .f32⟩
  | .hbm, ⟨80, _⟩ => ⟨S100, .f32⟩
  | .hbm, ⟨81, _⟩ => ⟨S100, .f32⟩
  | .hbm, ⟨82, _⟩ => ⟨S_, .i32⟩
  | .hbm, ⟨83, _⟩ => ⟨S_, .f32⟩
  | .hbm, ⟨84, _⟩ => ⟨S100, .f32⟩
  | .hbm, ⟨85, _⟩ => ⟨S1x100, .f32⟩
  | .hbm, ⟨86, _⟩ => ⟨S_, .f32⟩
  | .hbm, ⟨87, _⟩ => ⟨S1x100, .f32⟩
  | .hbm, ⟨88, _⟩ => ⟨S1x100, .f32⟩
  | .hbm, ⟨89, _⟩ => ⟨S65536x100, .f32⟩
  | .hbm, ⟨90, _⟩ => ⟨S65536x100, .f32⟩
  | .hbm, ⟨91, _⟩ => ⟨S65536x100, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S100, .f32⟩
  | .hbm, ⟨97, _⟩ => ⟨S100, .f32⟩
  | .hbm, ⟨98, _⟩ => ⟨S100, .f32⟩
  | .hbm, ⟨99, _⟩ => ⟨S_, .f32⟩
  | .hbm, ⟨100, _⟩ => ⟨S_, .i1⟩
  | .hbm, ⟨101, _⟩ => ⟨S_, .f32⟩
  | .hbm, ⟨102, _⟩ => ⟨S_, .f32⟩
  | .hbm, ⟨103, _⟩ => ⟨S100, .f32⟩
  | .hbm, ⟨104, _⟩ => ⟨S100, .f32⟩
  | .hbm, ⟨105, _⟩ => ⟨S1x100, .f32⟩
  | .hbm, ⟨106, _⟩ => ⟨S65536x100, .f32⟩
  | .hbm, ⟨107, _⟩ => ⟨S65536x100, .f32⟩
  | .hbm, ⟨108, _⟩ => ⟨S1x100, .f32⟩
  | .hbm, ⟨109, _⟩ => ⟨S65536x100, .f32⟩
  | .hbm, ⟨110, _⟩ => ⟨S65536x100, .f32⟩
  | .hbm, ⟨111, _⟩ => ⟨S_, .f32⟩
  | .hbm, ⟨112, _⟩ => ⟨S100, .f32⟩
  | .hbm, ⟨113, _⟩ => ⟨S100, .f32⟩
  | .hbm, ⟨114, _⟩ => ⟨S100, .f32⟩
  | .hbm, ⟨115, _⟩ => ⟨S1x100, .f32⟩
  | .hbm, ⟨116, _⟩ => ⟨S65536x100, .f32⟩
  | .hbm, ⟨117, _⟩ => ⟨S65536x100, .f32⟩
  | .hbm, ⟨118, _⟩ => ⟨S1x100, .f32⟩
  | .hbm, ⟨119, _⟩ => ⟨S65536x100, .f32⟩
  | .hbm, ⟨120, _⟩ => ⟨S65536x100, .f32⟩
  | .hbm, ⟨121, _⟩ => ⟨S65536x100, .f32⟩
  | .hbm, ⟨122, _⟩ => ⟨S65536x100, .f32⟩
  | .hbm, ⟨123, _⟩ => ⟨S100x10, .f32⟩
  | .hbm, ⟨124, _⟩ => ⟨S65536x10, .f32⟩
  | .hbm, ⟨125, _⟩ => ⟨S1x10, .f32⟩
  | .hbm, ⟨126, _⟩ => ⟨S65536x10, .f32⟩
  | .hbm, ⟨127, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_cst_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_cst_1 : Ref sig .tc := ⟨.hbm, 39, rfl⟩
abbrev main_call1_v8 : Ref sig .tc := ⟨.hbm, 40, rfl⟩
abbrev main_call1_cst_2 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_cst_3 : Ref sig .tc := ⟨.hbm, 45, rfl⟩
abbrev main_call1_v12 : Ref sig .tc := ⟨.hbm, 46, rfl⟩
abbrev main_call1_cst_4 : Ref sig .tc := ⟨.hbm, 47, rfl⟩
abbrev main_call1_call0_v0 : Ref sig .tc := ⟨.hbm, 48, rfl⟩
abbrev main_call1_call0_v1 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_cst_1 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_call2_cst : Ref sig .tc := ⟨.hbm, 74, rfl⟩
abbrev main_call2_v0 : Ref sig .tc := ⟨.hbm, 75, rfl⟩
abbrev main_v32 : Ref sig .tc := ⟨.hbm, 76, rfl⟩
abbrev main_cst_2 : Ref sig .tc := ⟨.hbm, 77, rfl⟩
abbrev main_v33 : Ref sig .tc := ⟨.hbm, 78, rfl⟩
abbrev main_cst_3 : Ref sig .tc := ⟨.hbm, 79, rfl⟩
abbrev main_v34 : Ref sig .tc := ⟨.hbm, 80, rfl⟩
abbrev main_v35 : Ref sig .tc := ⟨.hbm, 81, rfl⟩
abbrev main_c_4 : Ref sig .tc := ⟨.hbm, 82, rfl⟩
abbrev main_call3_cst : Ref sig .tc := ⟨.hbm, 83, rfl⟩
abbrev main_call3_v0 : Ref sig .tc := ⟨.hbm, 84, rfl⟩
abbrev main_call3_v1 : Ref sig .tc := ⟨.hbm, 85, rfl⟩
abbrev main_call3_cst_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_v7 : Ref sig .tc := ⟨.hbm, 92, rfl⟩
abbrev main_call3_cst_1 : Ref sig .tc := ⟨.hbm, 93, rfl⟩
abbrev main_call3_v8 : Ref sig .tc := ⟨.hbm, 94, rfl⟩
abbrev main_call3_cst_2 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_cst_3 : Ref sig .tc := ⟨.hbm, 99, rfl⟩
abbrev main_call3_v12 : Ref sig .tc := ⟨.hbm, 100, rfl⟩
abbrev main_call3_cst_4 : Ref sig .tc := ⟨.hbm, 101, rfl⟩
abbrev main_call3_call0_v0 : Ref sig .tc := ⟨.hbm, 102, rfl⟩
abbrev main_call3_call0_v1 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_5 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩

abbrev nD : Nat := 1
abbrev τ : Topo := Topo.v7x

variable {F : FTy → Type} [FloatOps F]

class Facts₀ : Prop where
  transposes_S300x784_S784x300_1_0 : S300x784.Transposes [1, 0] S784x300
  bcast_S300_S1x300_1 : S300.BroadcastsInDim S1x300 (![1] : Fin 1 → Fin S1x300.rank)
  bcast_S1x300_S65536x300_0_1 : S1x300.BroadcastsInDim S65536x300 (![0, 1] : Fin 2 → Fin S65536x300.rank)
  bcast_S_S65536x300 : S_.BroadcastsInDim S65536x300 (![] : Fin 0 → Fin S65536x300.rank)
  reducesTo_S65536x300_S300_d0 : S65536x300.ReducesTo [0] S300
  h_S_ : 0 < S_.numel
  bcast_S_S300 : S_.BroadcastsInDim S300 (![] : Fin 0 → Fin S300.rank)
  bcast_S_S1x300 : S_.BroadcastsInDim S1x300 (![] : Fin 0 → Fin S1x300.rank)
  transposes_S100x300_S300x100_1_0 : S100x300.Transposes [1, 0] S300x100
  bcast_S100_S1x100_1 : S100.BroadcastsInDim S1x100 (![1] : Fin 1 → Fin S1x100.rank)
  bcast_S1x100_S65536x100_0_1 : S1x100.BroadcastsInDim S65536x100 (![0, 1] : Fin 2 → Fin S65536x100.rank)
  bcast_S_S65536x100 : S_.BroadcastsInDim S65536x100 (![] : Fin 0 → Fin S65536x100.rank)
  reducesTo_S65536x100_S100_d0 : S65536x100.ReducesTo [0] S100
  bcast_S_S100 : S_.BroadcastsInDim S100 (![] : Fin 0 → Fin S100.rank)
  bcast_S_S1x100 : S_.BroadcastsInDim S1x100 (![] : Fin 0 → Fin S1x100.rank)
  transposes_S10x100_S100x10_1_0 : S10x100.Transposes [1, 0] S100x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  dot_S65536x784_S784x300_S65536x300_1_0_0_1_n_n_wf : DotDims.WF S65536x784 S784x300 S65536x300 [1] [0] [0] [1] [] []
  dot_S65536x300_S300x100_S65536x100_1_0_0_1_n_n_wf : DotDims.WF S65536x300 S300x100 S65536x100 [1] [0] [0] [1] [] []
  dot_S65536x100_S100x10_S65536x10_1_0_0_1_n_n_wf : DotDims.WF S65536x100 S100x10 S65536x10 [1] [0] [0] [1] [] []

variable [Facts₀]

def dot_S65536x784_S784x300_S65536x300_1_0_0_1_n_n : DotDims S65536x784 S784x300 S65536x300 where
  lhsContracting := [1]
  rhsContracting := [0]
  lhsNonContracting := [0]
  rhsNonContracting := [1]
  lhsBatch := []
  rhsBatch := []
  wf := dot_S65536x784_S784x300_S65536x300_1_0_0_1_n_n_wf
def dot_S65536x300_S300x100_S65536x100_1_0_0_1_n_n : DotDims S65536x300 S300x100 S65536x100 where
  lhsContracting := [1]
  rhsContracting := [0]
  lhsNonContracting := [0]
  rhsNonContracting := [1]
  lhsBatch := []
  rhsBatch := []
  wf := dot_S65536x300_S300x100_S65536x100_1_0_0_1_n_n_wf
def dot_S65536x100_S100x10_S65536x10_1_0_0_1_n_n : DotDims S65536x100 S100x10 S65536x10 where
  lhsContracting := [1]
  rhsContracting := [0]
  lhsNonContracting := [0]
  rhsNonContracting := [1]
  lhsBatch := []
  rhsBatch := []
  wf := dot_S65536x100_S100x10_S65536x10_1_0_0_1_n_n_wf

class Facts : Prop extends Facts₀ where

variable [Facts]
-- ==== Proof.RunAll.lean ====
/-
  The whole run of the kernel program, with every buffer's final contents named.

  The program is six segments: three stretches of host operations and three kernel regions.  The contents of the
  TensorCore's buffers at each boundary are a fold through the program (`Gen.W0` … `Gen.W6`): a host stretch
  applies its operations to the contents before it; a region leaves each of its arrays at what its write-backs
  fold to and every other buffer as it found it.  Every weakly fair execution terminates without a fault, and in
  the final memory every buffer that lives for the whole program holds the last fold `Gen.W6`.
-/
import proofs.«169054_j38500086842157_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and
    each buffer that lives for the whole program ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Run

end
-- ==== Proof.KerRun.lean ====
/-
  The kernel program's run with its result named: every weakly fair execution terminates, the result array ends at
  the last boundary's contents, and the fifteen argument arrays end as launched.
-/
import proofs.«169054_j38500086842157_2_alg».proof.Proof.RunAll

set_option maxRecDepth 16384

noncomputable section

namespace Cert.KernelIdeal.Run

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem run_result : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v39 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c)⟩)
    (run_all m ρ)

end Cert.KernelIdeal.Run

end
-- ==== Proof.LibRowForms.lean ====
/-
  Three reads at an index beside the library's layout lemmas, at any extents.

  A sum DOWN the columns of an `[a, b]` array (a reduction along its first axis) at column `c` runs over `k ↦ (k, c)`.
  A unit-stride slice of a matrix with an offset on BOTH axes (a diagonal block), or of a vector, reads its operand at
  the index moved by the offsets. A matrix `[a, b]` flattened to a row `[1, n]` reads, at position `k = p·b + q`, the
  matrix at `(p, q)`. The indices are written by coordinates, so each lemma applies to a printed operation by
  unification.
-/
import Idealize.ShloMosaic.Lib.ValueLayout
import Idealize.ShloMosaic.PureOps.Ideal.Laws

namespace Idealize.ShloMosaic.ValueIdx

open Idealize.ShloMosaic

variable {α : Type}

/-- Over a reduction of `[a, b]` along its FIRST axis, the source index above column `c` with `k` on the dropped axis is `(k, c)`. -/
theorem lift_col {a b : ℕ} (h : (⟨2, ![a, b]⟩ : Shape).Reduces [(0 : Fin 2)] ⟨1, ![b]⟩) (c : Fin b) (k : Fin a) :
    h.lift (ix1 c) k = ix2 k c :=
  funext fun d => Fin.ext (by match d with | ⟨0, _⟩ => rfl | ⟨1, _⟩ => rfl)

variable {φ : FTy}

/-- A sum down the columns of an `[a, b]` array at column `c`, at the exact values: the sum over the column. -/
theorem multiReduction_add_col {a b : ℕ} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (c : Fin b) :
    multiReduction .add [(0 : Fin 2)] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_col h c k)

/-- A unit-stride slice of a matrix reads the matrix at the index moved by the offsets. -/
theorem slice2_apply {A B a b : ℕ} (o0 o1 : ℕ) (x : (⟨2, ![A, B]⟩ : Shape).Idx → α)
    (h : (⟨2, ![A, B]⟩ : Shape).Slices ![o0, o1] ⟨2, ![a, b]⟩) (p : Fin a) (q : Fin b) (P : Fin A) (Q : Fin B)
    (hP : P.val = o0 + p.val) (hQ : Q.val = o1 + q.val) :
    extractStridedSlice ⟨2, ![a, b]⟩ ![o0, o1] x h (ix2 p q) = x (ix2 P Q) :=
  extractStridedSlice_apply ![o0, o1] x h (ix2 p q) (ix2 P Q) fun ax => by
    match ax with
    | ⟨0, _⟩ => exact hP
    | ⟨1, _⟩ => exact hQ

/-- A unit-stride slice of a vector reads the vector at the index moved by the offset. -/
theorem slice1_apply {A a : ℕ} (o : ℕ) (x : (⟨1, ![A]⟩ : Shape).Idx → α)
    (h : (⟨1, ![A]⟩ : Shape).Slices ![o] ⟨1, ![a]⟩) (p : Fin a) (P : Fin A) (hP : P.val = o + p.val) :
    extractStridedSlice ⟨1, ![a]⟩ ![o] x h (ix1 p) = x (ix1 P) :=
  extractStridedSlice_apply ![o] x h (ix1 p) (ix1 P) fun ax => by
    match ax with
    | ⟨0, _⟩ => exact hP

/-- A matrix `[a, b]` flattened to the row `[1, a·b]` reads, at `(u, k)`, the matrix at `(k / b, k % b)`. -/
theorem shapeCast_ab_1n_apply {a b n : ℕ} (v : (⟨2, ![a, b]⟩ : Shape).Idx → α) (h : (⟨2, ![a, b]⟩ : Shape).ShapeCasts ⟨2, ![1, n]⟩)
    (u : Fin 1) (k : Fin n) (p : Fin a) (q : Fin b) (hk : k.val = p.val * b + q.val) :
    shapeCast ⟨2, ![1, n]⟩ v h (ix2 u k) = v (ix2 p q) :=
  shapeCast_apply v h _ _ (by
    have hu : u.val = 0 := by omega
    rw [Shape.rowMajor_val_two, Shape.rowMajor_val_two]
    show p.val * b + q.val = u.val * n + k.val
    rw [hu, hk, Nat.zero_mul, Nat.zero_add])

end Idealize.ShloMosaic.ValueIdx
-- ==== Proof.Spec.lean ====
/-
  The two networks as functions on the extended reals.

  Both programs compute a three-layer perceptron over a batch of 65536 rows with a batch normalisation and a
  multiplicative/additive noise after each of the first two layers:
      h  = max (X·Wᵀ + b) 0,   z = s · (g · (h − mean) · rsqrt (var + ε) + β) + m,   out = Z₂·W₃ᵀ + b₃.
  They differ in how a column's mean and variance are obtained.  One side sums a column over the whole batch and
  takes the mean of the squared deviations; the other sums a column and its squares tile by tile (32 tiles of 2048
  rows, the tiles of each half of the batch added up separately and the two halves added at the end) and takes
  max (E[h²] − mean², 0).  On real entries the two agree: a finite sum may be regrouped at will, and
  E[(h − μ)²] = E[h²] − μ² ≥ 0.
-/
import Idealize.ShloMosaic.PureOps.Ideal

noncomputable section

open Idealize.ShloMosaic

namespace Cert.Spec

/-- The batch size as the programs spell it: the f32 word of 65536. -/
def cN : EReal := Ideal.ofBits .f32 0x47800000#32
/-- The normalisation's ε as the programs spell it: the f32 word nearest 1e-5. -/
def eps : EReal := Ideal.ofBits .f32 0x3727C5AC#32

/-- Row `a` of tile `t`: the batch is cut into 32 consecutive tiles of 2048 rows. -/
def rowOf (t : Fin 32) (a : Fin 2048) : Fin 65536 := ⟨t.val * 2048 + a.val, by have := t.isLt; have := a.isLt; omega⟩
/-- Tile `i` of half `c`: each half of the batch is 16 consecutive tiles. -/
def ptOf (c : Fin 2) (i : Fin 16) : Fin 32 := ⟨c.val * 16 + i.val, by have := c.isLt; have := i.isLt; omega⟩

variable {k f : Nat}

/-- A dense layer: X·Wᵀ + b. -/
def dense (X : Fin 65536 → Fin k → EReal) (W : Fin f → Fin k → EReal) (b : Fin f → EReal)
    (r : Fin 65536) (j : Fin f) : EReal :=
  (∑ c : Fin k, X r c * W j c) + b j

/-- A dense layer followed by the rectifier. -/
def hid (X : Fin 65536 → Fin k → EReal) (W : Fin f → Fin k → EReal) (b : Fin f → EReal)
    (r : Fin 65536) (j : Fin f) : EReal :=
  max (dense X W b r j) 0

/-- Entrywise square. -/
def sq (H : Fin 65536 → Fin f → EReal) (r : Fin 65536) (j : Fin f) : EReal := H r j * H r j

/-- The sum of column `j` over the rows of tile `t`. -/
def tileSum (H : Fin 65536 → Fin f → EReal) (t : Fin 32) (j : Fin f) : EReal := ∑ a : Fin 2048, H (rowOf t a) j
/-- The sum of column `j` over the 16 tiles of half `c`. -/
def coreSum (H : Fin 65536 → Fin f → EReal) (c : Fin 2) (j : Fin f) : EReal := ∑ i : Fin 16, tileSum H (ptOf c i) j

/-- The column mean from the two halves' partial sums. -/
def meanK (H : Fin 65536 → Fin f → EReal) (j : Fin f) : EReal := Ideal.div (coreSum H 0 j + coreSum H 1 j) cN
/-- The column variance as max (E[h²] − mean², 0), from the two halves' partial sums of squares. -/
def varK (H : Fin 65536 → Fin f → EReal) (j : Fin f) : EReal :=
  max (Ideal.div (coreSum (sq H) 0 j + coreSum (sq H) 1 j) cN - meanK H j * meanK H j) 0

/-- The column mean as one sum over the batch. -/
def meanR (H : Fin 65536 → Fin f → EReal) (j : Fin f) : EReal := Ideal.div (∑ r : Fin 65536, H r j) cN
/-- The column variance as the mean of the squared deviations. -/
def varR (H : Fin 65536 → Fin f → EReal) (j : Fin f) : EReal :=
  Ideal.div (∑ r : Fin 65536, (H r j - meanR H j) * (H r j - meanR H j)) cN

/-- Batch normalisation with given column statistics, then the noise: s · (g · (h − mean) · rsqrt (var + ε) + β) + m. -/
def bn (H : Fin 65536 → Fin f → EReal) (mean var g be : Fin f → EReal) (s mm : Fin 65536 → Fin f → EReal)
    (r : Fin 65536) (j : Fin f) : EReal :=
  s r j * (g j * (H r j - mean j) * Ideal.rsqrt (var j + eps) + be j) + mm r j

variable {k1 f1 f2 f3 : Nat}

/-- The network with tile-wise statistics. -/
def netK (x : Fin 65536 → Fin k1 → EReal) (W1 : Fin f1 → Fin k1 → EReal) (b1 g1 be1 : Fin f1 → EReal)
    (s1 m1 : Fin 65536 → Fin f1 → EReal) (W2 : Fin f2 → Fin f1 → EReal) (b2 g2 be2 : Fin f2 → EReal)
    (s2 m2 : Fin 65536 → Fin f2 → EReal) (W3 : Fin f3 → Fin f2 → EReal) (b3 : Fin f3 → EReal) :
    Fin 65536 → Fin f3 → EReal :=
  let H1 := hid x W1 b1
  let Z1 := bn H1 (meanK H1) (varK H1) g1 be1 s1 m1
  let H2 := hid Z1 W2 b2
  let Z2 := bn H2 (meanK H2) (varK H2) g2 be2 s2 m2
  dense Z2 W3 b3

/-- The network with whole-batch statistics. -/
def netR (x : Fin 65536 → Fin k1 → EReal) (W1 : Fin f1 → Fin k1 → EReal) (b1 g1 be1 : Fin f1 → EReal)
    (s1 m1 : Fin 65536 → Fin f1 → EReal) (W2 : Fin f2 → Fin f1 → EReal) (b2 g2 be2 : Fin f2 → EReal)
    (s2 m2 : Fin 65536 → Fin f2 → EReal) (W3 : Fin f3 → Fin f2 → EReal) (b3 : Fin f3 → EReal) :
    Fin 65536 → Fin f3 → EReal :=
  let H1 := hid x W1 b1
  let Z1 := bn H1 (meanR H1) (varR H1) g1 be1 s1 m1
  let H2 := hid Z1 W2 b2
  let Z2 := bn H2 (meanR H2) (varR H2) g2 be2 s2 m2
  dense Z2 W3 b3

/-- Every entry of a vector is a real number. -/
def Real1 {n : Nat} (v : Fin n → EReal) : Prop := ∀ j, ∃ y : ℝ, v j = (y : EReal)
/-- Every entry of a matrix is a real number. -/
def Real2 {n p : Nat} (A : Fin n → Fin p → EReal) : Prop := ∀ r j, ∃ y : ℝ, A r j = (y : EReal)

end Cert.Spec

end
-- ==== Proof.Arr.lean ====
/-
  An array over the extended reals read as a function of its coordinates: a matrix [n, p] as a function of
  (row, column), a vector [n] as a function of its one coordinate, and a one-row matrix [1, n] (a per-column
  parameter kept as a row) as a function of the column.
-/
import Idealize.ShloMosaic.Lib.ValueIdx

noncomputable section

open Idealize.ShloMosaic Idealize.ShloMosaic.ValueIdx

namespace Cert.Spec

/-- A matrix as a function of (row, column). -/
abbrev mat {n p : Nat} (A : (⟨2, ![n, p]⟩ : Shape).Idx → EReal) : Fin n → Fin p → EReal := fun r c => A (ix2 r c)
/-- A vector as a function of its coordinate. -/
abbrev vec {n : Nat} (v : (⟨1, ![n]⟩ : Shape).Idx → EReal) : Fin n → EReal := fun j => v (ix1 j)
/-- A one-row matrix as a function of the column. -/
abbrev row {n : Nat} (v : (⟨2, ![1, n]⟩ : Shape).Idx → EReal) : Fin n → EReal := fun j => v (ix2 (0 : Fin 1) j)

end Cert.Spec

end
-- ==== Proof.HostStats.lean ====
/-
  The host lines between two kernel regions, read at a column.

  A region leaves per-half statistics `st` of shape [2, 2, f]: `st (h, 0, j)` the sum of column `j` over half `h`
  of the batch and `st (h, 1, j)` the sum of its squares.  The host adds the two halves (a sum over the leading
  axis from zero), takes row 0 and row 1 of the [2, f] result, divides each by the batch size, and forms
  mean = S/N and var = max (Q/N − mean·mean, 0), each kept as a one-row matrix [1, f].  Read at column `j` these are
  the specification's `meanK` and `varK` whenever `st` holds the half sums of one matrix `H` and of its squares.
-/
import Idealize.ShloMosaic.Lib.IdealHost
import Idealize.ShloMosaic.Lib.ValueLayout
import Idealize.ShloMosaic.Lib.Pipeline.Value
import Idealize.ShloMosaic.PureOps.Ideal.Laws
import proofs.«169054_j38500086842157_2_alg».proof.Proof.LibRowForms
import proofs.«169054_j38500086842157_2_alg».proof.Proof.Spec
import proofs.«169054_j38500086842157_2_alg».proof.Proof.Arr

noncomputable section

open Idealize.ShloMosaic Idealize.ShloMosaic.ValueIdx Cert.Spec

namespace Cert.HostStats

variable {f : ℕ}

/-- Over a sum along the leading axis of [2, 2, f], the source index above (a, j) with `k` on the dropped axis is (k, a, j). -/
theorem lift_lead (h : (⟨3, ![2, 2, f]⟩ : Shape).Reduces [(0 : Fin 3)] ⟨2, ![2, f]⟩) (a : Fin 2) (j : Fin f) (k : Fin 2) :
    h.lift (ix2 a j) k = ix3 k a j :=
  funext fun d => Fin.ext (by match d with | ⟨0, _⟩ => rfl | ⟨1, _⟩ => rfl | ⟨2, _⟩ => rfl)

/-- The sum of the two halves from the zero word, at (a, j). -/
theorem halves_apply (st : FVec Ideal ⟨3, ![2, 2, f]⟩ .f32)
    (hr : (⟨3, ![2, 2, f]⟩ : Shape).ReducesTo [(0 : Fin 3)] ⟨2, ![2, f]⟩)
    (hR : (⟨3, ![2, 2, f]⟩ : Shape).Reduces [(0 : Fin 3)] ⟨2, ![2, f]⟩)
    (hu : 0 < (⟨0, ![]⟩ : Shape).numel) (a : Fin 2) (j : Fin f) :
    Host.reduceAdd st (constant (F := Ideal) ⟨0, ![]⟩ .f32 0x00000000#32) hr hu (ix2 a j)
      = st (ix3 0 a j) + st (ix3 1 a j) := by
  rw [hostReduceAdd_apply, Ideal.hostReduceAdd_single hr hR]
  show Ideal.ofBits .f32 0x00000000#32 + (∑ k : Fin 2, st (hR.lift (ix2 a j) k)) = _
  rw [Ideal.ofBits_zero_f32, zero_add, Fin.sum_univ_two, lift_lead, lift_lead]

/-- Row `o` of the summed halves as a vector, at `j`. -/
theorem halfRow_apply (st : FVec Ideal ⟨3, ![2, 2, f]⟩ .f32)
    (hr : (⟨3, ![2, 2, f]⟩ : Shape).ReducesTo [(0 : Fin 3)] ⟨2, ![2, f]⟩)
    (hR : (⟨3, ![2, 2, f]⟩ : Shape).Reduces [(0 : Fin 3)] ⟨2, ![2, f]⟩)
    (hu : 0 < (⟨0, ![]⟩ : Shape).numel) (o : ℕ) (ho : o < 2)
    (hs : (⟨2, ![2, f]⟩ : Shape).Slices ![o, 0] ⟨2, ![1, f]⟩)
    (hc : (⟨2, ![1, f]⟩ : Shape).ShapeCasts ⟨1, ![f]⟩) (j : Fin f) :
    shapeCast ⟨1, ![f]⟩ (extractStridedSlice ⟨2, ![1, f]⟩ ![o, 0]
        (Host.reduceAdd st (constant (F := Ideal) ⟨0, ![]⟩ .f32 0x00000000#32) hr hu) hs) hc (ix1 j)
      = st (ix3 0 (⟨o, ho⟩ : Fin 2) j) + st (ix3 1 (⟨o, ho⟩ : Fin 2) j) := by
  rw [shapeCast_1a_a_apply, slice2_apply o 0 _ hs (0 : Fin 1) j (⟨o, ho⟩ : Fin 2) j (by simp) (by simp), halves_apply st hr hR hu]

/-- The mean row at column `j`: (S₀ + S₁) / N. -/
theorem meanRow_apply (st : FVec Ideal ⟨3, ![2, 2, f]⟩ .f32)
    (hr : (⟨3, ![2, 2, f]⟩ : Shape).ReducesTo [(0 : Fin 3)] ⟨2, ![2, f]⟩)
    (hR : (⟨3, ![2, 2, f]⟩ : Shape).Reduces [(0 : Fin 3)] ⟨2, ![2, f]⟩)
    (hu : 0 < (⟨0, ![]⟩ : Shape).numel)
    (hs0 : (⟨2, ![2, f]⟩ : Shape).Slices ![0, 0] ⟨2, ![1, f]⟩)
    (hc : (⟨2, ![1, f]⟩ : Shape).ShapeCasts ⟨1, ![f]⟩)
    (hb : (⟨0, ![]⟩ : Shape).BroadcastsInDim ⟨1, ![f]⟩ ![])
    (hc' : (⟨1, ![f]⟩ : Shape).ShapeCasts ⟨2, ![1, f]⟩) (j : Fin f) :
    shapeCast ⟨2, ![1, f]⟩
        (Host.divf
          (shapeCast ⟨1, ![f]⟩ (extractStridedSlice ⟨2, ![1, f]⟩ ![0, 0]
            (Host.reduceAdd st (constant (F := Ideal) ⟨0, ![]⟩ .f32 0x00000000#32) hr hu) hs0) hc)
          (broadcastInDim ⟨1, ![f]⟩ ![] hb (constant (F := Ideal) ⟨0, ![]⟩ .f32 0x47800000#32))) hc' (ix2 (0 : Fin 1) j)
      = Ideal.div (st (ix3 0 0 j) + st (ix3 1 0 j)) cN := by
  rw [shapeCast_a_1a_apply, hostDivf_apply, broadcastInDim_scalar_apply,
    halfRow_apply st hr hR hu 0 (by omega) hs0 hc j]
  rfl

/-- The variance row at column `j`: max ((Q₀ + Q₁) / N − mean · mean, 0). -/
theorem varRow_apply (st : FVec Ideal ⟨3, ![2, 2, f]⟩ .f32)
    (hr : (⟨3, ![2, 2, f]⟩ : Shape).ReducesTo [(0 : Fin 3)] ⟨2, ![2, f]⟩)
    (hR : (⟨3, ![2, 2, f]⟩ : Shape).Reduces [(0 : Fin 3)] ⟨2, ![2, f]⟩)
    (hu : 0 < (⟨0, ![]⟩ : Shape).numel)
    (hs0 : (⟨2, ![2, f]⟩ : Shape).Slices ![0, 0] ⟨2, ![1, f]⟩)
    (hs1 : (⟨2, ![2, f]⟩ : Shape).Slices ![1, 0] ⟨2, ![1, f]⟩)
    (hc : (⟨2, ![1, f]⟩ : Shape).ShapeCasts ⟨1, ![f]⟩)
    (hb : (⟨0, ![]⟩ : Shape).BroadcastsInDim ⟨1, ![f]⟩ ![])
    (hc' : (⟨1, ![f]⟩ : Shape).ShapeCasts ⟨2, ![1, f]⟩) (j : Fin f) :
    shapeCast ⟨2, ![1, f]⟩
        (maximumf
          (subf
            (Host.divf
              (shapeCast ⟨1, ![f]⟩ (extractStridedSlice ⟨2, ![1, f]⟩ ![1, 0]
                (Host.reduceAdd st (constant (F := Ideal) ⟨0, ![]⟩ .f32 0x00000000#32) hr hu) hs1) hc)
              (broadcastInDim ⟨1, ![f]⟩ ![] hb (constant (F := Ideal) ⟨0, ![]⟩ .f32 0x47800000#32)))
            (mulf
              (Host.divf
                (shapeCast ⟨1, ![f]⟩ (extractStridedSlice ⟨2, ![1, f]⟩ ![0, 0]
                  (Host.reduceAdd st (constant (F := Ideal) ⟨0, ![]⟩ .f32 0x00000000#32) hr hu) hs0) hc)
                (broadcastInDim ⟨1, ![f]⟩ ![] hb (constant (F := Ideal) ⟨0, ![]⟩ .f32 0x47800000#32)))
              (Host.divf
                (shapeCast ⟨1, ![f]⟩ (extractStridedSlice ⟨2, ![1, f]⟩ ![0, 0]
                  (Host.reduceAdd st (constant (F := Ideal) ⟨0, ![]⟩ .f32 0x00000000#32) hr hu) hs0) hc)
                (broadcastInDim ⟨1, ![f]⟩ ![] hb (constant (F := Ideal) ⟨0, ![]⟩ .f32 0x47800000#32)))))
          (broadcastInDim ⟨1, ![f]⟩ ![] hb (constant (F := Ideal) ⟨0, ![]⟩ .f32 0x00000000#32))) hc' (ix2 (0 : Fin 1) j)
      = max (Ideal.div (st (ix3 0 1 j) + st (ix3 1 1 j)) cN
              - Ideal.div (st (ix3 0 0 j) + st (ix3 1 0 j)) cN * Ideal.div (st (ix3 0 0 j) + st (ix3 1 0 j)) cN) 0 := by
  rw [shapeCast_a_1a_apply, maximumf_apply, subf_apply, mulf_apply, hostDivf_apply, hostDivf_apply,
    broadcastInDim_scalar_apply, broadcastInDim_scalar_apply,
    halfRow_apply st hr hR hu 1 (by omega) hs1 hc j, halfRow_apply st hr hR hu 0 (by omega) hs0 hc j]
  show max (Ideal.div _ (Ideal.ofBits .f32 0x47800000#32) - _) (Ideal.ofBits .f32 0x00000000#32) = _
  rw [Ideal.ofBits_zero_f32]
  rfl

/-- If the statistics hold the half sums of `H` and of its squares, the two rows are the specification's. -/
theorem rows_eq_spec (st : FVec Ideal ⟨3, ![2, 2, f]⟩ .f32) (H : Fin 65536 → Fin f → EReal)
    (hst : ∀ (h : Fin 2) (j : Fin f), st (ix3 h 0 j) = coreSum H h j ∧ st (ix3 h 1 j) = coreSum (sq H) h j) (j : Fin f) :
    Ideal.div (st (ix3 0 0 j) + st (ix3 1 0 j)) cN = meanK H j
    ∧ max (Ideal.div (st (ix3 0 1 j) + st (ix3 1 1 j)) cN
              - Ideal.div (st (ix3 0 0 j) + st (ix3 1 0 j)) cN * Ideal.div (st (ix3 0 0 j) + st (ix3 1 0 j)) cN) 0 = varK H j := by
  rw [(hst 0 j).1, (hst 1 j).1, (hst 0 j).2, (hst 1 j).2]
  exact ⟨rfl, rfl⟩

/-- A vector [f] kept as the row [1, f], read at column `j`. -/
theorem paramRow_apply (b : FVec Ideal ⟨1, ![f]⟩ .f32) (hc' : (⟨1, ![f]⟩ : Shape).ShapeCasts ⟨2, ![1, f]⟩) (j : Fin f) :
    shapeCast ⟨2, ![1, f]⟩ b hc' (ix2 (0 : Fin 1) j) = b (ix1 j) :=
  shapeCast_a_1a_apply b hc' 0 j

end Cert.HostStats

end
-- ==== Proof.Hosts.lean ====
/-
  What each kernel region finds in its arrays when it is entered.

  The buffer contents at the six boundaries of the program are a fold (`Gen.W0` … `Gen.W6`).  Walking the fold
  back from a region's entry, every array the region reads is one of three things: a launch argument that nothing
  has written (x, the weights, the noise arrays); a per-column parameter reshaped once, before the first region,
  from a vector [f] to a row [1, f] (the biases, the scales γ and the shifts β); or something an earlier region
  left — the previous layer's activations, or the mean and variance rows the host formed from the previous
  region's per-half statistics.  The result of the whole program is the last region's output array.
-/
import proofs.«169054_j38500086842157_2_alg».proof.Proof.Gen.KernelIdeal.Frame
import proofs.«169054_j38500086842157_2_alg».proof.Proof.HostStats
import Idealize.ShloMosaic.Lib.StableHlo.Run

set_option maxRecDepth 16384

noncomputable section

namespace Cert.KernelIdeal.Hosts

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

local macro "walk0" : tactic => `(tactic| (show StableHlo.after hostOps0 _ _ = _; after_results))
local macro "walk1" : tactic => `(tactic| (show StableHlo.after hostOps1 _ _ = _; after_results))
local macro "walk2" : tactic => `(tactic| (show StableHlo.after hostOps2 _ _ = _; after_results))

/-! ## The arrays the regions leave, by name -/

/-- The first layer's activations as the first region leaves them. -/
def h1Arr : S65536x300.Idx → EReal := (dat0 (V1 m ρ) c).arrAt 3 cfg0.N
/-- The first region's per-half statistics. -/
def st1Arr : S2x2x300.Idx → EReal := (dat0 (V1 m ρ) c).arrAt 4 cfg0.N
/-- The second layer's activations as the second region leaves them. -/
def h2Arr : S65536x100.Idx → EReal := (dat1 (V3 m ρ) c).arrAt 9 cfg1.N
/-- The second region's per-half statistics. -/
def st2Arr : S2x2x100.Idx → EReal := (dat1 (V3 m ρ) c).arrAt 10 cfg1.N
/-- The third region's output. -/
def outArr : S65536x10.Idx → EReal := (dat2 (V5 m ρ) c).arrAt 9 cfg2.N

/-! ## Before the first region -/

theorem W1_arg0 : W1 m ρ c (Proc.devRef .tc main_arg0) = m ((c : Thread nD τ).loc main_arg0) := by walk0
theorem W1_arg1 : W1 m ρ c (Proc.devRef .tc main_arg1) = m ((c : Thread nD τ).loc main_arg1) := by walk0
theorem W1_arg5 : W1 m ρ c (Proc.devRef .tc main_arg5) = m ((c : Thread nD τ).loc main_arg5) := by walk0
theorem W1_arg6 : W1 m ρ c (Proc.devRef .tc main_arg6) = m ((c : Thread nD τ).loc main_arg6) := by walk0
theorem W1_arg7 : W1 m ρ c (Proc.devRef .tc main_arg7) = m ((c : Thread nD τ).loc main_arg7) := by walk0
theorem W1_arg11 : W1 m ρ c (Proc.devRef .tc main_arg11) = m ((c : Thread nD τ).loc main_arg11) := by walk0
theorem W1_arg12 : W1 m ρ c (Proc.devRef .tc main_arg12) = m ((c : Thread nD τ).loc main_arg12) := by walk0
theorem W1_arg13 : W1 m ρ c (Proc.devRef .tc main_arg13) = m ((c : Thread nD τ).loc main_arg13) := by walk0

/-- A parameter vector kept as a row, at column `j`: the reshape of the launch argument. -/
theorem W1_v0 (j : Fin 300) : (W1 m ρ c (Proc.devRef .tc main_v0) : S1x300.Idx → EReal) (ix2 (0 : Fin 1) j)
    = (m ((c : Thread nD τ).loc main_arg2) : S300.Idx → EReal) (ix1 j) := by
  have e : (W1 m ρ c (Proc.devRef .tc main_v0) : S1x300.Idx → EReal)
      = shapeCast S1x300 (m ((c : Thread nD τ).loc main_arg2) : S300.Idx → EReal) shapeCasts_S300_S1x300 := by walk0; rfl
  rw [e]; exact HostStats.paramRow_apply _ _ j
theorem W1_v1 (j : Fin 300) : (W1 m ρ c (Proc.devRef .tc main_v1) : S1x300.Idx → EReal) (ix2 (0 : Fin 1) j)
    = (m ((c : Thread nD τ).loc main_arg3) : S300.Idx → EReal) (ix1 j) := by
  have e : (W1 m ρ c (Proc.devRef .tc main_v1) : S1x300.Idx → EReal)
      = shapeCast S1x300 (m ((c : Thread nD τ).loc main_arg3) : S300.Idx → EReal) shapeCasts_S300_S1x300 := by walk0; rfl
  rw [e]; exact HostStats.paramRow_apply _ _ j
theorem W1_v2 (j : Fin 300) : (W1 m ρ c (Proc.devRef .tc main_v2) : S1x300.Idx → EReal) (ix2 (0 : Fin 1) j)
    = (m ((c : Thread nD τ).loc main_arg4) : S300.Idx → EReal) (ix1 j) := by
  have e : (W1 m ρ c (Proc.devRef .tc main_v2) : S1x300.Idx → EReal)
      = shapeCast S1x300 (m ((c : Thread nD τ).loc main_arg4) : S300.Idx → EReal) shapeCasts_S300_S1x300 := by walk0; rfl
  rw [e]; exact HostStats.paramRow_apply _ _ j
theorem W1_v3 (j : Fin 100) : (W1 m ρ c (Proc.devRef .tc main_v3) : S1x100.Idx → EReal) (ix2 (0 : Fin 1) j)
    = (m ((c : Thread nD τ).loc main_arg8) : S100.Idx → EReal) (ix1 j) := by
  have e : (W1 m ρ c (Proc.devRef .tc main_v3) : S1x100.Idx → EReal)
      = shapeCast S1x100 (m ((c : Thread nD τ).loc main_arg8) : S100.Idx → EReal) shapeCasts_S100_S1x100 := by walk0; rfl
  rw [e]; exact HostStats.paramRow_apply _ _ j
theorem W1_v4 (j : Fin 100) : (W1 m ρ c (Proc.devRef .tc main_v4) : S1x100.Idx → EReal) (ix2 (0 : Fin 1) j)
    = (m ((c : Thread nD τ).loc main_arg9) : S100.Idx → EReal) (ix1 j) := by
  have e : (W1 m ρ c (Proc.devRef .tc main_v4) : S1x100.Idx → EReal)
      = shapeCast S1x100 (m ((c : Thread nD τ).loc main_arg9) : S100.Idx → EReal) shapeCasts_S100_S1x100 := by walk0; rfl
  rw [e]; exact HostStats.paramRow_apply _ _ j
theorem W1_v5 (j : Fin 100) : (W1 m ρ c (Proc.devRef .tc main_v5) : S1x100.Idx → EReal) (ix2 (0 : Fin 1) j)
    = (m ((c : Thread nD τ).loc main_arg10) : S100.Idx → EReal) (ix1 j) := by
  have e : (W1 m ρ c (Proc.devRef .tc main_v5) : S1x100.Idx → EReal)
      = shapeCast S1x100 (m ((c : Thread nD τ).loc main_arg10) : S100.Idx → EReal) shapeCasts_S100_S1x100 := by walk0; rfl
  rw [e]; exact HostStats.paramRow_apply _ _ j
theorem W1_v6 (j : Fin 10) : (W1 m ρ c (Proc.devRef .tc main_v6) : S1x10.Idx → EReal) (ix2 (0 : Fin 1) j)
    = (m ((c : Thread nD τ).loc main_arg14) : S10.Idx → EReal) (ix1 j) := by
  have e : (W1 m ρ c (Proc.devRef .tc main_v6) : S1x10.Idx → EReal)
      = shapeCast S1x10 (m ((c : Thread nD τ).loc main_arg14) : S10.Idx → EReal) shapeCasts_S10_S1x10 := by walk0; rfl
  rw [e]; exact HostStats.paramRow_apply _ _ j

/-! ## Before the second region -/

theorem W3_arg5 : W3 m ρ c (Proc.devRef .tc main_arg5) = m ((c : Thread nD τ).loc main_arg5) := by
  walk1; refine (W2_of_ne m ρ c main_arg5 (by decide)).trans ?_; walk0
theorem W3_arg6 : W3 m ρ c (Proc.devRef .tc main_arg6) = m ((c : Thread nD τ).loc main_arg6) := by
  walk1; refine (W2_of_ne m ρ c main_arg6 (by decide)).trans ?_; walk0
theorem W3_arg7 : W3 m ρ c (Proc.devRef .tc main_arg7) = m ((c : Thread nD τ).loc main_arg7) := by
  walk1; refine (W2_of_ne m ρ c main_arg7 (by decide)).trans ?_; walk0
theorem W3_arg11 : W3 m ρ c (Proc.devRef .tc main_arg11) = m ((c : Thread nD τ).loc main_arg11) := by
  walk1; refine (W2_of_ne m ρ c main_arg11 (by decide)).trans ?_; walk0
theorem W3_arg12 : W3 m ρ c (Proc.devRef .tc main_arg12) = m ((c : Thread nD τ).loc main_arg12) := by
  walk1; refine (W2_of_ne m ρ c main_arg12 (by decide)).trans ?_; walk0
theorem W3_arg13 : W3 m ρ c (Proc.devRef .tc main_arg13) = m ((c : Thread nD τ).loc main_arg13) := by
  walk1; refine (W2_of_ne m ρ c main_arg13 (by decide)).trans ?_; walk0
theorem W3_v1 (j : Fin 300) : (W3 m ρ c (Proc.devRef .tc main_v1) : S1x300.Idx → EReal) (ix2 (0 : Fin 1) j)
    = (m ((c : Thread nD τ).loc main_arg3) : S300.Idx → EReal) (ix1 j) := by
  have e : W3 m ρ c (Proc.devRef .tc main_v1) = W1 m ρ c (Proc.devRef .tc main_v1) := by walk1; exact W2_of_ne m ρ c main_v1 (by decide)
  rw [e]; exact W1_v1 m ρ c j
theorem W3_v2 (j : Fin 300) : (W3 m ρ c (Proc.devRef .tc main_v2) : S1x300.Idx → EReal) (ix2 (0 : Fin 1) j)
    = (m ((c : Thread nD τ).loc main_arg4) : S300.Idx → EReal) (ix1 j) := by
  have e : W3 m ρ c (Proc.devRef .tc main_v2) = W1 m ρ c (Proc.devRef .tc main_v2) := by walk1; exact W2_of_ne m ρ c main_v2 (by decide)
  rw [e]; exact W1_v2 m ρ c j
theorem W3_v3 (j : Fin 100) : (W3 m ρ c (Proc.devRef .tc main_v3) : S1x100.Idx → EReal) (ix2 (0 : Fin 1) j)
    = (m ((c : Thread nD τ).loc main_arg8) : S100.Idx → EReal) (ix1 j) := by
  have e : W3 m ρ c (Proc.devRef .tc main_v3) = W1 m ρ c (Proc.devRef .tc main_v3) := by walk1; exact W2_of_ne m ρ c main_v3 (by decide)
  rw [e]; exact W1_v3 m ρ c j
theorem W3_v4 (j : Fin 100) : (W3 m ρ c (Proc.devRef .tc main_v4) : S1x100.Idx → EReal) (ix2 (0 : Fin 1) j)
    = (m ((c : Thread nD τ).loc main_arg9) : S100.Idx → EReal) (ix1 j) := by
  have e : W3 m ρ c (Proc.devRef .tc main_v4) = W1 m ρ c (Proc.devRef .tc main_v4) := by walk1; exact W2_of_ne m ρ c main_v4 (by decide)
  rw [e]; exact W1_v4 m ρ c j
theorem W3_v5 (j : Fin 100) : (W3 m ρ c (Proc.devRef .tc main_v5) : S1x100.Idx → EReal) (ix2 (0 : Fin 1) j)
    = (m ((c : Thread nD τ).loc main_arg10) : S100.Idx → EReal) (ix1 j) := by
  have e : W3 m ρ c (Proc.devRef .tc main_v5) = W1 m ρ c (Proc.devRef .tc main_v5) := by walk1; exact W2_of_ne m ρ c main_v5 (by decide)
  rw [e]; exact W1_v5 m ρ c j
theorem W3_v6 (j : Fin 10) : (W3 m ρ c (Proc.devRef .tc main_v6) : S1x10.Idx → EReal) (ix2 (0 : Fin 1) j)
    = (m ((c : Thread nD τ).loc main_arg14) : S10.Idx → EReal) (ix1 j) := by
  have e : W3 m ρ c (Proc.devRef .tc main_v6) = W1 m ρ c (Proc.devRef .tc main_v6) := by walk1; exact W2_of_ne m ρ c main_v6 (by decide)
  rw [e]; exact W1_v6 m ρ c j

/-- The activations the region before wrote. -/
theorem W3_h : W3 m ρ c (Proc.devRef .tc main_v7_0) = h1Arr m ρ c := by
  walk1; exact W2_arr m ρ c 3

/-- The mean row at column `j`, from the per-half statistics of the region before. -/
theorem W3_mean (j : Fin 300) : (W3 m ρ c (Proc.devRef .tc main_v21) : S1x300.Idx → EReal) (ix2 (0 : Fin 1) j)
    = Ideal.div (st1Arr m ρ c (ix3 0 0 j) + st1Arr m ρ c (ix3 1 0 j)) cN := by
  have e : (W3 m ρ c (Proc.devRef .tc main_v21) : S1x300.Idx → EReal)
      = shapeCast S1x300 (Host.divf (shapeCast S300 (extractStridedSlice S1x300 ![0, 0]
          (Host.reduceAdd (W2 m ρ c (Proc.devRef .tc main_v7_1) : S2x2x300.Idx → EReal) (constant (F := Ideal) S_ .f32 0x00000000#32)
            reducesTo_S2x2x300_S2x300_d0 h_S_) slices_S2x300_S1x300_0_0) shapeCasts_S1x300_S300)
          (broadcastInDim S300 ![] bcast_S_S300 (constant (F := Ideal) S_ .f32 0x47800000#32))) shapeCasts_S300_S1x300 := by walk1; rfl
  rw [e, HostStats.meanRow_apply _ _ (by decide) _ _ _ _ _ j]
  rw [show (W2 m ρ c (Proc.devRef .tc main_v7_1) : S2x2x300.Idx → EReal) = st1Arr m ρ c from W2_arr m ρ c 4]

/-- The variance row at column `j`, from the per-half statistics of the region before. -/
theorem W3_var (j : Fin 300) : (W3 m ρ c (Proc.devRef .tc main_v22) : S1x300.Idx → EReal) (ix2 (0 : Fin 1) j)
    = max (Ideal.div (st1Arr m ρ c (ix3 0 1 j) + st1Arr m ρ c (ix3 1 1 j)) cN
          - Ideal.div (st1Arr m ρ c (ix3 0 0 j) + st1Arr m ρ c (ix3 1 0 j)) cN
            * Ideal.div (st1Arr m ρ c (ix3 0 0 j) + st1Arr m ρ c (ix3 1 0 j)) cN) 0 := by
  have e : (W3 m ρ c (Proc.devRef .tc main_v22) : S1x300.Idx → EReal)
      = shapeCast S1x300 (maximumf (subf
          (Host.divf (shapeCast S300 (extractStridedSlice S1x300 ![1, 0]
            (Host.reduceAdd (W2 m ρ c (Proc.devRef .tc main_v7_1) : S2x2x300.Idx → EReal) (constant (F := Ideal) S_ .f32 0x00000000#32)
              reducesTo_S2x2x300_S2x300_d0 h_S_) slices_S2x300_S1x300_1_0) shapeCasts_S1x300_S300)
            (broadcastInDim S300 ![] bcast_S_S300 (constant (F := Ideal) S_ .f32 0x47800000#32)))
          (mulf
            (Host.divf (shapeCast S300 (extractStridedSlice S1x300 ![0, 0]
              (Host.reduceAdd (W2 m ρ c (Proc.devRef .tc main_v7_1) : S2x2x300.Idx → EReal) (constant (F := Ideal) S_ .f32 0x00000000#32)
                reducesTo_S2x2x300_S2x300_d0 h_S_) slices_S2x300_S1x300_0_0) shapeCasts_S1x300_S300)
              (broadcastInDim S300 ![] bcast_S_S300 (constant (F := Ideal) S_ .f32 0x47800000#32)))
            (Host.divf (shapeCast S300 (extractStridedSlice S1x300 ![0, 0]
              (Host.reduceAdd (W2 m ρ c (Proc.devRef .tc main_v7_1) : S2x2x300.Idx → EReal) (constant (F := Ideal) S_ .f32 0x00000000#32)
                reducesTo_S2x2x300_S2x300_d0 h_S_) slices_S2x300_S1x300_0_0) shapeCasts_S1x300_S300)
              (broadcastInDim S300 ![] bcast_S_S300 (constant (F := Ideal) S_ .f32 0x47800000#32)))))
          (broadcastInDim S300 ![] bcast_S_S300 (constant (F := Ideal) S_ .f32 0x00000000#32))) shapeCasts_S300_S1x300 := by walk1; rfl
  rw [e, HostStats.varRow_apply _ _ (by decide) _ _ _ _ _ _ j]
  rw [show (W2 m ρ c (Proc.devRef .tc main_v7_1) : S2x2x300.Idx → EReal) = st1Arr m ρ c from W2_arr m ρ c 4]

/-! ## Before the third region -/

theorem W5_arg11 : W5 m ρ c (Proc.devRef .tc main_arg11) = m ((c : Thread nD τ).loc main_arg11) := by
  walk2; refine (W4_of_ne m ρ c main_arg11 (by decide)).trans ?_; exact W3_arg11 m ρ c
theorem W5_arg12 : W5 m ρ c (Proc.devRef .tc main_arg12) = m ((c : Thread nD τ).loc main_arg12) := by
  walk2; refine (W4_of_ne m ρ c main_arg12 (by decide)).trans ?_; exact W3_arg12 m ρ c
theorem W5_arg13 : W5 m ρ c (Proc.devRef .tc main_arg13) = m ((c : Thread nD τ).loc main_arg13) := by
  walk2; refine (W4_of_ne m ρ c main_arg13 (by decide)).trans ?_; exact W3_arg13 m ρ c
theorem W5_v4 (j : Fin 100) : (W5 m ρ c (Proc.devRef .tc main_v4) : S1x100.Idx → EReal) (ix2 (0 : Fin 1) j)
    = (m ((c : Thread nD τ).loc main_arg9) : S100.Idx → EReal) (ix1 j) := by
  have e : W5 m ρ c (Proc.devRef .tc main_v4) = W3 m ρ c (Proc.devRef .tc main_v4) := by walk2; exact W4_of_ne m ρ c main_v4 (by decide)
  rw [e]; exact W3_v4 m ρ c j
theorem W5_v5 (j : Fin 100) : (W5 m ρ c (Proc.devRef .tc main_v5) : S1x100.Idx → EReal) (ix2 (0 : Fin 1) j)
    = (m ((c : Thread nD τ).loc main_arg10) : S100.Idx → EReal) (ix1 j) := by
  have e : W5 m ρ c (Proc.devRef .tc main_v5) = W3 m ρ c (Proc.devRef .tc main_v5) := by walk2; exact W4_of_ne m ρ c main_v5 (by decide)
  rw [e]; exact W3_v5 m ρ c j
theorem W5_v6 (j : Fin 10) : (W5 m ρ c (Proc.devRef .tc main_v6) : S1x10.Idx → EReal) (ix2 (0 : Fin 1) j)
    = (m ((c : Thread nD τ).loc main_arg14) : S10.Idx → EReal) (ix1 j) := by
  have e : W5 m ρ c (Proc.devRef .tc main_v6) = W3 m ρ c (Proc.devRef .tc main_v6) := by walk2; exact W4_of_ne m ρ c main_v6 (by decide)
  rw [e]; exact W3_v6 m ρ c j

/-- The activations the region before wrote. -/
theorem W5_h : W5 m ρ c (Proc.devRef .tc main_v23_0) = h2Arr m ρ c := by
  walk2; exact W4_arr m ρ c 9

/-- The mean row at column `j`, from the per-half statistics of the region before. -/
theorem W5_mean (j : Fin 100) : (W5 m ρ c (Proc.devRef .tc main_v37) : S1x100.Idx → EReal) (ix2 (0 : Fin 1) j)
    = Ideal.div (st2Arr m ρ c (ix3 0 0 j) + st2Arr m ρ c (ix3 1 0 j)) cN := by
  have e : (W5 m ρ c (Proc.devRef .tc main_v37) : S1x100.Idx → EReal)
      = shapeCast S1x100 (Host.divf (shapeCast S100 (extractStridedSlice S1x100 ![0, 0]
          (Host.reduceAdd (W4 m ρ c (Proc.devRef .tc main_v23_1) : S2x2x100.Idx → EReal) (constant (F := Ideal) S_ .f32 0x00000000#32)
            reducesTo_S2x2x100_S2x100_d0 h_S_) slices_S2x100_S1x100_0_0) shapeCasts_S1x100_S100)
          (broadcastInDim S100 ![] bcast_S_S100 (constant (F := Ideal) S_ .f32 0x47800000#32))) shapeCasts_S100_S1x100 := by walk2; rfl
  rw [e, HostStats.meanRow_apply _ _ (by decide) _ _ _ _ _ j]
  rw [show (W4 m ρ c (Proc.devRef .tc main_v23_1) : S2x2x100.Idx → EReal) = st2Arr m ρ c from W4_arr m ρ c 10]

/-- The variance row at column `j`, from the per-half statistics of the region before. -/
theorem W5_var (j : Fin 100) : (W5 m ρ c (Proc.devRef .tc main_v38) : S1x100.Idx → EReal) (ix2 (0 : Fin 1) j)
    = max (Ideal.div (st2Arr m ρ c (ix3 0 1 j) + st2Arr m ρ c (ix3 1 1 j)) cN
          - Ideal.div (st2Arr m ρ c (ix3 0 0 j) + st2Arr m ρ c (ix3 1 0 j)) cN
            * Ideal.div (st2Arr m ρ c (ix3 0 0 j) + st2Arr m ρ c (ix3 1 0 j)) cN) 0 := by
  have e : (W5 m ρ c (Proc.devRef .tc main_v38) : S1x100.Idx → EReal)
      = shapeCast S1x100 (maximumf (subf
          (Host.divf (shapeCast S100 (extractStridedSlice S1x100 ![1, 0]
            (Host.reduceAdd (W4 m ρ c (Proc.devRef .tc main_v23_1) : S2x2x100.Idx → EReal) (constant (F := Ideal) S_ .f32 0x00000000#32)
              reducesTo_S2x2x100_S2x100_d0 h_S_) slices_S2x100_S1x100_1_0) shapeCasts_S1x100_S100)
            (broadcastInDim S100 ![] bcast_S_S100 (constant (F := Ideal) S_ .f32 0x47800000#32)))
          (mulf
            (Host.divf (shapeCast S100 (extractStridedSlice S1x100 ![0, 0]
              (Host.reduceAdd (W4 m ρ c (Proc.devRef .tc main_v23_1) : S2x2x100.Idx → EReal) (constant (F := Ideal) S_ .f32 0x00000000#32)
                reducesTo_S2x2x100_S2x100_d0 h_S_) slices_S2x100_S1x100_0_0) shapeCasts_S1x100_S100)
              (broadcastInDim S100 ![] bcast_S_S100 (constant (F := Ideal) S_ .f32 0x47800000#32)))
            (Host.divf (shapeCast S100 (extractStridedSlice S1x100 ![0, 0]
              (Host.reduceAdd (W4 m ρ c (Proc.devRef .tc main_v23_1) : S2x2x100.Idx → EReal) (constant (F := Ideal) S_ .f32 0x00000000#32)
                reducesTo_S2x2x100_S2x100_d0 h_S_) slices_S2x100_S1x100_0_0) shapeCasts_S1x100_S100)
              (broadcastInDim S100 ![] bcast_S_S100 (constant (F := Ideal) S_ .f32 0x47800000#32)))))
          (broadcastInDim S100 ![] bcast_S_S100 (constant (F := Ideal) S_ .f32 0x00000000#32))) shapeCasts_S100_S1x100 := by walk2; rfl
  rw [e, HostStats.varRow_apply _ _ (by decide) _ _ _ _ _ _ j]
  rw [show (W4 m ρ c (Proc.devRef .tc main_v23_1) : S2x2x100.Idx → EReal) = st2Arr m ρ c from W4_arr m ρ c 10]

/-! ## The result -/

/-- The program's result is the third region's output array. -/
theorem W6_out : W6 m ρ c (Proc.devRef .tc main_v39) = outArr m ρ c := W6_arr m ρ c 9

end Cert.KernelIdeal.Hosts

end
-- ==== Proof.SpecExt.lean ====
/-
  The specification's functions respect equality of their arguments.
-/
import proofs.«169054_j38500086842157_2_alg».proof.Proof.Spec

noncomputable section

namespace Cert.Spec

variable {k f : Nat}

theorem hid_congr {X X' : Fin 65536 → Fin k → EReal} {W W' : Fin f → Fin k → EReal} {b b' : Fin f → EReal}
    (hX : X = X') (hW : W = W') (hb : b = b') : hid X W b = hid X' W' b' := by rw [hX, hW, hb]

theorem dense_congr {X X' : Fin 65536 → Fin k → EReal} {W W' : Fin f → Fin k → EReal} {b b' : Fin f → EReal}
    (hX : X = X') (hW : W = W') (hb : b = b') : dense X W b = dense X' W' b' := by rw [hX, hW, hb]

theorem bn_congr {H H' : Fin 65536 → Fin f → EReal} {mean mean' var var' g g' be be' : Fin f → EReal}
    {s s' mm mm' : Fin 65536 → Fin f → EReal}
    (hH : H = H') (hmean : mean = mean') (hvar : var = var') (hg : g = g') (hbe : be = be') (hs : s = s') (hmm : mm = mm') :
    bn H mean var g be s mm = bn H' mean' var' g' be' s' mm' := by rw [hH, hmean, hvar, hg, hbe, hs, hmm]

end Cert.Spec

end
-- ==== Proof.LibNtMatmul.lean ====
/-
  A product against a transposed right operand, read at an entry, at the extended reals.

  A kernel's `q · kᵀ` prints as a matrix product whose dimension numbers contract the LAST axis of both operands
  (rows of the left against rows of the right).  Accumulated into the zero block, its entry (a, b) is the sum over the
  shared axis of the products of the entries: the accumulator adds nothing and, on the extended reals, nothing is rounded
  and no order of the summands is left.  Generic in the three extents, the two operand formats and the precision key.
-/
import Idealize.ShloMosaic.Lib.ValueIdx
import Idealize.ShloMosaic.PureOps.Ideal.Laws

noncomputable section

open scoped BigOperators

namespace Cert.LibNtMatmul

open Idealize.ShloMosaic Idealize.ShloMosaic.ValueIdx

/-- `A · Bᵀ` of an m×k block by an n×k block into the zero block: entry `(a, b)` is `Σ_c A(a,c)·B(b,c)`. -/
theorem matmul_nt_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibNtMatmul

end
-- ==== Proof.Region0Tile.lean ====
/-
  One tile of the first layer, read entry by entry over the extended reals.

  The body of the first kernel takes a tile X of 2048 rows of the input, the whole weight matrix W (300 × 784) and the
  bias as a one-row matrix b, and produces the tile's hidden activations  T(a, j) = max (Σ_c X(a,c)·W(j,c) + b(j)) 0.
  It then adds to a 1 × 2 × 300 block of running statistics the column sums of T (plane 0) and of T² (plane 1).
  Nothing is rounded: narrowing a float is the identity, the product accumulates into the zero block, and a reduction
  from the zero word is the plain finite sum.
-/
import proofs.«169054_j38500086842157_2_alg».proof.Proof.Gen.KernelIdeal.Skeleton
import proofs.«169054_j38500086842157_2_alg».proof.Proof.LibNtMatmul
import proofs.«169054_j38500086842157_2_alg».proof.Proof.LibRowForms
import Idealize.ShloMosaic.Lib.ValueLayout
import Idealize.ShloMosaic.Lib.Pipeline.Value

noncomputable section

open scoped BigOperators

namespace Cert.KernelIdeal.R0

open Idealize.ShloMosaic Idealize.ShloMosaic.ValueIdx Cert.KernelIdeal

/-- The hidden activations of one tile: entry (a, j) from row a of the tile, row j of the weights and the bias at j. -/
def tileHid (x : S2048x784.Idx → EReal) (w : S300x784.Idx → EReal) (b : S1x300.Idx → EReal) (a : Fin 2048) (j : Fin 300) : EReal :=
  max ((∑ c : Fin 784, x (ix2 a c) * w (ix2 j c)) + b (ix2 (0 : Fin 1) j)) 0

/-- The dimension numbers of the kernel's product: the last axis of both operands is contracted. -/
theorem dot_eq : dot_S2048x784_S300x784_S2048x300_1_1_0_0_n_n = DotDims.transposedRhs 2048 784 300 := rfl

/-- The tile payload at an entry. -/
theorem pay2_apply (x0 : Vec Ideal S2048x784 .f32) (x1 : Vec Ideal S300x784 .f32) (x2 : Vec Ideal S1x300 .f32)
    (a : Fin 2048) (j : Fin 300) :
    Gen.k0_pay2 (F := Ideal) x0 x1 x2 (ix2 a j) = tileHid x0 x1 x2 a j := by
  unfold Gen.k0_pay2 tileHid
  refine (maximumf_apply _ _ _).trans ?_
  refine congrArg₂ max ?_ ?_
  · refine (addf_apply _ _ _).trans ?_
    refine congrArg₂ (· + ·) ?_ ?_
    · rw [dot_eq]
      exact LibNtMatmul.matmul_nt_zero_apply none _ _ a j
    · rw [shapeCast_self]
      exact broadcastTo_1b_ab_apply x2 _ a j
  · exact Ideal.ofBits_zero_f32

/-- The block the first tile of a half starts from: zero at every entry. -/
theorem pay1_apply (i : S1x2x300.Idx) : Gen.k0_pay1 (F := Ideal) i = 0 := by
  unfold Gen.k0_pay1
  exact Ideal.ofBits_zero_f32

/-- Plane 0 of the statistics payload: what the block held plus the tile's column sums. -/
theorem pay3_apply0 (x0 : Vec Ideal S2048x784 .f32) (x1 : Vec Ideal S300x784 .f32) (x2 : Vec Ideal S1x300 .f32)
    (v : Vec Ideal S1x2x300 .f32) (j : Fin 300) :
    Gen.k0_pay3 (F := Ideal) x0 x1 x2 v (ix3 (0 : Fin 1) (0 : Fin 2) j)
      = v (ix3 (0 : Fin 1) (0 : Fin 2) j) + ∑ a : Fin 2048, tileHid x0 x1 x2 a j := by
  unfold Gen.k0_pay3
  refine (addf_apply _ _ _).trans ?_
  refine congrArg₂ (· + ·) ?_ ?_
  · rw [shapeCast_self]
  · refine (shapeCast_ab_1ab_apply _ _ (0 : Fin 1) (0 : Fin 2) j).trans ?_
    refine (concatenate_pair_apply_left (t := S2x300) (s₁ := S1x300) (s₂ := S1x300) (0 : Fin 2) _ _ _ (ix2 (0 : Fin 2) j) rfl (ix2 (0 : Fin 1) j) (fun b => ?_)).trans ?_
    · match b with
      | ⟨0, _⟩ => rfl
      | ⟨1, _⟩ => rfl
    · refine (shapeCast_a_1a_apply _ _ (0 : Fin 1) j).trans ?_
      refine (multiReduction_add_col _ _ _ _ _ j).trans ?_
      exact Finset.sum_congr rfl fun a _ => pay2_apply x0 x1 x2 a j

/-- Plane 1 of the statistics payload: what the block held plus the column sums of the tile's squares. -/
theorem pay3_apply1 (x0 : Vec Ideal S2048x784 .f32) (x1 : Vec Ideal S300x784 .f32) (x2 : Vec Ideal S1x300 .f32)
    (v : Vec Ideal S1x2x300 .f32) (j : Fin 300) :
    Gen.k0_pay3 (F := Ideal) x0 x1 x2 v (ix3 (0 : Fin 1) (1 : Fin 2) j)
      = v (ix3 (0 : Fin 1) (1 : Fin 2) j) + ∑ a : Fin 2048, tileHid x0 x1 x2 a j * tileHid x0 x1 x2 a j := by
  unfold Gen.k0_pay3
  refine (addf_apply _ _ _).trans ?_
  refine congrArg₂ (· + ·) ?_ ?_
  · rw [shapeCast_self]
  · refine (shapeCast_ab_1ab_apply _ _ (0 : Fin 1) (1 : Fin 2) j).trans ?_
    refine (concatenate_pair_apply_right (t := S2x300) (s₁ := S1x300) (s₂ := S1x300) (0 : Fin 2) _ _ _ (ix2 (1 : Fin 2) j) rfl rfl (ix2 (0 : Fin 1) j) (fun b hb => ?_) rfl).trans ?_
    · match b with
      | ⟨0, _⟩ => exact absurd rfl hb
      | ⟨1, _⟩ => rfl
    · refine (shapeCast_a_1a_apply _ _ (0 : Fin 1) j).trans ?_
      refine (multiReduction_add_col _ _ _ _ _ j).trans ?_
      refine Finset.sum_congr rfl fun a _ => ?_
      refine (mulf_apply _ _ _).trans ?_
      rw [pay2_apply]

end Cert.KernelIdeal.R0

end
-- ==== Proof.Region0Pieces.lean ====
/-
  What one grid point of the first kernel leaves in its two output blocks, as the body's payloads.

  At the first tile of a half of the batch the body first clears the statistics block, so that block ends at the
  statistics payload of the zero block; at every other tile it ends at the payload of what the tile before left.
  The activation block is overwritten whole with the tile payload in both cases.  Each block is written by stores
  that cover it, so what is read back is the last store's payload, and each load reads a whole, untouched buffer.
-/
import proofs.«169054_j38500086842157_2_alg».proof.Proof.Gen.KernelIdeal.Frame
import Idealize.ShloMosaic.Lib.Pipeline.Value
import Idealize.ShloMosaic.Lib.Tactic

noncomputable section

namespace Cert.KernelIdeal.R0

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a half: the activation block is the tile payload. -/
theorem out_A_3 (c : Dev nD) (i : grid0.Coords) (a2 : Memref sig .tc .vmem S2048x784 .f32) (h2 : a2.IsWhole)
    (a3 : Memref sig .tc .vmem S300x784 .f32) (h3 : a3.IsWhole) (a4 : Memref sig .tc .vmem S1x300 .f32) (h4 : a4.IsWhole)
    (a5 : Memref sig .tc .vmem S2048x300 .f32) (h5 : a5.IsWhole) (a6 : Memref sig .tc .vmem S1x2x300 .f32) (h6 : a6.IsWhole)
    (hc : cond0_0 i) (x0 : Vec F S2048x784 .f32) (x1 : Vec F S300x784 .f32) (x2 : Vec F S1x300 .f32) :
    out0_A_3 c i a2 h2 a3 h3 a4 h4 a5 h5 a6 h6 hc x0 x1 x2 = k0_pay2 x0 x1 x2 := by
  unfold out0_A_3
  rw [View.read_writes_eq_canon _ _ _ (cover0_A_3 c i a2 h2 a3 h3 a4 h4 a5 h5 a6 h6 hc x0 x1 x2)]
  unfold kernelRun0_A
  dsimp only
  rw [View.canon_unit_zero hz2]
  simp only [View.readAt_eq_ld, h2.read_unread, h3.read_unread, h4.read_unread,
    View.ld_unit_zero (S := S2048x784) hz2, View.ld_unit_zero (S := S300x784) hz2, View.ld_unit_zero (S := S1x300) hz2]

/-- First tile of a half: the statistics block is the statistics payload of the zero block. -/
theorem out_A_4 (c : Dev nD) (i : grid0.Coords) (a2 : Memref sig .tc .vmem S2048x784 .f32) (h2 : a2.IsWhole)
    (a3 : Memref sig .tc .vmem S300x784 .f32) (h3 : a3.IsWhole) (a4 : Memref sig .tc .vmem S1x300 .f32) (h4 : a4.IsWhole)
    (a5 : Memref sig .tc .vmem S2048x300 .f32) (h5 : a5.IsWhole) (a6 : Memref sig .tc .vmem S1x2x300 .f32) (h6 : a6.IsWhole)
    (hc : cond0_0 i) (x0 : Vec F S2048x784 .f32) (x1 : Vec F S300x784 .f32) (x2 : Vec F S1x300 .f32) :
    out0_A_4 c i a2 h2 a3 h3 a4 h4 a5 h5 a6 h6 hc x0 x1 x2 = k0_pay3 x0 x1 x2 (k0_pay1 (F := F)) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x2x300) hz3, View.readCov_unit_zero (S := S1x2x300) _ hz3]
  simp only [View.readAt_eq_ld, h2.read_unread, h3.read_unread, h4.read_unread,
    View.ld_unit_zero (S := S2048x784) hz2, View.ld_unit_zero (S := S300x784) hz2, View.ld_unit_zero (S := S1x300) hz2]

/-- A later tile: the activation block is the tile payload. -/
theorem out_B_3 (c : Dev nD) (i : grid0.Coords) (a2 : Memref sig .tc .vmem S2048x784 .f32) (h2 : a2.IsWhole)
    (a3 : Memref sig .tc .vmem S300x784 .f32) (h3 : a3.IsWhole) (a4 : Memref sig .tc .vmem S1x300 .f32) (h4 : a4.IsWhole)
    (a5 : Memref sig .tc .vmem S2048x300 .f32) (h5 : a5.IsWhole) (a6 : Memref sig .tc .vmem S1x2x300 .f32) (h6 : a6.IsWhole)
    (hc : ¬cond0_0 i) (x0 : Vec F S2048x784 .f32) (x1 : Vec F S300x784 .f32) (x2 : Vec F S1x300 .f32) (xo : Vec F S1x2x300 .f32) :
    out0_B_3 c i a2 h2 a3 h3 a4 h4 a5 h5 a6 h6 hc x0 x1 x2 xo = k0_pay2 x0 x1 x2 := by
  unfold out0_B_3
  rw [View.read_writes_eq_canon _ _ _ (cover0_B_3 c i a2 h2 a3 h3 a4 h4 a5 h5 a6 h6 hc x0 x1 x2 xo)]
  unfold kernelRun0_B
  dsimp only
  rw [View.canon_unit_zero hz2]
  simp only [View.readAt_eq_ld, h2.read_unread, h3.read_unread, h4.read_unread,
    View.ld_unit_zero (S := S2048x784) hz2, View.ld_unit_zero (S := S300x784) hz2, View.ld_unit_zero (S := S1x300) hz2]

/-- A later tile: the statistics block is the statistics payload of what it held. -/
theorem out_B_4 (c : Dev nD) (i : grid0.Coords) (a2 : Memref sig .tc .vmem S2048x784 .f32) (h2 : a2.IsWhole)
    (a3 : Memref sig .tc .vmem S300x784 .f32) (h3 : a3.IsWhole) (a4 : Memref sig .tc .vmem S1x300 .f32) (h4 : a4.IsWhole)
    (a5 : Memref sig .tc .vmem S2048x300 .f32) (h5 : a5.IsWhole) (a6 : Memref sig .tc .vmem S1x2x300 .f32) (h6 : a6.IsWhole)
    (hc : ¬cond0_0 i) (x0 : Vec F S2048x784 .f32) (x1 : Vec F S300x784 .f32) (x2 : Vec F S1x300 .f32) (xo : Vec F S1x2x300 .f32) :
    out0_B_4 c i a2 h2 a3 h3 a4 h4 a5 h5 a6 h6 hc x0 x1 x2 xo = k0_pay3 x0 x1 x2 xo := by
  unfold out0_B_4
  rw [View.read_writes_eq_canon _ _ _ (cover0_B_4 c i a2 h2 a3 h3 a4 h4 a5 h5 a6 h6 hc x0 x1 x2 xo)]
  unfold kernelRun0_B
  dsimp only
  rw [View.canon_unit_zero hz3]
  simp only [View.readAt_eq_ld, h2.read_unread, h3.read_unread, h4.read_unread, h6.read_unread,
    View.ld_unit_zero (S := S2048x784) hz2, View.ld_unit_zero (S := S300x784) hz2, View.ld_unit_zero (S := S1x300) hz2,
    View.ld_unit_zero (S := S1x2x300) hz3]

end Cert.KernelIdeal.R0

end
-- ==== Proof.Region0Acc.lean ====
/-
  What the two output blocks of the first kernel hold after each grid point, entry by entry.

  The 32 grid points are the tiles of the batch in order; 16 consecutive tiles make one half.  After tile t the
  activation block holds the tile's activations.  The statistics block is cleared at the first tile of a half and
  every tile adds its column sums (plane 0) and the column sums of its squares (plane 1): after tile 16·q + r it holds
  the sum of the contributions of tiles 16·q, …, 16·q + r.  The invariant is proved by induction on the tile; only
  zero_add and the successor rule of a sum over an initial segment are used.
-/
import proofs.«169054_j38500086842157_2_alg».proof.Proof.Region0Tile
import proofs.«169054_j38500086842157_2_alg».proof.Proof.Region0Pieces

noncomputable section

open scoped BigOperators

namespace Cert.KernelIdeal.R0

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The activations of tile `t`, from the three input blocks the tile reads. -/
def ptHid (c : Dev nD) (t : Fin cfg0.N) (a : Fin 2048) (j : Fin 300) : EReal :=
  tileHid (iblk0 V c 0 t) (iblk0 V c 1 t) (iblk0 V c 2 t) a j

/-- Column `j` of tile `n` summed over the tile's rows (zero past the grid, where it is never used). -/
def ptSum (c : Dev nD) (n : ℕ) (j : Fin 300) : EReal :=
  if h : n < cfg0.N then ∑ a : Fin 2048, ptHid V c ⟨n, h⟩ a j else 0

/-- Column `j` of the squares of tile `n` summed over the tile's rows. -/
def ptSumSq (c : Dev nD) (n : ℕ) (j : Fin 300) : EReal :=
  if h : n < cfg0.N then ∑ a : Fin 2048, ptHid V c ⟨n, h⟩ a j * ptHid V c ⟨n, h⟩ a j else 0

/-- After tile `t` the activation block holds the tile's activations. -/
theorem outs3_apply (c : Dev nD) (t : Fin cfg0.N) (a : Fin 2048) (j : Fin 300) :
    ((outsAt0 V c t.val t.isLt).1 : S2048x300.Idx → EReal) (ix2 a j) = ptHid V c t a j := by
  by_cases h0 : t.val % 16 = 0
  · rw [outsAt0_A V c t h0]
    dsimp only
    exact (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t)) (ix2 a j)).trans
      (pay2_apply (iblk0 V c 0 t) (iblk0 V c 1 t) (iblk0 V c 2 t) a j)
  · rw [outsAt0_B V c t h0]
    dsimp only
    exact (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t)
      (outsAt0 V c (t.val - 1) (Nat.lt_of_le_of_lt (Nat.sub_le _ _) t.isLt)).2) (ix2 a j)).trans
      (pay2_apply (iblk0 V c 0 t) (iblk0 V c 1 t) (iblk0 V c 2 t) a j)

/-- At the first tile of a half the statistics block holds zero plus the tile's contribution. -/
theorem outs4_first (c : Dev nD) (t : Fin cfg0.N) (h0 : t.val % 16 = 0) (j : Fin 300) :
    ((outsAt0 V c t.val t.isLt).2 : S1x2x300.Idx → EReal) (ix3 (0 : Fin 1) (0 : Fin 2) j) = ptSum V c t.val j
    ∧ ((outsAt0 V c t.val t.isLt).2 : S1x2x300.Idx → EReal) (ix3 (0 : Fin 1) (1 : Fin 2) j) = ptSumSq V c t.val j := by
  rw [outsAt0_A V c t h0]
  dsimp only
  have e := out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t)
  refine ⟨?_, ?_⟩
  · refine (congrFun e _).trans ?_
    refine (pay3_apply0 (iblk0 V c 0 t) (iblk0 V c 1 t) (iblk0 V c 2 t) _ j).trans ?_
    rw [pay1_apply, zero_add]
    unfold ptSum
    rw [dif_pos t.isLt]
    rfl
  · refine (congrFun e _).trans ?_
    refine (pay3_apply1 (iblk0 V c 0 t) (iblk0 V c 1 t) (iblk0 V c 2 t) _ j).trans ?_
    rw [pay1_apply, zero_add]
    unfold ptSumSq
    rw [dif_pos t.isLt]
    rfl

/-- At a later tile of a half the statistics block holds what the tile before left plus the tile's contribution. -/
theorem outs4_next (c : Dev nD) (t : Fin cfg0.N) (h0 : ¬t.val % 16 = 0) (j : Fin 300) :
    ((outsAt0 V c t.val t.isLt).2 : S1x2x300.Idx → EReal) (ix3 (0 : Fin 1) (0 : Fin 2) j)
        = ((outsAt0 V c (t.val - 1) (Nat.lt_of_le_of_lt (Nat.sub_le _ _) t.isLt)).2 : S1x2x300.Idx → EReal) (ix3 (0 : Fin 1) (0 : Fin 2) j)
          + ptSum V c t.val j
    ∧ ((outsAt0 V c t.val t.isLt).2 : S1x2x300.Idx → EReal) (ix3 (0 : Fin 1) (1 : Fin 2) j)
        = ((outsAt0 V c (t.val - 1) (Nat.lt_of_le_of_lt (Nat.sub_le _ _) t.isLt)).2 : S1x2x300.Idx → EReal) (ix3 (0 : Fin 1) (1 : Fin 2) j)
          + ptSumSq V c t.val j := by
  rw [outsAt0_B V c t h0]
  dsimp only
  have e := out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t)
    (outsAt0 V c (t.val - 1) (Nat.lt_of_le_of_lt (Nat.sub_le _ _) t.isLt)).2
  refine ⟨?_, ?_⟩
  · refine (congrFun e _).trans ?_
    refine (pay3_apply0 (iblk0 V c 0 t) (iblk0 V c 1 t) (iblk0 V c 2 t) _ j).trans ?_
    unfold ptSum
    rw [dif_pos t.isLt]
    rfl
  · refine (congrFun e _).trans ?_
    refine (pay3_apply1 (iblk0 V c 0 t) (iblk0 V c 1 t) (iblk0 V c 2 t) _ j).trans ?_
    unfold ptSumSq
    rw [dif_pos t.isLt]
    rfl

/-- After tile `n = 16·q + r` the statistics block holds the contributions of tiles `16·q … 16·q + r` added up. -/
theorem outs4_apply (c : Dev nD) (j : Fin 300) : ∀ (n : ℕ) (h : n < cfg0.N),
    ((outsAt0 V c n h).2 : S1x2x300.Idx → EReal) (ix3 (0 : Fin 1) (0 : Fin 2) j)
        = ∑ s ∈ Finset.range (n % 16 + 1), ptSum V c (16 * (n / 16) + s) j
    ∧ ((outsAt0 V c n h).2 : S1x2x300.Idx → EReal) (ix3 (0 : Fin 1) (1 : Fin 2) j)
        = ∑ s ∈ Finset.range (n % 16 + 1), ptSumSq V c (16 * (n / 16) + s) j
  | 0, h => by
    have := outs4_first V c ⟨0, h⟩ rfl j
    simpa using this
  | n + 1, h => by
    by_cases h0 : (n + 1) % 16 = 0
    · have := outs4_first V c ⟨n + 1, h⟩ h0 j
      have e : 16 * ((n + 1) / 16) + 0 = n + 1 := by omega
      rw [h0, Finset.sum_range_one, Finset.sum_range_one, e]
      exact this
    · have hs := outs4_next V c ⟨n + 1, h⟩ h0 j
      have ih := outs4_apply c j n (Nat.lt_of_succ_lt h)
      have e1 : (n + 1) % 16 = n % 16 + 1 := by omega
      have e2 : (n + 1) / 16 = n / 16 := by omega
      have e3 : 16 * (n / 16) + (n % 16 + 1) = n + 1 := by omega
      rw [e1, e2, Finset.sum_range_succ _ (n % 16 + 1), Finset.sum_range_succ _ (n % 16 + 1), e3, ← ih.1, ← ih.2]
      exact hs

end Cert.KernelIdeal.R0

end
-- ==== Proof.Region0Arr.lean ====
/-
  The first kernel's blocks inside their arrays.

  Tile t of the batch is rows 2048·t … 2048·t + 2047 of the input and of the activation array; the weights and the
  bias are read whole at every tile; the statistics block of tile t is the slab t / 16 of the 2 × 2 × 300 array.
  A block's coordinate in its array is always block index × block size + coordinate inside the block, and the block
  indices are decided once over the 32 grid points.
-/
import proofs.«169054_j38500086842157_2_alg».proof.Proof.Region0Acc
import proofs.«169054_j38500086842157_2_alg».proof.Proof.Spec
import proofs.«169054_j38500086842157_2_alg».proof.Proof.Arr

noncomputable section

open scoped BigOperators

namespace Cert.KernelIdeal.R0

open Idealize.ShloMosaic Idealize.ShloMosaic.TcCoe Idealize.SL.Sem Idealize.ShloMosaic.ValueIdx
open Cert.KernelIdeal Cert.KernelIdeal.Gen Cert.Spec

/-- The five windows stage these arrays. -/
theorem arr0 : Pipeline.arrRef spec0 0 = main_arg0 := rfl
theorem arr1 : Pipeline.arrRef spec0 1 = main_arg1 := rfl
theorem arr2 : Pipeline.arrRef spec0 2 = main_v0 := rfl
theorem arr3 : Pipeline.arrRef spec0 3 = main_v7_0 := rfl
theorem arr4 : Pipeline.arrRef spec0 4 = main_v7_1 := rfl

/-- The block indices at grid point `t`: the tile number for the input and the activations, zero for the weights and
    the bias, the half `t / 16` for the statistics. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val / 16 ∧ win0_4.index t (1 : Fin 3) = 0 ∧ win0_4.index t (2 : Fin 3) = 0 :=
  (by decide +kernel : ∀ t : Fin grid0.N, _)

variable (V : (c : Dev nD) → (b : Ref sig .tc) → Buf (Elt Ideal) ((c : Thread nD τ).loc b))

/-- The input block of tile `t` at (a, k) is the input at row 2048·t + a. -/
theorem blk0_apply (c : Dev nD) (t : Fin cfg0.N) (a : Fin 2048) (k : Fin 784) (r : Fin 65536)
    (hr : r.val = t.val * 2048 + a.val) :
    (iblk0 V c 0 t : S2048x784.Idx → EReal) (ix2 a k) = (V c main_arg0 : S65536x784.Idx → EReal) (ix2 r k) := by
  obtain ⟨e0, e1, -⟩ := idx_facts t
  unfold iblk0
  rw [View.read_apply]
  show (V c main_arg0 : S65536x784.Idx → EReal) _ = (V c main_arg0 : S65536x784.Idx → EReal) _
  refine congrArg _ ?_
  funext ax
  apply Fin.ext
  match ax with
  | ⟨0, _⟩ => show win0_0.index t (0 : Fin 2) * 2048 + 1 * a.val = r.val; rw [e0, hr]; omega
  | ⟨1, _⟩ => show win0_0.index t (1 : Fin 2) * 784 + 1 * k.val = k.val; rw [e1]; omega

/-- The weight block is the weight matrix at every tile. -/
theorem blk1_apply (c : Dev nD) (t : Fin cfg0.N) (j : Fin 300) (k : Fin 784) :
    (iblk0 V c 1 t : S300x784.Idx → EReal) (ix2 j k) = (V c main_arg1 : S300x784.Idx → EReal) (ix2 j k) := by
  obtain ⟨-, -, e0, e1, -⟩ := idx_facts t
  unfold iblk0
  rw [View.read_apply]
  show (V c main_arg1 : S300x784.Idx → EReal) _ = (V c main_arg1 : S300x784.Idx → EReal) _
  refine congrArg _ ?_
  funext ax
  apply Fin.ext
  match ax with
  | ⟨0, _⟩ => show win0_1.index t (0 : Fin 2) * 300 + 1 * j.val = j.val; rw [e0]; omega
  | ⟨1, _⟩ => show win0_1.index t (1 : Fin 2) * 784 + 1 * k.val = k.val; rw [e1]; omega

/-- The bias block is the bias row at every tile. -/
theorem blk2_apply (c : Dev nD) (t : Fin cfg0.N) (j : Fin 300) :
    (iblk0 V c 2 t : S1x300.Idx → EReal) (ix2 (0 : Fin 1) j) = (V c main_v0 : S1x300.Idx → EReal) (ix2 (0 : Fin 1) j) := by
  obtain ⟨-, -, -, -, e0, e1, -⟩ := idx_facts t
  unfold iblk0
  rw [View.read_apply]
  show (V c main_v0 : S1x300.Idx → EReal) _ = (V c main_v0 : S1x300.Idx → EReal) _
  refine congrArg _ ?_
  funext ax
  apply Fin.ext
  match ax with
  | ⟨0, _⟩ => show win0_2.index t (0 : Fin 2) * 1 + 1 * 0 = 0; rw [e0]
  | ⟨1, _⟩ => show win0_2.index t (1 : Fin 2) * 300 + 1 * j.val = j.val; rw [e1]; omega

/-- The hidden activations of the whole batch, from the arrays the kernel finds. -/
abbrev H (c : Dev nD) : Fin 65536 → Fin 300 → EReal :=
  hid (mat (V c main_arg0 : S65536x784.Idx → EReal)) (mat (V c main_arg1 : S300x784.Idx → EReal))
    (row (V c main_v0 : S1x300.Idx → EReal))

/-- A grid point as a tile number. -/
def tileOf (t : Fin cfg0.N) : Fin 32 := ⟨t.val, lt_of_lt_of_eq t.isLt N_0⟩

/-- A tile's activations are the batch's activations at a row, when the three blocks read the three arrays there. -/
theorem tileHid_eq (x : S2048x784.Idx → EReal) (w : S300x784.Idx → EReal) (b : S1x300.Idx → EReal)
    (X : S65536x784.Idx → EReal) (W : S300x784.Idx → EReal) (B : S1x300.Idx → EReal) (a : Fin 2048) (j : Fin 300)
    (r : Fin 65536) (hx : ∀ k : Fin 784, x (ix2 a k) = X (ix2 r k)) (hw : ∀ k : Fin 784, w (ix2 j k) = W (ix2 j k))
    (hb : b (ix2 (0 : Fin 1) j) = B (ix2 (0 : Fin 1) j)) :
    tileHid x w b a j = hid (mat X) (mat W) (row B) r j := by
  unfold tileHid hid dense
  rw [hb]
  refine congrArg (fun s => max (s + _) 0) ?_
  exact Finset.sum_congr rfl fun k _ => by rw [hx k, hw k]

/-- The activations of tile `t` are the batch's activations at the tile's rows. -/
theorem ptHid_eq (c : Dev nD) (t : Fin cfg0.N) (a : Fin 2048) (j : Fin 300) :
    ptHid V c t a j = H V c (rowOf (tileOf t) a) j :=
  tileHid_eq (iblk0 V c 0 t) (iblk0 V c 1 t) (iblk0 V c 2 t) (V c main_arg0) (V c main_arg1) (V c main_v0) a j
    (rowOf (tileOf t) a) (fun k => blk0_apply V c t a k (rowOf (tileOf t) a) rfl) (fun k => blk1_apply V c t j k)
    (blk2_apply V c t j)

/-! ## The activation array -/

/-- The activation array the region ends with: the batch's activations, entry by entry. -/
def G3 (c : Dev nD) : S65536x300.Idx → EReal := fun i => H V c (i 0) (i 1)

/-- What tile `t` writes back is its block of that array. -/
theorem flushed3_eq (c : Dev nD) (t : Fin cfg0.N) :
    (dat0 V c).flushed 3 t = ((cfg0.win 3).blk t).view.read (Elt Ideal) (G3 V c) := by
  obtain ⟨-, -, -, -, -, -, e0, e1, -⟩ := idx_facts t
  show (cfg0.win 3).cut (grid0.coords t) ((dat0 V c).after 3 t) = _
  rw [after0_3]
  funext y
  obtain ⟨a, j, rfl⟩ : ∃ (a : Fin 2048) (j : Fin 300), (y : S2048x300.Idx) = ix2 a j := ⟨y 0, y 1, eq_ix2 y⟩
  refine (outs3_apply V c t a j).trans ?_
  rw [ptHid_eq, View.read_apply]
  show H V c (rowOf (tileOf t) a) j = G3 V c (((cfg0.win 3).blk t).view.emb (ix2 a j))
  unfold G3
  have h0 : (((cfg0.win 3).blk t).view.emb (ix2 a j) : S65536x300.Idx) 0 = rowOf (tileOf t) a := by
    apply Fin.ext
    show win0_3.index t (0 : Fin 2) * 2048 + 1 * a.val = t.val * 2048 + a.val
    rw [e0]; omega
  have h1 : (((cfg0.win 3).blk t).view.emb (ix2 a j) : S65536x300.Idx) 1 = j := by
    apply Fin.ext
    show win0_3.index t (1 : Fin 2) * 300 + 1 * j.val = j.val
    rw [e1]; omega
  rw [h0, h1]

/-- An entry of the activation array lies in tile `t`'s block iff its row is one of the tile's and its column any. -/
theorem mem_blk3 (t : Fin cfg0.N) (i : S65536x300.Idx) :
    i ∈ ((cfg0.win 3).blk t).view.set ↔ ∀ a : Fin 2, win0_3.index t a * S2048x300.size a ≤ (i a).val ∧ (i a).val < win0_3.index t a * S2048x300.size a + S2048x300.size a := by
  show i ∈ ((View.whole main_v7_0).slice (win0_3.rect t)).set ↔ _
  rw [View.set_slice_whole, Rect.mem_set_unit]
  exact Iff.rfl

/-- Every entry is in the block of the tile its row belongs to. -/
theorem cover3 (i : S65536x300.Idx) : ∃ t : Fin cfg0.N, (cfg0.win 3).flush t = true ∧ i ∈ ((cfg0.win 3).blk t).view.set := by
  have hi0 : (i 0).val < 65536 := (i 0).isLt
  have hi1 : (i 1).val < 300 := (i 1).isLt
  have hN : cfg0.N = 32 := N_0
  let t : Fin cfg0.N := ⟨(i 0).val / 2048, by rw [hN]; omega⟩
  obtain ⟨-, -, -, -, -, -, e0, e1, -⟩ := idx_facts t
  have ht : t.val = (i 0).val / 2048 := rfl
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; rw [e0, ht]; omega
  | ⟨1, _⟩ => show win0_3.index t (1 : Fin 2) * 300 ≤ (i 1).val ∧ (i 1).val < win0_3.index t (1 : Fin 2) * 300 + 300; rw [e1]; omega

/-- The activation array after the region. -/
theorem final3 (c : Dev nD) : (dat0 V c).arrAt 3 cfg0.N = G3 V c :=
  (dat0 V c).arrAt_eq_of_cover 3 (G3 V c) (fun t _ => flushed3_eq V c t) cover3

/-! ## The statistics array -/

/-- The contribution of tile `16·h + i` to plane 0 is the column sum of the batch's activations over that tile. -/
theorem ptSum_eq (c : Dev nD) (h : Fin 2) (i : Fin 16) (j : Fin 300) :
    ptSum V c (16 * h.val + i.val) j = tileSum (H V c) (ptOf h i) j := by
  have hN : cfg0.N = 32 := N_0
  have hlt : 16 * h.val + i.val < cfg0.N := by rw [hN]; omega
  have ht : tileOf ⟨16 * h.val + i.val, hlt⟩ = ptOf h i := Fin.ext (by show 16 * h.val + i.val = h.val * 16 + i.val; omega)
  unfold ptSum
  rw [dif_pos hlt]
  unfold tileSum
  exact Finset.sum_congr rfl fun a _ => by rw [ptHid_eq, ht]

/-- The contribution of tile `16·h + i` to plane 1 is the column sum of the squared activations over that tile. -/
theorem ptSumSq_eq (c : Dev nD) (h : Fin 2) (i : Fin 16) (j : Fin 300) :
    ptSumSq V c (16 * h.val + i.val) j = tileSum (Cert.Spec.sq (H V c)) (ptOf h i) j := by
  have hN : cfg0.N = 32 := N_0
  have hlt : 16 * h.val + i.val < cfg0.N := by rw [hN]; omega
  have ht : tileOf ⟨16 * h.val + i.val, hlt⟩ = ptOf h i := Fin.ext (by show 16 * h.val + i.val = h.val * 16 + i.val; omega)
  unfold ptSumSq
  rw [dif_pos hlt]
  unfold tileSum Cert.Spec.sq
  exact Finset.sum_congr rfl fun a _ => by rw [ptHid_eq, ht]

/-- The sixteen contributions of a half add up to the half's column sums. -/
theorem halfSum_eq (c : Dev nD) (h : Fin 2) (j : Fin 300) :
    ∑ s ∈ Finset.range 16, ptSum V c (16 * h.val + s) j = coreSum (H V c) h j := by
  rw [Finset.sum_range]
  unfold coreSum
  exact Finset.sum_congr rfl fun i _ => ptSum_eq V c h i j

theorem halfSumSq_eq (c : Dev nD) (h : Fin 2) (j : Fin 300) :
    ∑ s ∈ Finset.range 16, ptSumSq V c (16 * h.val + s) j = coreSum (Cert.Spec.sq (H V c)) h j := by
  rw [Finset.sum_range]
  unfold coreSum
  exact Finset.sum_congr rfl fun i _ => ptSumSq_eq V c h i j

/-- The statistics array the region ends with: slab `h` holds the column sums of half `h` of the batch's activations
    in plane 0 and of their squares in plane 1. -/
def G4 (c : Dev nD) : S2x2x300.Idx → EReal := fun i =>
  if (i 1).val = 0 then coreSum (H V c) (i 0) (i 2) else coreSum (Cert.Spec.sq (H V c)) (i 0) (i 2)

/-- What the last tile of a half writes back is its slab of that array. -/
theorem flushed4_eq (c : Dev nD) (t : Fin cfg0.N) (hf : (cfg0.win 4).flush t = true) :
    (dat0 V c).flushed 4 t = ((cfg0.win 4).blk t).view.read (Elt Ideal) (G4 V c) := by
  have hN : cfg0.N = 32 := N_0
  have ht : t.val % 16 = 15 := (flush0_4 t).mp hf
  have htl : t.val < 32 := lt_of_lt_of_eq t.isLt hN
  obtain ⟨-, -, -, -, -, -, -, -, e0, e1, e2⟩ := idx_facts t
  show (cfg0.win 4).cut (grid0.coords t) ((dat0 V c).after 4 t) = _
  rw [after0_4]
  funext y
  obtain ⟨u, p, j, rfl⟩ : ∃ (u : Fin 1) (p : Fin 2) (j : Fin 300), (y : S1x2x300.Idx) = ix3 u p j := ⟨y 0, y 1, y 2, eq_ix3 y⟩
  obtain rfl : u = 0 := Subsingleton.elim _ _
  let h : Fin 2 := ⟨t.val / 16, by omega⟩
  have h0 : (((cfg0.win 4).blk t).view.emb (ix3 (0 : Fin 1) p j) : S2x2x300.Idx) 0 = h := by
    apply Fin.ext
    show win0_4.index t (0 : Fin 3) * 1 + 1 * 0 = t.val / 16
    rw [e0]; omega
  have h1 : (((cfg0.win 4).blk t).view.emb (ix3 (0 : Fin 1) p j) : S2x2x300.Idx) 1 = p := by
    apply Fin.ext
    show win0_4.index t (1 : Fin 3) * 2 + 1 * p.val = p.val
    rw [e1]; omega
  have h2 : (((cfg0.win 4).blk t).view.emb (ix3 (0 : Fin 1) p j) : S2x2x300.Idx) 2 = j := by
    apply Fin.ext
    show win0_4.index t (2 : Fin 3) * 300 + 1 * j.val = j.val
    rw [e2]; omega
  have hacc := outs4_apply V c j t.val t.isLt
  rw [ht] at hacc
  rw [View.read_apply]
  show ((outsAt0 V c t.val t.isLt).2 : S1x2x300.Idx → EReal) (ix3 (0 : Fin 1) p j) = G4 V c (((cfg0.win 4).blk t).view.emb (ix3 (0 : Fin 1) p j))
  unfold G4
  rw [h0, h1, h2]
  match p with
  | ⟨0, _⟩ =>
    rw [if_pos rfl]
    exact hacc.1.trans (halfSum_eq V c h j)
  | ⟨1, _⟩ =>
    rw [if_neg (show ¬(1 : ℕ) = 0 from Nat.one_ne_zero)]
    exact hacc.2.trans (halfSumSq_eq V c h j)

/-- An entry of the statistics array lies in tile `t`'s block iff its slab is the tile's half. -/
theorem mem_blk4 (t : Fin cfg0.N) (i : S2x2x300.Idx) :
    i ∈ ((cfg0.win 4).blk t).view.set ↔ ∀ a : Fin 3, win0_4.index t a * S1x2x300.size a ≤ (i a).val ∧ (i a).val < win0_4.index t a * S1x2x300.size a + S1x2x300.size a := by
  show i ∈ ((View.whole main_v7_1).slice (win0_4.rect t)).set ↔ _
  rw [View.set_slice_whole, Rect.mem_set_unit]
  exact Iff.rfl

/-- Every entry is in the block written back by the last tile of its half. -/
theorem cover4 (i : S2x2x300.Idx) : ∃ t : Fin cfg0.N, (cfg0.win 4).flush t = true ∧ i ∈ ((cfg0.win 4).blk t).view.set := by
  have hi0 : (i 0).val < 2 := (i 0).isLt
  have hi1 : (i 1).val < 2 := (i 1).isLt
  have hi2 : (i 2).val < 300 := (i 2).isLt
  have hN : cfg0.N = 32 := N_0
  let t : Fin cfg0.N := ⟨16 * (i 0).val + 15, by rw [hN]; omega⟩
  obtain ⟨-, -, -, -, -, -, -, -, e0, e1, e2⟩ := idx_facts t
  have ht : t.val = 16 * (i 0).val + 15 := rfl
  refine ⟨t, (flush0_4 t).mpr (by rw [ht]; omega), ?_⟩
  rw [mem_blk4]
  intro a
  match a with
  | ⟨0, _⟩ => show win0_4.index t (0 : Fin 3) * 1 ≤ (i 0).val ∧ (i 0).val < win0_4.index t (0 : Fin 3) * 1 + 1; rw [e0, ht]; omega
  | ⟨1, _⟩ => show win0_4.index t (1 : Fin 3) * 2 ≤ (i 1).val ∧ (i 1).val < win0_4.index t (1 : Fin 3) * 2 + 2; rw [e1]; omega
  | ⟨2, _⟩ => show win0_4.index t (2 : Fin 3) * 300 ≤ (i 2).val ∧ (i 2).val < win0_4.index t (2 : Fin 3) * 300 + 300; rw [e2]; omega

/-- The statistics array after the region. -/
theorem final4 (c : Dev nD) : (dat0 V c).arrAt 4 cfg0.N = G4 V c :=
  (dat0 V c).arrAt_eq_of_cover 4 (G4 V c) (flushed4_eq V c) cover4

end Cert.KernelIdeal.R0

end
-- ==== Proof.Region0.lean ====
/-
  The first kernel's two result arrays, entry by entry.

  After the 32 tiles the activation array holds  max (X·W₁ᵀ + b₁) 0  at every entry, and slab h of the statistics
  array holds, per column, the sum of the activations over the 16 tiles of half h of the batch (plane 0) and the sum
  of their squares (plane 1).  Both hold for whatever contents the arrays have when the kernel starts.
-/
import proofs.«169054_j38500086842157_2_alg».proof.Proof.Region0Arr

noncomputable section

namespace Cert.KernelIdeal.R0

open Idealize.ShloMosaic Idealize.ShloMosaic.TcCoe Idealize.SL.Sem Idealize.ShloMosaic.ValueIdx
open Cert.KernelIdeal Cert.KernelIdeal.Gen Cert.Spec

variable (V : (c : Dev nD) → (b : Ref sig .tc) → Buf (Elt Ideal) ((c : Thread nD τ).loc b))

/-- The activation array after the region is the first layer's activations of the arrays it found. -/
theorem h1_eq (c : Dev nD) (p : Fin 65536) (j : Fin 300) :
    ((Gen.dat0 (F := Ideal) V c).arrAt 3 cfg0.N : S65536x300.Idx → EReal) (ix2 p j)
      = Cert.Spec.hid (mat (V c main_arg0 : S65536x784.Idx → EReal)) (mat (V c main_arg1 : S300x784.Idx → EReal))
          (row (V c main_v0 : S1x300.Idx → EReal)) p j := by
  rw [final3]
  rfl

/-- The statistics array after the region: per half, the column sums of the activations and of their squares. -/
theorem stats_eq (c : Dev nD) (h : Fin 2) (j : Fin 300) :
    ((Gen.dat0 (F := Ideal) V c).arrAt 4 cfg0.N : S2x2x300.Idx → EReal) (ix3 h (0 : Fin 2) j)
        = Cert.Spec.coreSum (Cert.Spec.hid (mat (V c main_arg0 : S65536x784.Idx → EReal))
            (mat (V c main_arg1 : S300x784.Idx → EReal)) (row (V c main_v0 : S1x300.Idx → EReal))) h j
    ∧ ((Gen.dat0 (F := Ideal) V c).arrAt 4 cfg0.N : S2x2x300.Idx → EReal) (ix3 h (1 : Fin 2) j)
        = Cert.Spec.coreSum (Cert.Spec.sq (Cert.Spec.hid (mat (V c main_arg0 : S65536x784.Idx → EReal))
            (mat (V c main_arg1 : S300x784.Idx → EReal)) (row (V c main_v0 : S1x300.Idx → EReal)))) h j := by
  rw [final4]
  exact ⟨if_pos rfl, if_neg (show ¬(1 : ℕ) = 0 from Nat.one_ne_zero)⟩

end Cert.KernelIdeal.R0

end
-- ==== Proof.Region1Found.lean ====
/-
  What one grid point of the second layer leaves in its two output blocks, as values of the blocks it reads.

  A point reads a tile of 2048 rows of the first layer's activations and of the two noise arrays, the four
  per-column rows (mean, variance, scale, shift), the second weight matrix and its bias row.  It stores the tile of
  the second layer's activations, and adds the tile's column sums and column sums of squares to a two-row block of
  running statistics.  At the first tile of each half of the batch the statistics block is first set to zero, so
  the update there is an update of zeros; at every other tile it is an update of what the tile before left.
  The four equations below say exactly that, for any float values.
-/
import proofs.«169054_j38500086842157_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.R1

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The tile of second-layer activations a point stores, from the nine blocks it reads (activations, noise scale,
    noise shift, mean, variance, scale, shift, weights, bias). -/
abbrev tile (x0 : Vec F S2048x300 .f32) (x1 : Vec F S2048x300 .f32) (x2 : Vec F S2048x300 .f32) (x3 : Vec F S1x300 .f32) (x4 : Vec F S1x300 .f32) (x5 : Vec F S1x300 .f32) (x6 : Vec F S1x300 .f32) (x7 : Vec F S100x300 .f32) (x8 : Vec F S1x100 .f32) : FVec F S2048x100 .f32 :=
  k1_pay1 (k1_pay4 x0 x4 x5 x3 x6 x1 x2 x7) (k1_pay5 x8)

/-- The statistics block after a point, from the nine blocks it reads and the statistics block before it. -/
abbrev stat (x0 : Vec F S2048x300 .f32) (x1 : Vec F S2048x300 .f32) (x2 : Vec F S2048x300 .f32) (x3 : Vec F S1x300 .f32) (x4 : Vec F S1x300 .f32) (x5 : Vec F S1x300 .f32) (x6 : Vec F S1x300 .f32) (x7 : Vec F S100x300 .f32) (x8 : Vec F S1x100 .f32) (acc : Vec F S1x2x100 .f32) : FVec F S1x2x100 .f32 :=
  k1_pay2 (k1_pay4 x0 x4 x5 x3 x6 x1 x2 x7) (k1_pay5 x8) acc

/-- At the first tile of a half the activation block ends holding the tile. -/
theorem out_A_9 (c : Dev nD) (i : grid1.Coords) (arg2 : Memref sig .tc .vmem S2048x300 .f32) (harg2 : arg2.IsWhole) (arg3 : Memref sig .tc .vmem S2048x300 .f32) (harg3 : arg3.IsWhole) (arg4 : Memref sig .tc .vmem S2048x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (arg8 : Memref sig .tc .vmem S1x300 .f32) (harg8 : arg8.IsWhole) (arg9 : Memref sig .tc .vmem S100x300 .f32) (harg9 : arg9.IsWhole) (arg10 : Memref sig .tc .vmem S1x100 .f32) (harg10 : arg10.IsWhole) (arg11 : Memref sig .tc .vmem S2048x100 .f32) (harg11 : arg11.IsWhole) (arg12 : Memref sig .tc .vmem S1x2x100 .f32) (harg12 : arg12.IsWhole) (hc0 : cond1_0 i)
    (x0 : Vec F S2048x300 .f32) (x1 : Vec F S2048x300 .f32) (x2 : Vec F S2048x300 .f32) (x3 : Vec F S1x300 .f32) (x4 : Vec F S1x300 .f32) (x5 : Vec F S1x300 .f32) (x6 : Vec F S1x300 .f32) (x7 : Vec F S100x300 .f32) (x8 : Vec F S1x100 .f32) :
    out1_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8 = tile x0 x1 x2 x3 x4 x5 x6 x7 x8 := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun1_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S2048x300) hz2, View.ld_unit_zero (S := S1x300) hz2, View.ld_unit_zero (S := S100x300) hz2, View.ld_unit_zero (S := S1x100) hz2]

/-- At every other tile the activation block ends holding the tile too. -/
theorem out_B_9 (c : Dev nD) (i : grid1.Coords) (arg2 : Memref sig .tc .vmem S2048x300 .f32) (harg2 : arg2.IsWhole) (arg3 : Memref sig .tc .vmem S2048x300 .f32) (harg3 : arg3.IsWhole) (arg4 : Memref sig .tc .vmem S2048x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (arg8 : Memref sig .tc .vmem S1x300 .f32) (harg8 : arg8.IsWhole) (arg9 : Memref sig .tc .vmem S100x300 .f32) (harg9 : arg9.IsWhole) (arg10 : Memref sig .tc .vmem S1x100 .f32) (harg10 : arg10.IsWhole) (arg11 : Memref sig .tc .vmem S2048x100 .f32) (harg11 : arg11.IsWhole) (arg12 : Memref sig .tc .vmem S1x2x100 .f32) (harg12 : arg12.IsWhole) (hc0 : ¬cond1_0 i)
    (x0 : Vec F S2048x300 .f32) (x1 : Vec F S2048x300 .f32) (x2 : Vec F S2048x300 .f32) (x3 : Vec F S1x300 .f32) (x4 : Vec F S1x300 .f32) (x5 : Vec F S1x300 .f32) (x6 : Vec F S1x300 .f32) (x7 : Vec F S100x300 .f32) (x8 : Vec F S1x100 .f32) (xo10 : Vec F S1x2x100 .f32) :
    out1_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10 = tile x0 x1 x2 x3 x4 x5 x6 x7 x8 := by
  unfold out1_B_9
  rw [View.read_writes_eq_canon _ _ _ (cover1_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S2048x300) hz2, View.ld_unit_zero (S := S1x300) hz2, View.ld_unit_zero (S := S100x300) hz2, View.ld_unit_zero (S := S1x100) hz2]

/-- At the first tile of a half the statistics block ends holding the update of the zero block. -/
theorem out_A_10 (c : Dev nD) (i : grid1.Coords) (arg2 : Memref sig .tc .vmem S2048x300 .f32) (harg2 : arg2.IsWhole) (arg3 : Memref sig .tc .vmem S2048x300 .f32) (harg3 : arg3.IsWhole) (arg4 : Memref sig .tc .vmem S2048x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (arg8 : Memref sig .tc .vmem S1x300 .f32) (harg8 : arg8.IsWhole) (arg9 : Memref sig .tc .vmem S100x300 .f32) (harg9 : arg9.IsWhole) (arg10 : Memref sig .tc .vmem S1x100 .f32) (harg10 : arg10.IsWhole) (arg11 : Memref sig .tc .vmem S2048x100 .f32) (harg11 : arg11.IsWhole) (arg12 : Memref sig .tc .vmem S1x2x100 .f32) (harg12 : arg12.IsWhole) (hc0 : cond1_0 i)
    (x0 : Vec F S2048x300 .f32) (x1 : Vec F S2048x300 .f32) (x2 : Vec F S2048x300 .f32) (x3 : Vec F S1x300 .f32) (x4 : Vec F S1x300 .f32) (x5 : Vec F S1x300 .f32) (x6 : Vec F S1x300 .f32) (x7 : Vec F S100x300 .f32) (x8 : Vec F S1x100 .f32) :
    out1_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8 = stat x0 x1 x2 x3 x4 x5 x6 x7 x8 (k1_pay3 (F := F)) := by
  unfold out1_A_10
  rw [View.read_writes_eq_canon _ _ _ (cover1_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun1_A
  dsimp only
  sl_unfold_words
  rw [View.canon_cons_unit_zero (S := S1x2x100) hz3, View.readCov_unit_zero (S := S1x2x100) _ hz3]
  simp only [View.readAt_eq_ld, harg2.read_unread, harg3.read_unread, harg4.read_unread, harg5.read_unread, harg6.read_unread, harg7.read_unread, harg8.read_unread, harg9.read_unread, harg10.read_unread, View.ld_unit_zero (S := S2048x300) hz2, View.ld_unit_zero (S := S1x300) hz2, View.ld_unit_zero (S := S100x300) hz2, View.ld_unit_zero (S := S1x100) hz2]

/-- At every other tile the statistics block ends holding the update of what it held before. -/
theorem out_B_10 (c : Dev nD) (i : grid1.Coords) (arg2 : Memref sig .tc .vmem S2048x300 .f32) (harg2 : arg2.IsWhole) (arg3 : Memref sig .tc .vmem S2048x300 .f32) (harg3 : arg3.IsWhole) (arg4 : Memref sig .tc .vmem S2048x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (arg8 : Memref sig .tc .vmem S1x300 .f32) (harg8 : arg8.IsWhole) (arg9 : Memref sig .tc .vmem S100x300 .f32) (harg9 : arg9.IsWhole) (arg10 : Memref sig .tc .vmem S1x100 .f32) (harg10 : arg10.IsWhole) (arg11 : Memref sig .tc .vmem S2048x100 .f32) (harg11 : arg11.IsWhole) (arg12 : Memref sig .tc .vmem S1x2x100 .f32) (harg12 : arg12.IsWhole) (hc0 : ¬cond1_0 i)
    (x0 : Vec F S2048x300 .f32) (x1 : Vec F S2048x300 .f32) (x2 : Vec F S2048x300 .f32) (x3 : Vec F S1x300 .f32) (x4 : Vec F S1x300 .f32) (x5 : Vec F S1x300 .f32) (x6 : Vec F S1x300 .f32) (x7 : Vec F S100x300 .f32) (x8 : Vec F S1x100 .f32) (xo10 : Vec F S1x2x100 .f32) :
    out1_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10 = stat x0 x1 x2 x3 x4 x5 x6 x7 x8 xo10 := by
  unfold out1_B_10
  rw [View.read_writes_eq_canon _ _ _ (cover1_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, View.ld_unit_zero (S := S2048x300) hz2, View.ld_unit_zero (S := S1x300) hz2, View.ld_unit_zero (S := S100x300) hz2, View.ld_unit_zero (S := S1x100) hz2, View.ld_unit_zero (S := S1x2x100) hz3]

end Cert.KernelIdeal.R1

end
-- ==== Proof.Region1Tile.lean ====
/-
  The second layer's arithmetic on one tile, entry by entry, over the extended reals.

  From a tile of 2048 rows of the first layer's activations h, noise scale s and noise shift m, the per-column rows
  mean, var, g, β, the weight matrix W (100 × 300) and the bias row b, a point computes
      z(a, c)  = s(a, c) · (g(c) · (h(a, c) − mean(c)) · rsqrt (var(c) + ε) + β(c)) + m(a, c),
      h₂(a, j) = max (Σ_c z(a, c) · W(j, c) + b(j), 0),
  and adds to row 0 of a two-row block the column sums Σ_a h₂(a, j) and to row 1 the column sums of squares
  Σ_a h₂(a, j)².  The narrowing of both product operands is the identity on the extended reals, the product into the
  zero block is the plain sum over the shared axis, and a column sum started from the zero word is the plain sum.
-/
import proofs.«169054_j38500086842157_2_alg».proof.Proof.Gen.KernelIdeal.Skeleton
import proofs.«169054_j38500086842157_2_alg».proof.Proof.Spec
import proofs.«169054_j38500086842157_2_alg».proof.Proof.Arr
import proofs.«169054_j38500086842157_2_alg».proof.Proof.LibNtMatmul
import proofs.«169054_j38500086842157_2_alg».proof.Proof.LibRowForms
import Idealize.ShloMosaic.Lib.ValueLayout
import Idealize.ShloMosaic.Lib.Pipeline.Value

noncomputable section

open scoped BigOperators
open Idealize.ShloMosaic Idealize.ShloMosaic.ValueIdx

namespace Cert.KernelIdeal.R1

open Cert.KernelIdeal Cert.KernelIdeal.Gen

/-- The reciprocal square root of a vector, at an index. -/
theorem rsqrt_apply {s : Shape} {φ : FTy} (x : FVec Ideal s φ) (i : s.Idx) : rsqrt x i = Ideal.rsqrt (x i) := rfl

/-- The product of the normalised, noised tile with the transposed weights, at entry (a, j). -/
theorem pay4_apply (v3 : Vec Ideal S2048x300 .f32) (v5 v10 v12 v20 : Vec Ideal S1x300 .f32)
    (v24 v26 : Vec Ideal S2048x300 .f32) (v29 : Vec Ideal S100x300 .f32) (a : Fin 2048) (j : Fin 100) :
    k1_pay4 (F := Ideal) v3 v5 v10 v12 v20 v24 v26 v29 (ix2 a j)
      = ∑ c : Fin 300, (v24 (ix2 a c) * (v10 (ix2 (0 : Fin 1) c) * (v3 (ix2 a c) - v12 (ix2 (0 : Fin 1) c))
            * Ideal.rsqrt (v5 (ix2 (0 : Fin 1) c) + Cert.Spec.eps) + v20 (ix2 (0 : Fin 1) c)) + v26 (ix2 a c))
          * v29 (ix2 j c) := by
  unfold k1_pay4
  refine (Cert.LibNtMatmul.matmul_nt_zero_apply none _ _ a j).trans ?_
  refine Finset.sum_congr rfl fun c _ => ?_
  rw [truncf_apply, truncf_apply, addf_apply, mulf_apply, addf_apply, mulf_apply, mulf_apply, subf_apply,
    broadcastTo_1b_ab_apply, broadcastTo_1b_ab_apply, broadcastTo_1b_ab_apply, broadcastTo_1b_ab_apply, rsqrt_apply,
    addf_apply, shapeCast_self, shapeCast_self, shapeCast_self, shapeCast_self, shapeCast_self]
  rfl

/-- The bias row repeated down the tile, at entry (a, j). -/
theorem pay5_apply (v32 : Vec Ideal S1x100 .f32) (a : Fin 2048) (j : Fin 100) :
    k1_pay5 (F := Ideal) v32 (ix2 a j) = v32 (ix2 (0 : Fin 1) j) := by
  unfold k1_pay5
  refine (broadcastTo_1b_ab_apply _ _ a j).trans ?_
  rw [shapeCast_self]

/-- The rectifier of product plus bias, at an entry. -/
theorem pay1_apply (v31 v34 : FVec Ideal S2048x100 .f32) (i : S2048x100.Idx) :
    k1_pay1 (F := Ideal) v31 v34 i = max (v31 i + v34 i) 0 := by
  unfold k1_pay1
  rw [maximumf_apply, addf_apply, broadcast_apply]
  exact congrArg (max (v31 i + v34 i)) Ideal.ofBits_zero_f32

/-- The block of zeros, at an entry. -/
theorem pay3_apply (i : S1x2x100.Idx) : k1_pay3 (F := Ideal) i = 0 := by
  unfold k1_pay3
  rw [broadcast_apply]
  exact Ideal.ofBits_zero_f32

/-- Row 0 of the updated statistics block: what was there plus the tile's column sum. -/
theorem pay2_apply_sum (v31 v34 : FVec Ideal S2048x100 .f32) (v44 : Vec Ideal S1x2x100 .f32) (j : Fin 100) :
    k1_pay2 (F := Ideal) v31 v34 v44 (ix3 (0 : Fin 1) (0 : Fin 2) j)
      = v44 (ix3 (0 : Fin 1) (0 : Fin 2) j) + ∑ a : Fin 2048, k1_pay1 (F := Ideal) v31 v34 (ix2 a j) := by
  unfold k1_pay2
  rw [addf_apply, shapeCast_self]
  refine congrArg (v44 (ix3 (0 : Fin 1) (0 : Fin 2) j) + ·) ?_
  refine (shapeCast_ab_1ab_apply _ _ (0 : Fin 1) (0 : Fin 2) j).trans ?_
  refine (concatenate_pair_apply_left (t := S2x100) (s₁ := S1x100) (s₂ := S1x100) (0 : Fin 2) _ _ _ (ix2 (0 : Fin 2) j) rfl (ix2 (0 : Fin 1) j)
    (fun b => by match b with | ⟨0, _⟩ => rfl | ⟨1, _⟩ => rfl)).trans ?_
  refine (shapeCast_a_1a_apply _ _ (0 : Fin 1) j).trans ?_
  exact multiReduction_add_col _ _ _ _ _ j

/-- Row 1 of the updated statistics block: what was there plus the tile's column sum of squares. -/
theorem pay2_apply_sq (v31 v34 : FVec Ideal S2048x100 .f32) (v44 : Vec Ideal S1x2x100 .f32) (j : Fin 100) :
    k1_pay2 (F := Ideal) v31 v34 v44 (ix3 (0 : Fin 1) (1 : Fin 2) j)
      = v44 (ix3 (0 : Fin 1) (1 : Fin 2) j)
        + ∑ a : Fin 2048, k1_pay1 (F := Ideal) v31 v34 (ix2 a j) * k1_pay1 (F := Ideal) v31 v34 (ix2 a j) := by
  unfold k1_pay2
  rw [addf_apply, shapeCast_self]
  refine congrArg (v44 (ix3 (0 : Fin 1) (1 : Fin 2) j) + ·) ?_
  refine (shapeCast_ab_1ab_apply _ _ (0 : Fin 1) (1 : Fin 2) j).trans ?_
  refine (concatenate_pair_apply_right (t := S2x100) (s₁ := S1x100) (s₂ := S1x100) (0 : Fin 2) _ _ _ (ix2 (1 : Fin 2) j) rfl rfl (ix2 (0 : Fin 1) j)
    (fun b hb => by match b, hb with | ⟨0, _⟩, hb => exact absurd rfl hb | ⟨1, _⟩, _ => rfl) rfl).trans ?_
  refine (shapeCast_a_1a_apply _ _ (0 : Fin 1) j).trans ?_
  exact multiReduction_add_col _ _ _ _ _ j

/-! ## The tile as rows of whole arrays -/

section Whole

open Cert.Spec

variable (A0 A1 A2 : S65536x300.Idx → EReal) (r3 r4 r5 r6 : S1x300.Idx → EReal) (W : S100x300.Idx → EReal)
  (b : S1x100.Idx → EReal)

/-- The second layer's activations over the whole batch, from the first layer's activations `A0`, the noise scale `A1`
    and shift `A2`, the rows mean `r3`, variance `r4`, scale `r5`, shift `r6`, the weights `W` and the bias row `b`. -/
abbrev layer : Fin 65536 → Fin 100 → EReal :=
  hid (bn (mat A0) (row r3) (row r4) (row r5) (row r6) (mat A1) (mat A2)) (mat W) (row b)

variable (T : Fin 32) (x0 x1 x2 : Vec Ideal S2048x300 .f32) (x3 x4 x5 x6 : Vec Ideal S1x300 .f32)
  (x7 : Vec Ideal S100x300 .f32) (x8 : Vec Ideal S1x100 .f32)
  (h0 : ∀ a k, x0 (ix2 a k) = A0 (ix2 (rowOf T a) k)) (h1 : ∀ a k, x1 (ix2 a k) = A1 (ix2 (rowOf T a) k))
  (h2 : ∀ a k, x2 (ix2 a k) = A2 (ix2 (rowOf T a) k))
  (h3 : ∀ k, x3 (ix2 (0 : Fin 1) k) = r3 (ix2 (0 : Fin 1) k)) (h4 : ∀ k, x4 (ix2 (0 : Fin 1) k) = r4 (ix2 (0 : Fin 1) k))
  (h5 : ∀ k, x5 (ix2 (0 : Fin 1) k) = r5 (ix2 (0 : Fin 1) k)) (h6 : ∀ k, x6 (ix2 (0 : Fin 1) k) = r6 (ix2 (0 : Fin 1) k))
  (h7 : ∀ j k, x7 (ix2 j k) = W (ix2 j k)) (h8 : ∀ j, x8 (ix2 (0 : Fin 1) j) = b (ix2 (0 : Fin 1) j))

include h0 h1 h2 h3 h4 h5 h6 h7 h8

/-- When the three tall blocks are rows `T·2048 + a` of their arrays and the other blocks are their whole arrays, entry
    (a, j) of the stored tile is entry (T·2048 + a, j) of the layer. -/
theorem tile_apply_of (a : Fin 2048) (j : Fin 100) :
    k1_pay1 (F := Ideal) (k1_pay4 x0 x4 x5 x3 x6 x1 x2 x7) (k1_pay5 x8) (ix2 a j)
      = layer A0 A1 A2 r3 r4 r5 r6 W b (rowOf T a) j := by
  rw [pay1_apply, pay4_apply, pay5_apply, h8]
  simp only [h0, h1, h2, h3, h4, h5, h6, h7]
  rfl

/-- And the statistics block gains, in row 0, the layer's column sum over tile `T` and, in row 1, the column sum of
    its squares. -/
theorem stat_apply_of (acc : Vec Ideal S1x2x100 .f32) (j : Fin 100) :
    k1_pay2 (F := Ideal) (k1_pay4 x0 x4 x5 x3 x6 x1 x2 x7) (k1_pay5 x8) acc (ix3 (0 : Fin 1) (0 : Fin 2) j)
        = acc (ix3 (0 : Fin 1) (0 : Fin 2) j) + tileSum (layer A0 A1 A2 r3 r4 r5 r6 W b) T j
    ∧ k1_pay2 (F := Ideal) (k1_pay4 x0 x4 x5 x3 x6 x1 x2 x7) (k1_pay5 x8) acc (ix3 (0 : Fin 1) (1 : Fin 2) j)
        = acc (ix3 (0 : Fin 1) (1 : Fin 2) j) + tileSum (sq (layer A0 A1 A2 r3 r4 r5 r6 W b)) T j := by
  have ht := tile_apply_of A0 A1 A2 r3 r4 r5 r6 W b T x0 x1 x2 x3 x4 x5 x6 x7 x8 h0 h1 h2 h3 h4 h5 h6 h7 h8
  constructor
  · rw [pay2_apply_sum]
    refine congrArg (acc (ix3 (0 : Fin 1) (0 : Fin 2) j) + ·) ?_
    exact Finset.sum_congr rfl fun a _ => ht a j
  · rw [pay2_apply_sq]
    refine congrArg (acc (ix3 (0 : Fin 1) (1 : Fin 2) j) + ·) ?_
    exact Finset.sum_congr rfl fun a _ => by rw [ht a j]; rfl

end Whole

/-! ## Sums over the tiles of a half, counted by a natural number -/

section Halves

open Cert.Spec

variable {f : ℕ}

/-- The column sum over tile `n`, zero past the last tile. -/
def tsum (H : Fin 65536 → Fin f → EReal) (n : ℕ) (j : Fin f) : EReal :=
  if h : n < 32 then tileSum H ⟨n, h⟩ j else 0

theorem tsum_of_lt (H : Fin 65536 → Fin f → EReal) (T : Fin 32) (j : Fin f) : tsum H T.val j = tileSum H T j := by
  unfold tsum
  rw [dif_pos T.isLt]

/-- The sum over the 16 tiles of half `h` as a sum over a range of tile numbers. -/
theorem coreSum_eq_range (H : Fin 65536 → Fin f → EReal) (h : Fin 2) (j : Fin f) :
    coreSum H h j = ∑ i ∈ Finset.range 16, tsum H (h.val * 16 + i) j := by
  unfold coreSum
  rw [← Fin.sum_univ_eq_sum_range (fun i => tsum H (h.val * 16 + i) j) 16]
  exact Finset.sum_congr rfl fun i _ => (tsum_of_lt H (ptOf h i) j).symm

/-- A run of tiles that starts at a multiple of 16: after its first tile the running sum is that tile's term. -/
theorem range_step_first (g : ℕ → EReal) (n : ℕ) (h0 : n % 16 = 0) :
    0 + g n = ∑ i ∈ Finset.range (n % 16 + 1), g (n - n % 16 + i) := by
  rw [h0, zero_add, Nat.zero_add, Finset.sum_range_one, Nat.sub_zero, Nat.add_zero]

/-- Inside a run the running sum gains the next tile's term. -/
theorem range_step_next (g : ℕ → EReal) (n : ℕ) (h0 : ¬(n + 1) % 16 = 0) :
    (∑ i ∈ Finset.range (n % 16 + 1), g (n - n % 16 + i)) + g (n + 1)
      = ∑ i ∈ Finset.range ((n + 1) % 16 + 1), g (n + 1 - (n + 1) % 16 + i) := by
  have e1 : (n + 1) % 16 = n % 16 + 1 := by omega
  have e2 : n + 1 - (n % 16 + 1) = n - n % 16 := by omega
  have e3 : n - n % 16 + (n % 16 + 1) = n + 1 := by omega
  rw [e1, e2, Finset.sum_range_succ _ (n % 16 + 1), e3]

/-- At the last tile of a run the running sum is the sum over the half. -/
theorem range_last (g : ℕ → EReal) (n : ℕ) (h15 : n % 16 = 15) :
    ∑ i ∈ Finset.range (n % 16 + 1), g (n - n % 16 + i) = ∑ i ∈ Finset.range 16, g (n / 16 * 16 + i) := by
  have e : n - 15 = n / 16 * 16 := by omega
  rw [h15, e]

end Halves

end Cert.KernelIdeal.R1

end
-- ==== Proof.Region1Points.lean ====
/-
  The second layer's grid, point by point.

  The 32 points are the 32 tiles of 2048 rows, in order; the first 16 are the first half of the batch.  At point t the
  three tall inputs' blocks are rows t·2048 … t·2048 + 2047 of their arrays and the six small inputs' blocks are their
  whole arrays, so the tile a point stores is those rows of the layer's activations over the whole batch, whatever the
  point's case.  The statistics block is carried from a point to the next inside a half and starts again from zero at
  the first tile of each half, so after tile number n it holds, in row 0, the sum of the column sums of the tiles from
  the start of n's half up to n, and in row 1 the same for the squares: by induction on n.
-/
import proofs.«169054_j38500086842157_2_alg».proof.Proof.Region1Found
import proofs.«169054_j38500086842157_2_alg».proof.Proof.Region1Tile

noncomputable section

open scoped BigOperators
open Idealize.ShloMosaic Idealize.ShloMosaic.TcCoe Idealize.SL.Sem Idealize.ShloMosaic.ValueIdx

namespace Cert.KernelIdeal.R1

open Cert.KernelIdeal Cert.KernelIdeal.Gen Cert.Spec

variable (V : (c : Dev nD) → (b : Ref sig .tc) → Buf (Elt Ideal) ((c : Thread nD τ).loc b))

/-- The printed block-index maps over the grid: a tall window's block index is the point's number on the rows and 0
    on the columns, a small window's is 0 on both axes, and the statistics window's is the half's number then 0, 0. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_9.index t (0 : Fin 2) = t.val
    ∧ win1_9.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_10.index t (0 : Fin 3) = t.val / 16
    ∧ win1_10.index t (1 : Fin 3) = 0
    ∧ win1_10.index t (2 : Fin 3) = 0 :=
  (by decide +kernel : ∀ t : Fin grid1.N, _)

/-- The grid point as a tile number. -/
def tileOf (t : Fin cfg1.N) : Fin 32 := ⟨t.val, lt_of_lt_of_eq t.isLt N_1⟩

theorem tileOf_val (t : Fin cfg1.N) : (tileOf t).val = t.val := rfl

/-- Input 0's block at a point is rows `t·2048 + a` of its array. -/
theorem blk0_apply (c : Dev nD) (t : Fin cfg1.N) (a : Fin 2048) (k : Fin 300) :
    (iblk1 V c 0 t : S2048x300.Idx → EReal) (ix2 a k) = (V c main_v7_0 : S65536x300.Idx → EReal) (ix2 (rowOf (tileOf t) a) k) := by
  obtain ⟨e0a, e0b, e1a, e1b, e2a, e2b, e9a, e9b, e3a, e3b, e4a, e4b, e5a, e5b, e6a, e6b, e7a, e7b, e8a, e8b, e10a, e10b, e10c⟩ := idx_facts t
  show (V c main_v7_0 : S65536x300.Idx → EReal) (((cfg1.win 0).blk t).view.emb (ix2 a k)) = _
  refine congrArg (V c main_v7_0 : S65536x300.Idx → EReal) ?_
  funext ax; apply Fin.ext
  match ax with
  | ⟨0, _⟩ => show win1_0.index t (0 : Fin 2) * 2048 + 1 * a.val = t.val * 2048 + a.val; rw [e0a]; omega
  | ⟨1, _⟩ => show win1_0.index t (1 : Fin 2) * 300 + 1 * k.val = k.val; rw [e0b]; omega

/-- Input 1's block at a point is rows `t·2048 + a` of its array. -/
theorem blk1_apply (c : Dev nD) (t : Fin cfg1.N) (a : Fin 2048) (k : Fin 300) :
    (iblk1 V c 1 t : S2048x300.Idx → EReal) (ix2 a k) = (V c main_arg5 : S65536x300.Idx → EReal) (ix2 (rowOf (tileOf t) a) k) := by
  obtain ⟨e0a, e0b, e1a, e1b, e2a, e2b, e9a, e9b, e3a, e3b, e4a, e4b, e5a, e5b, e6a, e6b, e7a, e7b, e8a, e8b, e10a, e10b, e10c⟩ := idx_facts t
  show (V c main_arg5 : S65536x300.Idx → EReal) (((cfg1.win 1).blk t).view.emb (ix2 a k)) = _
  refine congrArg (V c main_arg5 : S65536x300.Idx → EReal) ?_
  funext ax; apply Fin.ext
  match ax with
  | ⟨0, _⟩ => show win1_1.index t (0 : Fin 2) * 2048 + 1 * a.val = t.val * 2048 + a.val; rw [e1a]; omega
  | ⟨1, _⟩ => show win1_1.index t (1 : Fin 2) * 300 + 1 * k.val = k.val; rw [e1b]; omega

/-- Input 2's block at a point is rows `t·2048 + a` of its array. -/
theorem blk2_apply (c : Dev nD) (t : Fin cfg1.N) (a : Fin 2048) (k : Fin 300) :
    (iblk1 V c 2 t : S2048x300.Idx → EReal) (ix2 a k) = (V c main_arg6 : S65536x300.Idx → EReal) (ix2 (rowOf (tileOf t) a) k) := by
  obtain ⟨e0a, e0b, e1a, e1b, e2a, e2b, e9a, e9b, e3a, e3b, e4a, e4b, e5a, e5b, e6a, e6b, e7a, e7b, e8a, e8b, e10a, e10b, e10c⟩ := idx_facts t
  show (V c main_arg6 : S65536x300.Idx → EReal) (((cfg1.win 2).blk t).view.emb (ix2 a k)) = _
  refine congrArg (V c main_arg6 : S65536x300.Idx → EReal) ?_
  funext ax; apply Fin.ext
  match ax with
  | ⟨0, _⟩ => show win1_2.index t (0 : Fin 2) * 2048 + 1 * a.val = t.val * 2048 + a.val; rw [e2a]; omega
  | ⟨1, _⟩ => show win1_2.index t (1 : Fin 2) * 300 + 1 * k.val = k.val; rw [e2b]; omega

/-- Input 3's block at a point is its whole one-row array. -/
theorem blk3_apply (c : Dev nD) (t : Fin cfg1.N) (k : Fin 300) :
    (iblk1 V c 3 t : S1x300.Idx → EReal) (ix2 (0 : Fin 1) k) = (V c main_v21 : S1x300.Idx → EReal) (ix2 (0 : Fin 1) k) := by
  obtain ⟨e0a, e0b, e1a, e1b, e2a, e2b, e9a, e9b, e3a, e3b, e4a, e4b, e5a, e5b, e6a, e6b, e7a, e7b, e8a, e8b, e10a, e10b, e10c⟩ := idx_facts t
  show (V c main_v21 : S1x300.Idx → EReal) (((cfg1.win 3).blk t).view.emb (ix2 (0 : Fin 1) k)) = _
  refine congrArg (V c main_v21 : S1x300.Idx → EReal) ?_
  funext ax; apply Fin.ext
  match ax with
  | ⟨0, _⟩ => show win1_3.index t (0 : Fin 2) * 1 + 1 * 0 = 0; rw [e3a]
  | ⟨1, _⟩ => show win1_3.index t (1 : Fin 2) * 300 + 1 * k.val = k.val; rw [e3b]; omega

/-- Input 4's block at a point is its whole one-row array. -/
theorem blk4_apply (c : Dev nD) (t : Fin cfg1.N) (k : Fin 300) :
    (iblk1 V c 4 t : S1x300.Idx → EReal) (ix2 (0 : Fin 1) k) = (V c main_v22 : S1x300.Idx → EReal) (ix2 (0 : Fin 1) k) := by
  obtain ⟨e0a, e0b, e1a, e1b, e2a, e2b, e9a, e9b, e3a, e3b, e4a, e4b, e5a, e5b, e6a, e6b, e7a, e7b, e8a, e8b, e10a, e10b, e10c⟩ := idx_facts t
  show (V c main_v22 : S1x300.Idx → EReal) (((cfg1.win 4).blk t).view.emb (ix2 (0 : Fin 1) k)) = _
  refine congrArg (V c main_v22 : S1x300.Idx → EReal) ?_
  funext ax; apply Fin.ext
  match ax with
  | ⟨0, _⟩ => show win1_4.index t (0 : Fin 2) * 1 + 1 * 0 = 0; rw [e4a]
  | ⟨1, _⟩ => show win1_4.index t (1 : Fin 2) * 300 + 1 * k.val = k.val; rw [e4b]; omega

/-- Input 5's block at a point is its whole one-row array. -/
theorem blk5_apply (c : Dev nD) (t : Fin cfg1.N) (k : Fin 300) :
    (iblk1 V c 5 t : S1x300.Idx → EReal) (ix2 (0 : Fin 1) k) = (V c main_v1 : S1x300.Idx → EReal) (ix2 (0 : Fin 1) k) := by
  obtain ⟨e0a, e0b, e1a, e1b, e2a, e2b, e9a, e9b, e3a, e3b, e4a, e4b, e5a, e5b, e6a, e6b, e7a, e7b, e8a, e8b, e10a, e10b, e10c⟩ := idx_facts t
  show (V c main_v1 : S1x300.Idx → EReal) (((cfg1.win 5).blk t).view.emb (ix2 (0 : Fin 1) k)) = _
  refine congrArg (V c main_v1 : S1x300.Idx → EReal) ?_
  funext ax; apply Fin.ext
  match ax with
  | ⟨0, _⟩ => show win1_5.index t (0 : Fin 2) * 1 + 1 * 0 = 0; rw [e5a]
  | ⟨1, _⟩ => show win1_5.index t (1 : Fin 2) * 300 + 1 * k.val = k.val; rw [e5b]; omega

/-- Input 6's block at a point is its whole one-row array. -/
theorem blk6_apply (c : Dev nD) (t : Fin cfg1.N) (k : Fin 300) :
    (iblk1 V c 6 t : S1x300.Idx → EReal) (ix2 (0 : Fin 1) k) = (V c main_v2 : S1x300.Idx → EReal) (ix2 (0 : Fin 1) k) := by
  obtain ⟨e0a, e0b, e1a, e1b, e2a, e2b, e9a, e9b, e3a, e3b, e4a, e4b, e5a, e5b, e6a, e6b, e7a, e7b, e8a, e8b, e10a, e10b, e10c⟩ := idx_facts t
  show (V c main_v2 : S1x300.Idx → EReal) (((cfg1.win 6).blk t).view.emb (ix2 (0 : Fin 1) k)) = _
  refine congrArg (V c main_v2 : S1x300.Idx → EReal) ?_
  funext ax; apply Fin.ext
  match ax with
  | ⟨0, _⟩ => show win1_6.index t (0 : Fin 2) * 1 + 1 * 0 = 0; rw [e6a]
  | ⟨1, _⟩ => show win1_6.index t (1 : Fin 2) * 300 + 1 * k.val = k.val; rw [e6b]; omega

/-- The weights' block at a point is the whole matrix. -/
theorem blk7_apply (c : Dev nD) (t : Fin cfg1.N) (j : Fin 100) (k : Fin 300) :
    (iblk1 V c 7 t : S100x300.Idx → EReal) (ix2 j k) = (V c main_arg7 : S100x300.Idx → EReal) (ix2 j k) := by
  obtain ⟨e0a, e0b, e1a, e1b, e2a, e2b, e9a, e9b, e3a, e3b, e4a, e4b, e5a, e5b, e6a, e6b, e7a, e7b, e8a, e8b, e10a, e10b, e10c⟩ := idx_facts t
  show (V c main_arg7 : S100x300.Idx → EReal) (((cfg1.win 7).blk t).view.emb (ix2 j k)) = _
  refine congrArg (V c main_arg7 : S100x300.Idx → EReal) ?_
  funext ax; apply Fin.ext
  match ax with
  | ⟨0, _⟩ => show win1_7.index t (0 : Fin 2) * 100 + 1 * j.val = j.val; rw [e7a]; omega
  | ⟨1, _⟩ => show win1_7.index t (1 : Fin 2) * 300 + 1 * k.val = k.val; rw [e7b]; omega

/-- The bias block at a point is the whole row. -/
theorem blk8_apply (c : Dev nD) (t : Fin cfg1.N) (j : Fin 100) :
    (iblk1 V c 8 t : S1x100.Idx → EReal) (ix2 (0 : Fin 1) j) = (V c main_v3 : S1x100.Idx → EReal) (ix2 (0 : Fin 1) j) := by
  obtain ⟨e0a, e0b, e1a, e1b, e2a, e2b, e9a, e9b, e3a, e3b, e4a, e4b, e5a, e5b, e6a, e6b, e7a, e7b, e8a, e8b, e10a, e10b, e10c⟩ := idx_facts t
  show (V c main_v3 : S1x100.Idx → EReal) (((cfg1.win 8).blk t).view.emb (ix2 (0 : Fin 1) j)) = _
  refine congrArg (V c main_v3 : S1x100.Idx → EReal) ?_
  funext ax; apply Fin.ext
  match ax with
  | ⟨0, _⟩ => show win1_8.index t (0 : Fin 2) * 1 + 1 * 0 = 0; rw [e8a]
  | ⟨1, _⟩ => show win1_8.index t (1 : Fin 2) * 100 + 1 * j.val = j.val; rw [e8b]; omega

/-- The layer's activations over the whole batch, of the arrays as the region finds them. -/
abbrev act (c : Dev nD) : Fin 65536 → Fin 100 → EReal :=
  layer (V c main_v7_0 : S65536x300.Idx → EReal) (V c main_arg5 : S65536x300.Idx → EReal) (V c main_arg6 : S65536x300.Idx → EReal) (V c main_v21 : S1x300.Idx → EReal) (V c main_v22 : S1x300.Idx → EReal) (V c main_v1 : S1x300.Idx → EReal) (V c main_v2 : S1x300.Idx → EReal) (V c main_arg7 : S100x300.Idx → EReal) (V c main_v3 : S1x100.Idx → EReal)

/-- Entry (a, j) of the tile point t stores is entry (t·2048 + a, j) of the layer. -/
theorem tile_at (c : Dev nD) (t : Fin cfg1.N) (a : Fin 2048) (j : Fin 100) :
    tile (iblk1 V c 0 t) (iblk1 V c 1 t) (iblk1 V c 2 t) (iblk1 V c 3 t) (iblk1 V c 4 t) (iblk1 V c 5 t) (iblk1 V c 6 t) (iblk1 V c 7 t) (iblk1 V c 8 t) (ix2 a j) = act V c (rowOf (tileOf t) a) j :=
  tile_apply_of (V c main_v7_0 : S65536x300.Idx → EReal) (V c main_arg5 : S65536x300.Idx → EReal) (V c main_arg6 : S65536x300.Idx → EReal) (V c main_v21 : S1x300.Idx → EReal) (V c main_v22 : S1x300.Idx → EReal) (V c main_v1 : S1x300.Idx → EReal) (V c main_v2 : S1x300.Idx → EReal) (V c main_arg7 : S100x300.Idx → EReal) (V c main_v3 : S1x100.Idx → EReal) (tileOf t) (iblk1 V c 0 t) (iblk1 V c 1 t) (iblk1 V c 2 t) (iblk1 V c 3 t) (iblk1 V c 4 t) (iblk1 V c 5 t) (iblk1 V c 6 t) (iblk1 V c 7 t) (iblk1 V c 8 t)
    (blk0_apply V c t) (blk1_apply V c t) (blk2_apply V c t) (blk3_apply V c t) (blk4_apply V c t) (blk5_apply V c t) (blk6_apply V c t) (blk7_apply V c t) (blk8_apply V c t) a j

/-- The statistics block after point t, from the block before it. -/
theorem stat_at (c : Dev nD) (t : Fin cfg1.N) (acc : Vec Ideal S1x2x100 .f32) (j : Fin 100) :
    stat (iblk1 V c 0 t) (iblk1 V c 1 t) (iblk1 V c 2 t) (iblk1 V c 3 t) (iblk1 V c 4 t) (iblk1 V c 5 t) (iblk1 V c 6 t) (iblk1 V c 7 t) (iblk1 V c 8 t) acc (ix3 (0 : Fin 1) (0 : Fin 2) j)
        = acc (ix3 (0 : Fin 1) (0 : Fin 2) j) + tsum (act V c) t.val j
    ∧ stat (iblk1 V c 0 t) (iblk1 V c 1 t) (iblk1 V c 2 t) (iblk1 V c 3 t) (iblk1 V c 4 t) (iblk1 V c 5 t) (iblk1 V c 6 t) (iblk1 V c 7 t) (iblk1 V c 8 t) acc (ix3 (0 : Fin 1) (1 : Fin 2) j)
        = acc (ix3 (0 : Fin 1) (1 : Fin 2) j) + tsum (sq (act V c)) t.val j := by
  have h := stat_apply_of (V c main_v7_0 : S65536x300.Idx → EReal) (V c main_arg5 : S65536x300.Idx → EReal) (V c main_arg6 : S65536x300.Idx → EReal) (V c main_v21 : S1x300.Idx → EReal) (V c main_v22 : S1x300.Idx → EReal) (V c main_v1 : S1x300.Idx → EReal) (V c main_v2 : S1x300.Idx → EReal) (V c main_arg7 : S100x300.Idx → EReal) (V c main_v3 : S1x100.Idx → EReal) (tileOf t) (iblk1 V c 0 t) (iblk1 V c 1 t) (iblk1 V c 2 t) (iblk1 V c 3 t) (iblk1 V c 4 t) (iblk1 V c 5 t) (iblk1 V c 6 t) (iblk1 V c 7 t) (iblk1 V c 8 t)
    (blk0_apply V c t) (blk1_apply V c t) (blk2_apply V c t) (blk3_apply V c t) (blk4_apply V c t) (blk5_apply V c t) (blk6_apply V c t) (blk7_apply V c t) (blk8_apply V c t) acc j
  rw [← tileOf_val t, tsum_of_lt, tsum_of_lt]
  exact h

/-! ## What the two output blocks hold after each point -/

/-- The activation block after point t is the tile, in both cases. -/
theorem fst_eq (c : Dev nD) (t : Fin cfg1.N) :
    (outsAt1 V c t.val t.isLt).1 = tile (iblk1 V c 0 t) (iblk1 V c 1 t) (iblk1 V c 2 t) (iblk1 V c 3 t) (iblk1 V c 4 t) (iblk1 V c 5 t) (iblk1 V c 6 t) (iblk1 V c 7 t) (iblk1 V c 8 t) := by
  by_cases h0 : t.val % 16 = 0
  · rw [outsAt1_A V c t h0]
    dsimp only
    exact out_A_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)
  · rw [outsAt1_B V c t h0]
    dsimp only
    exact out_B_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2

/-- At the first tile of a half the statistics block is the update of zeros. -/
theorem snd_first (c : Dev nD) (t : Fin cfg1.N) (h0 : t.val % 16 = 0) :
    (outsAt1 V c t.val t.isLt).2 = stat (iblk1 V c 0 t) (iblk1 V c 1 t) (iblk1 V c 2 t) (iblk1 V c 3 t) (iblk1 V c 4 t) (iblk1 V c 5 t) (iblk1 V c 6 t) (iblk1 V c 7 t) (iblk1 V c 8 t) (k1_pay3 (F := Ideal)) := by
  rw [outsAt1_A V c t h0]
  dsimp only
  exact out_A_10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)

/-- At every other tile it is the update of what the tile before left. -/
theorem snd_next (c : Dev nD) (t : Fin cfg1.N) (h0 : ¬t.val % 16 = 0) :
    (outsAt1 V c t.val t.isLt).2 = stat (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2 := by
  rw [outsAt1_B V c t h0]
  dsimp only
  exact out_B_10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2

/-- The running sums: after tile number n the statistics block holds the column sums (row 0) and the column sums of
    squares (row 1) of the tiles from the start of n's half up to n. -/
theorem stats_inv (c : Dev nD) : ∀ (n : ℕ) (hn : n < cfg1.N) (j : Fin 100),
    ((outsAt1 V c n hn).2 : S1x2x100.Idx → EReal) (ix3 (0 : Fin 1) (0 : Fin 2) j)
        = ∑ i ∈ Finset.range (n % 16 + 1), tsum (act V c) (n - n % 16 + i) j
    ∧ ((outsAt1 V c n hn).2 : S1x2x100.Idx → EReal) (ix3 (0 : Fin 1) (1 : Fin 2) j)
        = ∑ i ∈ Finset.range (n % 16 + 1), tsum (sq (act V c)) (n - n % 16 + i) j
  | 0, hn, j => by
    have hA := snd_first V c ⟨0, hn⟩ (Nat.zero_mod 16)
    have hs := stat_at V c ⟨0, hn⟩ (k1_pay3 (F := Ideal)) j
    rw [pay3_apply, pay3_apply] at hs
    exact ⟨(congrFun hA _).trans (hs.1.trans (range_step_first (fun m => tsum (act V c) m j) 0 (Nat.zero_mod 16))),
      (congrFun hA _).trans (hs.2.trans (range_step_first (fun m => tsum (sq (act V c)) m j) 0 (Nat.zero_mod 16)))⟩
  | n + 1, hn, j => by
    by_cases h0 : (n + 1) % 16 = 0
    · have hA := snd_first V c ⟨n + 1, hn⟩ h0
      have hs := stat_at V c ⟨n + 1, hn⟩ (k1_pay3 (F := Ideal)) j
      rw [pay3_apply, pay3_apply] at hs
      exact ⟨(congrFun hA _).trans (hs.1.trans (range_step_first (fun m => tsum (act V c) m j) (n + 1) h0)),
        (congrFun hA _).trans (hs.2.trans (range_step_first (fun m => tsum (sq (act V c)) m j) (n + 1) h0))⟩
    · have hB := snd_next V c ⟨n + 1, hn⟩ h0
      have hs := stat_at V c ⟨n + 1, hn⟩ (outsAt1 V c n (Nat.lt_of_succ_lt hn)).2 j
      have ih := stats_inv c n (Nat.lt_of_succ_lt hn) j
      rw [ih.1, ih.2] at hs
      exact ⟨(congrFun hB _).trans (hs.1.trans (range_step_next (fun m => tsum (act V c) m j) n h0)),
        (congrFun hB _).trans (hs.2.trans (range_step_next (fun m => tsum (sq (act V c)) m j) n h0))⟩

end Cert.KernelIdeal.R1

end
-- ==== Proof.Region1.lean ====
/-
  The second layer's two result arrays after its grid has run.

  Every point writes back its tile of activations, and the 32 tiles are the 32 consecutive blocks of 2048 rows, so the
  activation array ends holding the layer's activations over the whole batch: row r is written by point r / 2048.
  The statistics block of a half is written back once, after the half's last tile, when it holds the sums over the
  half's 16 tiles; the two halves' blocks are the two slices of the statistics array along its first axis.  So entry
  (h, 0, j) of the statistics array ends as the sum of column j over half h and entry (h, 1, j) as the sum of its
  squares.
-/
import proofs.«169054_j38500086842157_2_alg».proof.Proof.Region1Points

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen Cert.Spec

variable (V : (c : Dev nD) → (b : Ref sig .tc) → Buf (Elt Ideal) ((c : Thread nD τ).loc b))

/-! ## The activations -/

/-- The layer's activations as an array. -/
def actArr (c : Dev nD) : S65536x100.Idx → EReal :=
  fun i => act V c ⟨(i 0).val, (i 0).isLt⟩ ⟨(i 1).val, (i 1).isLt⟩

theorem actArr_ix2 (c : Dev nD) (p : Fin 65536) (j : Fin 100) : actArr V c (ix2 p j) = act V c p j := rfl

/-- What point t writes back is rows t·2048 … t·2048 + 2047 of the layer's activations. -/
theorem flushed_act (c : Dev nD) (t : Fin cfg1.N) :
    (dat1 V c).flushed 9 t = ((cfg1.win 9).blk t).view.read (Elt Ideal) (actArr V c) := by
  show (cfg1.win 9).cut (grid1.coords t) ((dat1 V c).after 9 t) = _
  rw [after1_9, fst_eq]
  obtain ⟨e0a, e0b, e1a, e1b, e2a, e2b, e9a, e9b, e3a, e3b, e4a, e4b, e5a, e5b, e6a, e6b, e7a, e7b, e8a, e8b, e10a, e10b, e10c⟩ := idx_facts t
  funext y
  obtain ⟨a, j, rfl⟩ : ∃ (a : Fin 2048) (j : Fin 100), y = ix2 a j := ⟨y 0, y 1, eq_ix2 y⟩
  have hemb : ((cfg1.win 9).blk t).view.emb (ix2 a j) = ix2 (rowOf (tileOf t) a) j := by
    funext ax; apply Fin.ext
    match ax with
    | ⟨0, _⟩ => show win1_9.index t (0 : Fin 2) * 2048 + 1 * a.val = t.val * 2048 + a.val; rw [e9a]; omega
    | ⟨1, _⟩ => show win1_9.index t (1 : Fin 2) * 100 + 1 * j.val = j.val; rw [e9b]; omega
  show tile (iblk1 V c 0 t) (iblk1 V c 1 t) (iblk1 V c 2 t) (iblk1 V c 3 t) (iblk1 V c 4 t) (iblk1 V c 5 t) (iblk1 V c 6 t) (iblk1 V c 7 t) (iblk1 V c 8 t) (ix2 a j) = actArr V c (((cfg1.win 9).blk t).view.emb (ix2 a j))
  rw [hemb, actArr_ix2]
  exact tile_at V c t a j

/-- An index of the activation array is in point t's block iff each coordinate is in the block's range. -/
theorem mem_blk_act (t : Fin cfg1.N) (i : S65536x100.Idx) :
    i ∈ ((cfg1.win 9).blk t).view.set ↔ ∀ a : Fin 2, win1_9.index t a * S2048x100.size a ≤ (i a).val
      ∧ (i a).val < win1_9.index t a * S2048x100.size a + S2048x100.size a := by
  show i ∈ ((View.whole main_v23_0).slice (win1_9.rect t)).set ↔ _
  rw [View.set_slice_whole, Rect.mem_set_unit]
  exact Iff.rfl

/-- Row r is in the block of point r / 2048. -/
theorem cover_act (i : S65536x100.Idx) :
    ∃ t : Fin cfg1.N, (cfg1.win 9).flush t = true ∧ i ∈ ((cfg1.win 9).blk t).view.set := by
  have hi0 : (i 0).val < 65536 := (i 0).isLt
  have hi1 : (i 1).val < 100 := (i 1).isLt
  have hN : cfg1.N = 32 := N_1
  obtain ⟨t, ht⟩ : ∃ t : Fin cfg1.N, t.val = (i 0).val / 2048 := ⟨⟨(i 0).val / 2048, by omega⟩, rfl⟩
  obtain ⟨e0a, e0b, e1a, e1b, e2a, e2b, e9a, e9b, e3a, e3b, e4a, e4b, e5a, e5b, e6a, e6b, e7a, e7b, e8a, e8b, e10a, e10b, e10c⟩ := idx_facts t
  refine ⟨t, flush1_9 t, ?_⟩
  rw [mem_blk_act]
  intro a
  match a with
  | ⟨0, _⟩ =>
    show win1_9.index t (0 : Fin 2) * 2048 ≤ (i 0).val ∧ (i 0).val < win1_9.index t (0 : Fin 2) * 2048 + 2048
    rw [e9a, ht]; omega
  | ⟨1, _⟩ =>
    show win1_9.index t (1 : Fin 2) * 100 ≤ (i 1).val ∧ (i 1).val < win1_9.index t (1 : Fin 2) * 100 + 100
    rw [e9b]; omega

/-- The activation array after the grid. -/
theorem final_act (c : Dev nD) : (dat1 V c).arrAt 9 cfg1.N = actArr V c :=
  (dat1 V c).arrAt_eq_of_cover 9 (actArr V c) (fun t _ => flushed_act V c t) cover_act

/-! ## The statistics -/

/-- The two halves' sums and sums of squares as an array. -/
def statArr (c : Dev nD) : S2x2x100.Idx → EReal :=
  fun i => if (i 1).val = 0 then coreSum (act V c) ⟨(i 0).val, (i 0).isLt⟩ ⟨(i 2).val, (i 2).isLt⟩
    else coreSum (sq (act V c)) ⟨(i 0).val, (i 0).isLt⟩ ⟨(i 2).val, (i 2).isLt⟩

theorem statArr_sum (c : Dev nD) (h : Fin 2) (j : Fin 100) :
    statArr V c (ix3 h (0 : Fin 2) j) = coreSum (act V c) h j := if_pos rfl

theorem statArr_sq (c : Dev nD) (h : Fin 2) (j : Fin 100) :
    statArr V c (ix3 h (1 : Fin 2) j) = coreSum (sq (act V c)) h j := if_neg (by show ¬(1 : ℕ) = 0; decide)

/-- What the last point of a half writes back is that half's slice of the sums. -/
theorem flushed_stat (c : Dev nD) (t : Fin cfg1.N) (hf : (cfg1.win 10).flush t = true) :
    (dat1 V c).flushed 10 t = ((cfg1.win 10).blk t).view.read (Elt Ideal) (statArr V c) := by
  have h15 : t.val % 16 = 15 := (flush1_10 t).mp hf
  have hN : t.val < 32 := lt_of_lt_of_eq t.isLt N_1
  show (cfg1.win 10).cut (grid1.coords t) ((dat1 V c).after 10 t) = _
  rw [after1_10]
  obtain ⟨e0a, e0b, e1a, e1b, e2a, e2b, e9a, e9b, e3a, e3b, e4a, e4b, e5a, e5b, e6a, e6b, e7a, e7b, e8a, e8b, e10a, e10b, e10c⟩ := idx_facts t
  funext y
  obtain ⟨u, k, j, rfl⟩ : ∃ (u : Fin 1) (k : Fin 2) (j : Fin 100), y = ix3 u k j := ⟨y 0, y 1, y 2, eq_ix3 y⟩
  obtain rfl : u = 0 := Subsingleton.elim _ _
  have hh : t.val / 16 < 2 := by omega
  have hemb : ((cfg1.win 10).blk t).view.emb (ix3 (0 : Fin 1) k j) = ix3 (⟨t.val / 16, hh⟩ : Fin 2) k j := by
    funext ax; apply Fin.ext
    match ax with
    | ⟨0, _⟩ => show win1_10.index t (0 : Fin 3) * 1 + 1 * 0 = t.val / 16; rw [e10a]; omega
    | ⟨1, _⟩ => show win1_10.index t (1 : Fin 3) * 2 + 1 * k.val = k.val; rw [e10b]; omega
    | ⟨2, _⟩ => show win1_10.index t (2 : Fin 3) * 100 + 1 * j.val = j.val; rw [e10c]; omega
  show ((outsAt1 V c t.val t.isLt).2 : S1x2x100.Idx → EReal) (ix3 (0 : Fin 1) k j)
    = statArr V c (((cfg1.win 10).blk t).view.emb (ix3 (0 : Fin 1) k j))
  rw [hemb]
  have inv := stats_inv V c t.val t.isLt j
  match k with
  | ⟨0, _⟩ =>
    exact inv.1.trans ((range_last (fun m => tsum (act V c) m j) t.val h15).trans
      ((coreSum_eq_range (act V c) ⟨t.val / 16, hh⟩ j).symm.trans (statArr_sum V c ⟨t.val / 16, hh⟩ j).symm))
  | ⟨1, _⟩ =>
    exact inv.2.trans ((range_last (fun m => tsum (sq (act V c)) m j) t.val h15).trans
      ((coreSum_eq_range (sq (act V c)) ⟨t.val / 16, hh⟩ j).symm.trans (statArr_sq V c ⟨t.val / 16, hh⟩ j).symm))

/-- An index of the statistics array is in point t's block iff each coordinate is in the block's range. -/
theorem mem_blk_stat (t : Fin cfg1.N) (i : S2x2x100.Idx) :
    i ∈ ((cfg1.win 10).blk t).view.set ↔ ∀ a : Fin 3, win1_10.index t a * S1x2x100.size a ≤ (i a).val
      ∧ (i a).val < win1_10.index t a * S1x2x100.size a + S1x2x100.size a := by
  show i ∈ ((View.whole main_v23_1).slice (win1_10.rect t)).set ↔ _
  rw [View.set_slice_whole, Rect.mem_set_unit]
  exact Iff.rfl

/-- Slice h of the statistics array is the block of the last point of half h. -/
theorem cover_stat (i : S2x2x100.Idx) :
    ∃ t : Fin cfg1.N, (cfg1.win 10).flush t = true ∧ i ∈ ((cfg1.win 10).blk t).view.set := by
  have hi0 : (i 0).val < 2 := (i 0).isLt
  have hi1 : (i 1).val < 2 := (i 1).isLt
  have hi2 : (i 2).val < 100 := (i 2).isLt
  have hN : cfg1.N = 32 := N_1
  obtain ⟨t, ht⟩ : ∃ t : Fin cfg1.N, t.val = (i 0).val * 16 + 15 := ⟨⟨(i 0).val * 16 + 15, by omega⟩, rfl⟩
  obtain ⟨e0a, e0b, e1a, e1b, e2a, e2b, e9a, e9b, e3a, e3b, e4a, e4b, e5a, e5b, e6a, e6b, e7a, e7b, e8a, e8b, e10a, e10b, e10c⟩ := idx_facts t
  refine ⟨t, (flush1_10 t).mpr (by omega), ?_⟩
  rw [mem_blk_stat]
  intro a
  match a with
  | ⟨0, _⟩ =>
    show win1_10.index t (0 : Fin 3) * 1 ≤ (i 0).val ∧ (i 0).val < win1_10.index t (0 : Fin 3) * 1 + 1
    rw [e10a, ht]; omega
  | ⟨1, _⟩ =>
    show win1_10.index t (1 : Fin 3) * 2 ≤ (i 1).val ∧ (i 1).val < win1_10.index t (1 : Fin 3) * 2 + 2
    rw [e10b]; omega
  | ⟨2, _⟩ =>
    show win1_10.index t (2 : Fin 3) * 100 ≤ (i 2).val ∧ (i 2).val < win1_10.index t (2 : Fin 3) * 100 + 100
    rw [e10c]; omega

/-- The statistics array after the grid. -/
theorem final_stat (c : Dev nD) : (dat1 V c).arrAt 10 cfg1.N = statArr V c :=
  (dat1 V c).arrAt_eq_of_cover 10 (statArr V c) (fun t hf => flushed_stat V c t hf) cover_stat

/-! ## The two arrays, entry by entry -/

/-- After the second layer's grid the activation array holds, at (p, j), the rectified dense layer of the normalised
    and noised first-layer activations. -/
theorem h2_eq (c : Dev nD) (p : Fin 65536) (j : Fin 100) :
    ((Gen.dat1 (F := Ideal) V c).arrAt 9 cfg1.N : S65536x100.Idx → EReal) (ix2 p j)
      = (Cert.Spec.hid (Cert.Spec.bn (mat (V c main_v7_0 : S65536x300.Idx → EReal)) (row (V c main_v21 : S1x300.Idx → EReal)) (row (V c main_v22 : S1x300.Idx → EReal)) (row (V c main_v1 : S1x300.Idx → EReal)) (row (V c main_v2 : S1x300.Idx → EReal)) (mat (V c main_arg5 : S65536x300.Idx → EReal)) (mat (V c main_arg6 : S65536x300.Idx → EReal))) (mat (V c main_arg7 : S100x300.Idx → EReal)) (row (V c main_v3 : S1x100.Idx → EReal))) p j := by
  rw [final_act V c]
  rfl

/-- And the statistics array holds, per half, the column sums of those activations and of their squares. -/
theorem stats_eq (c : Dev nD) (h : Fin 2) (j : Fin 100) :
    ((Gen.dat1 (F := Ideal) V c).arrAt 10 cfg1.N : S2x2x100.Idx → EReal) (ix3 h (0 : Fin 2) j)
        = Cert.Spec.coreSum (Cert.Spec.hid (Cert.Spec.bn (mat (V c main_v7_0 : S65536x300.Idx → EReal)) (row (V c main_v21 : S1x300.Idx → EReal)) (row (V c main_v22 : S1x300.Idx → EReal)) (row (V c main_v1 : S1x300.Idx → EReal)) (row (V c main_v2 : S1x300.Idx → EReal)) (mat (V c main_arg5 : S65536x300.Idx → EReal)) (mat (V c main_arg6 : S65536x300.Idx → EReal))) (mat (V c main_arg7 : S100x300.Idx → EReal)) (row (V c main_v3 : S1x100.Idx → EReal))) h j
    ∧ ((Gen.dat1 (F := Ideal) V c).arrAt 10 cfg1.N : S2x2x100.Idx → EReal) (ix3 h (1 : Fin 2) j)
        = Cert.Spec.coreSum (Cert.Spec.sq (Cert.Spec.hid (Cert.Spec.bn (mat (V c main_v7_0 : S65536x300.Idx → EReal)) (row (V c main_v21 : S1x300.Idx → EReal)) (row (V c main_v22 : S1x300.Idx → EReal)) (row (V c main_v1 : S1x300.Idx → EReal)) (row (V c main_v2 : S1x300.Idx → EReal)) (mat (V c main_arg5 : S65536x300.Idx → EReal)) (mat (V c main_arg6 : S65536x300.Idx → EReal))) (mat (V c main_arg7 : S100x300.Idx → EReal)) (row (V c main_v3 : S1x100.Idx → EReal)))) h j := by
  rw [final_stat V c]
  exact ⟨statArr_sum V c h j, statArr_sq V c h j⟩

end Cert.KernelIdeal.R1

end
-- ==== Proof.Region2Pay.lean ====
/-
  The last layer on one tile of 2048 rows, read entry by entry on the extended reals.

  The tile's program takes a block `h` of the second hidden layer, the two noise blocks `s` and `mm`, the column
  statistics and the affine parameters as rows, the last weight matrix `W` (10 × 100) and its bias row `b`.  It forms
      z(a, c) = s(a, c) · (g(c) · (h(a, c) − mean(c)) · rsqrt (var(c) + ε) + β(c)) + mm(a, c)
  and then z · Wᵀ + b.  Every operation but the product is entrywise (the rows are broadcast down the tile, the two
  narrowings in front of the product are the identity here), and the product contracts the last axis of both operands
  into a zero block, so entry (a, q) of the result is  Σ_c z(a, c) · W(q, c) + b(q).
-/
import proofs.«169054_j38500086842157_2_alg».proof.Proof.Gen.KernelIdeal.Skeleton
import proofs.«169054_j38500086842157_2_alg».proof.Proof.LibNtMatmul
import proofs.«169054_j38500086842157_2_alg».proof.Proof.Spec
import proofs.«169054_j38500086842157_2_alg».proof.Proof.Arr
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.R2

open Idealize.ShloMosaic Idealize.ShloMosaic.ValueIdx Cert.KernelIdeal

/-- One entry of a tile after the normalisation and the noise: row `a` of the tile, column `c`. -/
def zTile (h s mm : Vec Ideal S2048x100 .f32) (mean var g be : Vec Ideal S1x100 .f32) (a : Fin 2048) (c : Fin 100) : EReal :=
  s (ix2 a c) * (g (ix2 (0 : Fin 1) c) * (h (ix2 a c) - mean (ix2 (0 : Fin 1) c))
      * Ideal.rsqrt (var (ix2 (0 : Fin 1) c) + Ideal.ofBits .f32 0x3727C5AC#32) + be (ix2 (0 : Fin 1) c)) + mm (ix2 a c)

/-- The tile's result at entry (a, q): the normalised, noised row `a` against row `q` of the weights, plus the bias.
    The operands are named as the tile's program reads them: `v0` the hidden block, `v2` the variance row, `v7` the
    scale row, `v9` the mean row, `v17` the shift row, `v21` and `v23` the two noise blocks, `v26` the weights,
    `v29` the bias row. -/
theorem pay_apply (v0 : Vec Ideal S2048x100 .f32) (v2 v7 v9 v17 : Vec Ideal S1x100 .f32) (v21 v23 : Vec Ideal S2048x100 .f32)
    (v26 : Vec Ideal S10x100 .f32) (v29 : Vec Ideal S1x10 .f32) (a : Fin 2048) (q : Fin 10) :
    Gen.k2_pay1 (F := Ideal) v0 v2 v7 v9 v17 v21 v23 v26 v29 (ix2 a q)
      = (∑ c : Fin 100, zTile v0 v21 v23 v9 v2 v7 v17 a c * v26 (ix2 q c)) + v29 (ix2 (0 : Fin 1) q) := by
  unfold Gen.k2_pay1
  refine (addf_apply _ _ _).trans ?_
  refine congrArg₂ (· + ·) ?_ ?_
  · -- the product: last axis of both operands contracted into the zero block
    refine (Cert.LibNtMatmul.matmul_nt_zero_apply none _ _ a q).trans ?_
    refine Finset.sum_congr rfl fun c _ => ?_
    refine congrArg₂ (· * ·) ?_ rfl
    unfold zTile
    simp only [truncf_apply, addf_apply, mulf_apply, subf_apply, broadcastTo_1b_ab_apply, shapeCast_self, broadcast_apply]
    rfl
  · -- the bias row broadcast down the tile
    rw [broadcastTo_1b_ab_apply, shapeCast_self]

open Cert.Spec in
/-- The same entry when the tile's blocks are rows `rowOf t ·` of whole arrays and its rows are the whole parameter
    rows: it is entry (rowOf t a, q) of the dense layer applied to the normalised, noised array. -/
theorem pay_tile (H S M : S65536x100.Idx → EReal) (mean var g be : S1x100.Idx → EReal) (W : S10x100.Idx → EReal)
    (b : S1x10.Idx → EReal) (t : Fin 32)
    (v0 : Vec Ideal S2048x100 .f32) (v2 v7 v9 v17 : Vec Ideal S1x100 .f32) (v21 v23 : Vec Ideal S2048x100 .f32)
    (v26 : Vec Ideal S10x100 .f32) (v29 : Vec Ideal S1x10 .f32)
    (h0 : ∀ a c, v0 (ix2 a c) = H (ix2 (rowOf t a) c)) (h21 : ∀ a c, v21 (ix2 a c) = S (ix2 (rowOf t a) c))
    (h23 : ∀ a c, v23 (ix2 a c) = M (ix2 (rowOf t a) c))
    (h9 : ∀ c, v9 (ix2 (0 : Fin 1) c) = mean (ix2 (0 : Fin 1) c)) (h2 : ∀ c, v2 (ix2 (0 : Fin 1) c) = var (ix2 (0 : Fin 1) c))
    (h7 : ∀ c, v7 (ix2 (0 : Fin 1) c) = g (ix2 (0 : Fin 1) c)) (h17 : ∀ c, v17 (ix2 (0 : Fin 1) c) = be (ix2 (0 : Fin 1) c))
    (h26 : ∀ q c, v26 (ix2 q c) = W (ix2 q c)) (h29 : ∀ q, v29 (ix2 (0 : Fin 1) q) = b (ix2 (0 : Fin 1) q))
    (a : Fin 2048) (q : Fin 10) :
    Gen.k2_pay1 (F := Ideal) v0 v2 v7 v9 v17 v21 v23 v26 v29 (ix2 a q)
      = dense (bn (mat H) (row mean) (row var) (row g) (row be) (mat S) (mat M)) (mat W) (row b) (rowOf t a) q := by
  rw [pay_apply]
  unfold dense bn zTile eps
  simp only [h0, h21, h23, h9, h2, h7, h17, h26, h29]

end Cert.KernelIdeal.R2

end
-- ==== Proof.Region2Blocks.lean ====
/-
  The last layer's tiles inside the whole arrays.

  The batch of 65536 rows is cut into 32 consecutive tiles of 2048 rows.  At tile `t` the program is handed rows
  t·2048 … t·2048 + 2047 of the second hidden layer and of the two noise arrays, and all of the column statistics, the
  affine parameters, the last weight matrix and its bias; it writes rows t·2048 … t·2048 + 2047 of the result, each tile
  once.  Row `a` of tile `t` is row  t·2048 + a  of the array (a block's coordinate in its array is always
  block index × block size + coordinate inside the block), and the parameter rows and the weights are read where they
  stand.  So what tile `t` writes is rows `rowOf t ·` of ONE array, `lastLayer`: the dense layer applied to the
  normalised, noised second hidden layer; and since every row lies in tile  row / 2048,  the tiles fill the result.
-/
import proofs.«169054_j38500086842157_2_alg».proof.Proof.Gen.KernelIdeal.Frame
import proofs.«169054_j38500086842157_2_alg».proof.Proof.Region2Pay
import Idealize.ShloMosaic.Lib.Pipeline.Value
import Idealize.ShloMosaic.Lib.Tactic

noncomputable section

open scoped BigOperators

namespace Cert.KernelIdeal.R2

open Cert.KernelIdeal Cert.KernelIdeal.Gen Idealize.ShloMosaic Idealize.ShloMosaic.TcCoe Idealize.SL.Sem
open Idealize.ShloMosaic.ValueIdx Cert.Spec
open Idealize.ShloMosaic.Pipeline (Dat)

-- the arrays as the third call finds them, on each core: a variable throughout
variable (V : (c : Dev nD) → (b : Ref sig .tc) → Buf (Elt Ideal) ((c : Thread nD τ).loc b))

/-- The origin of a rank-2 block, as a constant function. -/
theorem origin_eq : (![0, 0] : Fin 2 → Nat) = fun _ => 0 := funext fun a => by fin_cases a <;> rfl

/-- A point of the third call's grid as a tile number. -/
abbrev tileOf (t : Fin cfg2.N) : Fin 32 := t.cast N_2

/-- Where each operand's block sits at tile `t`: the three row-tiled inputs and the result at block row `t`, block
    column 0; every other operand at its one block (0, 0).  Decided over the 32 tiles. -/
theorem block_index : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0) :=
  (by decide +kernel : ∀ t : Fin grid2.N, _)

/-! ## The input blocks as parts of their arrays -/

/-- Tile `t`'s block of the second hidden layer is rows `rowOf t ·` of that array. -/
theorem hidden_block (c : Dev nD) (t : Fin cfg2.N) (a : Fin 2048) (k : Fin 100) :
    (iblk2 V c 0 t : Vec Ideal S2048x100 .f32) (ix2 a k)
      = (V c main_v23_0 : S65536x100.Idx → EReal) (ix2 (rowOf (tileOf t) a) k) := by
  have e0 : win2_0.index t (0 : Fin 2) = t.val := (block_index t).1.1
  have e1 : win2_0.index t (1 : Fin 2) = 0 := (block_index t).1.2
  unfold iblk2
  rw [View.read_apply]
  show V c main_v23_0 _ = V c main_v23_0 _
  refine congrArg (V c main_v23_0) ?_
  funext ax
  apply Fin.ext
  match ax with
  | ⟨0, _⟩ => show win2_0.index t (0 : Fin 2) * 2048 + 1 * a.val = t.val * 2048 + a.val; rw [e0]; omega
  | ⟨1, _⟩ => show win2_0.index t (1 : Fin 2) * 100 + 1 * k.val = k.val; rw [e1]; omega

/-- Tile `t`'s block of the multiplicative noise is rows `rowOf t ·` of that array. -/
theorem mulNoise_block (c : Dev nD) (t : Fin cfg2.N) (a : Fin 2048) (k : Fin 100) :
    (iblk2 V c 1 t : Vec Ideal S2048x100 .f32) (ix2 a k)
      = (V c main_arg11 : S65536x100.Idx → EReal) (ix2 (rowOf (tileOf t) a) k) := by
  have e0 : win2_1.index t (0 : Fin 2) = t.val := (block_index t).2.1.1
  have e1 : win2_1.index t (1 : Fin 2) = 0 := (block_index t).2.1.2
  unfold iblk2
  rw [View.read_apply]
  show V c main_arg11 _ = V c main_arg11 _
  refine congrArg (V c main_arg11) ?_
  funext ax
  apply Fin.ext
  match ax with
  | ⟨0, _⟩ => show win2_1.index t (0 : Fin 2) * 2048 + 1 * a.val = t.val * 2048 + a.val; rw [e0]; omega
  | ⟨1, _⟩ => show win2_1.index t (1 : Fin 2) * 100 + 1 * k.val = k.val; rw [e1]; omega

/-- Tile `t`'s block of the additive noise is rows `rowOf t ·` of that array. -/
theorem addNoise_block (c : Dev nD) (t : Fin cfg2.N) (a : Fin 2048) (k : Fin 100) :
    (iblk2 V c 2 t : Vec Ideal S2048x100 .f32) (ix2 a k)
      = (V c main_arg12 : S65536x100.Idx → EReal) (ix2 (rowOf (tileOf t) a) k) := by
  have e0 : win2_2.index t (0 : Fin 2) = t.val := (block_index t).2.2.1.1
  have e1 : win2_2.index t (1 : Fin 2) = 0 := (block_index t).2.2.1.2
  unfold iblk2
  rw [View.read_apply]
  show V c main_arg12 _ = V c main_arg12 _
  refine congrArg (V c main_arg12) ?_
  funext ax
  apply Fin.ext
  match ax with
  | ⟨0, _⟩ => show win2_2.index t (0 : Fin 2) * 2048 + 1 * a.val = t.val * 2048 + a.val; rw [e0]; omega
  | ⟨1, _⟩ => show win2_2.index t (1 : Fin 2) * 100 + 1 * k.val = k.val; rw [e1]; omega

/-- Every tile reads the whole row of column means. -/
theorem mean_row (c : Dev nD) (t : Fin cfg2.N) (k : Fin 100) :
    (iblk2 V c 3 t : Vec Ideal S1x100 .f32) (ix2 (0 : Fin 1) k)
      = (V c main_v37 : S1x100.Idx → EReal) (ix2 (0 : Fin 1) k) := by
  have e0 : win2_3.index t (0 : Fin 2) = 0 := (block_index t).2.2.2.1.1
  have e1 : win2_3.index t (1 : Fin 2) = 0 := (block_index t).2.2.2.1.2
  unfold iblk2
  rw [View.read_apply]
  show V c main_v37 _ = V c main_v37 _
  refine congrArg (V c main_v37) ?_
  funext ax
  apply Fin.ext
  match ax with
  | ⟨0, _⟩ => show win2_3.index t (0 : Fin 2) * 1 + 1 * 0 = 0; rw [e0]
  | ⟨1, _⟩ => show win2_3.index t (1 : Fin 2) * 100 + 1 * k.val = k.val; rw [e1]; omega

/-- Every tile reads the whole row of column variances. -/
theorem var_row (c : Dev nD) (t : Fin cfg2.N) (k : Fin 100) :
    (iblk2 V c 4 t : Vec Ideal S1x100 .f32) (ix2 (0 : Fin 1) k)
      = (V c main_v38 : S1x100.Idx → EReal) (ix2 (0 : Fin 1) k) := by
  have e0 : win2_4.index t (0 : Fin 2) = 0 := (block_index t).2.2.2.2.1.1
  have e1 : win2_4.index t (1 : Fin 2) = 0 := (block_index t).2.2.2.2.1.2
  unfold iblk2
  rw [View.read_apply]
  show V c main_v38 _ = V c main_v38 _
  refine congrArg (V c main_v38) ?_
  funext ax
  apply Fin.ext
  match ax with
  | ⟨0, _⟩ => show win2_4.index t (0 : Fin 2) * 1 + 1 * 0 = 0; rw [e0]
  | ⟨1, _⟩ => show win2_4.index t (1 : Fin 2) * 100 + 1 * k.val = k.val; rw [e1]; omega

/-- Every tile reads the whole row of scales. -/
theorem scale_row (c : Dev nD) (t : Fin cfg2.N) (k : Fin 100) :
    (iblk2 V c 5 t : Vec Ideal S1x100 .f32) (ix2 (0 : Fin 1) k)
      = (V c main_v4 : S1x100.Idx → EReal) (ix2 (0 : Fin 1) k) := by
  have e0 : win2_5.index t (0 : Fin 2) = 0 := (block_index t).2.2.2.2.2.1.1
  have e1 : win2_5.index t (1 : Fin 2) = 0 := (block_index t).2.2.2.2.2.1.2
  unfold iblk2
  rw [View.read_apply]
  show V c main_v4 _ = V c main_v4 _
  refine congrArg (V c main_v4) ?_
  funext ax
  apply Fin.ext
  match ax with
  | ⟨0, _⟩ => show win2_5.index t (0 : Fin 2) * 1 + 1 * 0 = 0; rw [e0]
  | ⟨1, _⟩ => show win2_5.index t (1 : Fin 2) * 100 + 1 * k.val = k.val; rw [e1]; omega

/-- Every tile reads the whole row of shifts. -/
theorem shift_row (c : Dev nD) (t : Fin cfg2.N) (k : Fin 100) :
    (iblk2 V c 6 t : Vec Ideal S1x100 .f32) (ix2 (0 : Fin 1) k)
      = (V c main_v5 : S1x100.Idx → EReal) (ix2 (0 : Fin 1) k) := by
  have e0 : win2_6.index t (0 : Fin 2) = 0 := (block_index t).2.2.2.2.2.2.1.1
  have e1 : win2_6.index t (1 : Fin 2) = 0 := (block_index t).2.2.2.2.2.2.1.2
  unfold iblk2
  rw [View.read_apply]
  show V c main_v5 _ = V c main_v5 _
  refine congrArg (V c main_v5) ?_
  funext ax
  apply Fin.ext
  match ax with
  | ⟨0, _⟩ => show win2_6.index t (0 : Fin 2) * 1 + 1 * 0 = 0; rw [e0]
  | ⟨1, _⟩ => show win2_6.index t (1 : Fin 2) * 100 + 1 * k.val = k.val; rw [e1]; omega

/-- Every tile reads the whole weight matrix. -/
theorem weight_block (c : Dev nD) (t : Fin cfg2.N) (q : Fin 10) (k : Fin 100) :
    (iblk2 V c 7 t : Vec Ideal S10x100 .f32) (ix2 q k)
      = (V c main_arg13 : S10x100.Idx → EReal) (ix2 q k) := by
  have e0 : win2_7.index t (0 : Fin 2) = 0 := (block_index t).2.2.2.2.2.2.2.1.1
  have e1 : win2_7.index t (1 : Fin 2) = 0 := (block_index t).2.2.2.2.2.2.2.1.2
  unfold iblk2
  rw [View.read_apply]
  show V c main_arg13 _ = V c main_arg13 _
  refine congrArg (V c main_arg13) ?_
  funext ax
  apply Fin.ext
  match ax with
  | ⟨0, _⟩ => show win2_7.index t (0 : Fin 2) * 10 + 1 * q.val = q.val; rw [e0]; omega
  | ⟨1, _⟩ => show win2_7.index t (1 : Fin 2) * 100 + 1 * k.val = k.val; rw [e1]; omega

/-- Every tile reads the whole bias row. -/
theorem bias_row (c : Dev nD) (t : Fin cfg2.N) (k : Fin 10) :
    (iblk2 V c 8 t : Vec Ideal S1x10 .f32) (ix2 (0 : Fin 1) k)
      = (V c main_v6 : S1x10.Idx → EReal) (ix2 (0 : Fin 1) k) := by
  have e0 : win2_8.index t (0 : Fin 2) = 0 := (block_index t).2.2.2.2.2.2.2.2.1.1
  have e1 : win2_8.index t (1 : Fin 2) = 0 := (block_index t).2.2.2.2.2.2.2.2.1.2
  unfold iblk2
  rw [View.read_apply]
  show V c main_v6 _ = V c main_v6 _
  refine congrArg (V c main_v6) ?_
  funext ax
  apply Fin.ext
  match ax with
  | ⟨0, _⟩ => show win2_8.index t (0 : Fin 2) * 1 + 1 * 0 = 0; rw [e0]
  | ⟨1, _⟩ => show win2_8.index t (1 : Fin 2) * 10 + 1 * k.val = k.val; rw [e1]; omega

/-! ## What a tile writes, and the tiles together -/

/-- The third layer's result as one array: entry (p, q) is the dense layer, at row `p` and output column `q`, of the
    second hidden layer normalised with the given column statistics and noised. -/
def lastLayer (c : Dev nD) : S65536x10.Idx → EReal := fun i =>
  dense (bn (mat (V c main_v23_0 : S65536x100.Idx → EReal)) (row (V c main_v37 : S1x100.Idx → EReal)) (row (V c main_v38 : S1x100.Idx → EReal))
      (row (V c main_v4 : S1x100.Idx → EReal)) (row (V c main_v5 : S1x100.Idx → EReal)) (mat (V c main_arg11 : S65536x100.Idx → EReal))
      (mat (V c main_arg12 : S65536x100.Idx → EReal)))
    (mat (V c main_arg13 : S10x100.Idx → EReal)) (row (V c main_v6 : S1x10.Idx → EReal))
    ⟨(i 0).val, (i 0).isLt⟩ ⟨(i 1).val, (i 1).isLt⟩

/-- What tile `t` writes back is its block of rows of `lastLayer`: the tile's program on the input blocks at `t`, each
    block read as the part of its array found above, at row `a` of the tile gives row  t·2048 + a  of `lastLayer`. -/
theorem tile_writes (c : Dev nD) (t : Fin cfg2.N) :
    (dat2 V c).flushed 9 t = ((cfg2.win 9).blk t).view.read (Elt Ideal) (lastLayer V c) := by
  show (cfg2.win 9).cut (grid2.coords t) ((dat2 V c).after 9 t) = _
  rw [after2_9]
  unfold out2_9
  rw [View.canon_unit_zero origin_eq]
  simp only [View.ld_unit_zero (S := S2048x100) origin_eq, View.ld_unit_zero (S := S1x100) origin_eq,
    View.ld_unit_zero (S := S10x100) origin_eq, View.ld_unit_zero (S := S1x10) origin_eq]
  refine funext fun (j : S2048x10.Idx) => ?_
  obtain ⟨a, q, rfl⟩ : ∃ (a : Fin 2048) (q : Fin 10), j = ix2 a q := ⟨j 0, j 1, eq_ix2 j⟩
  show k2_pay1 (F := Ideal) (iblk2 V c 0 t) (iblk2 V c 4 t) (iblk2 V c 5 t) (iblk2 V c 3 t) (iblk2 V c 6 t) (iblk2 V c 1 t)
        (iblk2 V c 2 t) (iblk2 V c 7 t) (iblk2 V c 8 t) (ix2 a q)
      = lastLayer V c (((cfg2.win 9).blk t).view.emb (ix2 a q))
  refine (pay_tile (V c main_v23_0) (V c main_arg11) (V c main_arg12) (V c main_v37) (V c main_v38) (V c main_v4) (V c main_v5)
    (V c main_arg13) (V c main_v6) (tileOf t)
    (iblk2 V c 0 t) (iblk2 V c 4 t) (iblk2 V c 5 t) (iblk2 V c 3 t) (iblk2 V c 6 t) (iblk2 V c 1 t) (iblk2 V c 2 t) (iblk2 V c 7 t) (iblk2 V c 8 t)
    (hidden_block V c t) (mulNoise_block V c t) (addNoise_block V c t) (mean_row V c t) (var_row V c t) (scale_row V c t)
    (shift_row V c t) (weight_block V c t) (bias_row V c t) a q).trans ?_
  have e0 : win2_9.index t (0 : Fin 2) = t.val := (block_index t).2.2.2.2.2.2.2.2.2.1
  have e1 : win2_9.index t (1 : Fin 2) = 0 := (block_index t).2.2.2.2.2.2.2.2.2.2
  unfold lastLayer
  refine congrArg₂ (dense _ _ _) (Fin.ext ?_) (Fin.ext ?_)
  · show t.val * 2048 + a.val = win2_9.index t (0 : Fin 2) * 2048 + 1 * a.val
    rw [e0]; omega
  · show q.val = win2_9.index t (1 : Fin 2) * 10 + 1 * q.val
    rw [e1]; omega

/-- An entry of the result lies in tile `t`'s block iff each coordinate lies in the block's range on its axis. -/
theorem mem_tile (t : Fin cfg2.N) (i : S65536x10.Idx) :
    i ∈ ((cfg2.win 9).blk t).view.set ↔ ∀ a : Fin 2, win2_9.index t a * S2048x10.size a ≤ (i a).val
      ∧ (i a).val < win2_9.index t a * S2048x10.size a + S2048x10.size a := by
  show i ∈ ((View.whole main_v39).slice (win2_9.rect t)).set ↔ _
  rw [View.set_slice_whole, Rect.mem_set_unit]
  exact Iff.rfl

/-- Every entry of the result lies in a tile that is written back: row `p` in tile  p / 2048. -/
theorem row_covered (i : S65536x10.Idx) :
    ∃ t : Fin cfg2.N, (cfg2.win 9).flush t = true ∧ i ∈ ((cfg2.win 9).blk t).view.set := by
  have hN : cfg2.N = 32 := N_2
  have hi0 : (i 0).val < 65536 := (i 0).isLt
  have hi1 : (i 1).val < 10 := (i 1).isLt
  have ht : (i 0).val / 2048 < cfg2.N := by rw [hN]; omega
  refine ⟨⟨(i 0).val / 2048, ht⟩, flush2_9 _, ?_⟩
  have e0 : win2_9.index ⟨(i 0).val / 2048, ht⟩ (0 : Fin 2) = (i 0).val / 2048 := (block_index ⟨(i 0).val / 2048, ht⟩).2.2.2.2.2.2.2.2.2.1
  have e1 : win2_9.index ⟨(i 0).val / 2048, ht⟩ (1 : Fin 2) = 0 := (block_index ⟨(i 0).val / 2048, ht⟩).2.2.2.2.2.2.2.2.2.2
  rw [mem_tile]
  intro a
  match a with
  | ⟨0, _⟩ =>
    show win2_9.index ⟨(i 0).val / 2048, ht⟩ (0 : Fin 2) * 2048 ≤ (i 0).val
      ∧ (i 0).val < win2_9.index ⟨(i 0).val / 2048, ht⟩ (0 : Fin 2) * 2048 + 2048
    rw [e0]; omega
  | ⟨1, _⟩ =>
    show win2_9.index ⟨(i 0).val / 2048, ht⟩ (1 : Fin 2) * 10 ≤ (i 1).val
      ∧ (i 1).val < win2_9.index ⟨(i 0).val / 2048, ht⟩ (1 : Fin 2) * 10 + 10
    rw [e1]; omega

end Cert.KernelIdeal.R2

end
-- ==== Proof.Region2.lean ====
/-
  The third call's result.

  After its 32 tiles the result array holds, at entry (p, q), the last dense layer at row `p` and output column `q` of the
  second hidden layer normalised with the column statistics the call was given and noised:
      Σ_c z(p, c) · W3(q, c) + b3(q),    z = s · (g · (h − mean) · rsqrt (var + ε) + β) + m.
  Each tile writes its own rows of that one array and the tiles fill it; nothing here asks the entries to be finite.
-/
import proofs.«169054_j38500086842157_2_alg».proof.Proof.Region2Blocks

noncomputable section

namespace Cert.KernelIdeal.R2

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

/-- The result array after the last tile is `lastLayer` of the arrays the call found. -/
theorem lastLayer_eq (c : Dev nD) : (dat2 V c).arrAt 9 cfg2.N = lastLayer V c :=
  (dat2 V c).arrAt_eq_of_cover 9 (lastLayer V c) (fun t _ => tile_writes V c t) row_covered

/-- Entry (p, q) of the result array after the third call, for any contents `V` the call is entered with. -/
theorem out_eq (c : Dev nD) (p : Fin 65536) (q : Fin 10) :
    ((dat2 (F := Ideal) V c).arrAt 9 cfg2.N : S65536x10.Idx → EReal) (ix2 p q)
      = dense (bn (mat (V c main_v23_0 : S65536x100.Idx → EReal)) (row (V c main_v37 : S1x100.Idx → EReal))
            (row (V c main_v38 : S1x100.Idx → EReal)) (row (V c main_v4 : S1x100.Idx → EReal)) (row (V c main_v5 : S1x100.Idx → EReal))
            (mat (V c main_arg11 : S65536x100.Idx → EReal)) (mat (V c main_arg12 : S65536x100.Idx → EReal)))
          (mat (V c main_arg13 : S10x100.Idx → EReal)) (row (V c main_v6 : S1x10.Idx → EReal)) p q := by
  rw [lastLayer_eq]
  rfl

end Cert.KernelIdeal.R2

end
-- ==== Proof.KerValue.lean ====
/-
  The kernel program's result as a function of its arguments.

  Region by region: the first region leaves h₁ = max (x·W₁ᵀ + b₁) 0 and, per half of the batch, the sums of its
  columns and of their squares; the host forms the mean and max (E[h²] − mean², 0) from them; the second region
  normalises h₁ with those rows, applies the noise, and leaves h₂ and its statistics the same way; the third
  normalises h₂ and applies the last dense layer.  Each region is read for ANY contents it is entered with, so the
  three compose by substituting what the run reaches at each entry: the result is the specification's network with
  tile-wise statistics, of the launch arrays.
-/
import proofs.«169054_j38500086842157_2_alg».proof.Proof.Hosts
import proofs.«169054_j38500086842157_2_alg».proof.Proof.SpecExt
import proofs.«169054_j38500086842157_2_alg».proof.Proof.Region0
import proofs.«169054_j38500086842157_2_alg».proof.Proof.Region1
import proofs.«169054_j38500086842157_2_alg».proof.Proof.Region2

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.Hosts Cert.Spec

variable (m : (ℓ : Loc nD τ sig) → Buf (Elt Ideal) ℓ) (ρ : Dev nD → PrngReg) (c : Dev nD)

/-! ## The launch arrays as functions of their coordinates -/

def aX : Fin 65536 → Fin 784 → EReal := mat ((m ((c : Thread nD τ).loc main_arg0)) : S65536x784.Idx → EReal)
def aW1 : Fin 300 → Fin 784 → EReal := mat ((m ((c : Thread nD τ).loc main_arg1)) : S300x784.Idx → EReal)
def ab1 : Fin 300 → EReal := vec ((m ((c : Thread nD τ).loc main_arg2)) : S300.Idx → EReal)
def ag1 : Fin 300 → EReal := vec ((m ((c : Thread nD τ).loc main_arg3)) : S300.Idx → EReal)
def abe1 : Fin 300 → EReal := vec ((m ((c : Thread nD τ).loc main_arg4)) : S300.Idx → EReal)
def as1 : Fin 65536 → Fin 300 → EReal := mat ((m ((c : Thread nD τ).loc main_arg5)) : S65536x300.Idx → EReal)
def am1 : Fin 65536 → Fin 300 → EReal := mat ((m ((c : Thread nD τ).loc main_arg6)) : S65536x300.Idx → EReal)
def aW2 : Fin 100 → Fin 300 → EReal := mat ((m ((c : Thread nD τ).loc main_arg7)) : S100x300.Idx → EReal)
def ab2 : Fin 100 → EReal := vec ((m ((c : Thread nD τ).loc main_arg8)) : S100.Idx → EReal)
def ag2 : Fin 100 → EReal := vec ((m ((c : Thread nD τ).loc main_arg9)) : S100.Idx → EReal)
def abe2 : Fin 100 → EReal := vec ((m ((c : Thread nD τ).loc main_arg10)) : S100.Idx → EReal)
def as2 : Fin 65536 → Fin 100 → EReal := mat ((m ((c : Thread nD τ).loc main_arg11)) : S65536x100.Idx → EReal)
def am2 : Fin 65536 → Fin 100 → EReal := mat ((m ((c : Thread nD τ).loc main_arg12)) : S65536x100.Idx → EReal)
def aW3 : Fin 10 → Fin 100 → EReal := mat ((m ((c : Thread nD τ).loc main_arg13)) : S10x100.Idx → EReal)
def ab3 : Fin 10 → EReal := vec ((m ((c : Thread nD τ).loc main_arg14)) : S10.Idx → EReal)

/-- The first layer's activations. -/
def H1 : Fin 65536 → Fin 300 → EReal := hid (aX m c) (aW1 m c) (ab1 m c)
/-- The first layer normalised with tile-wise statistics, with its noise. -/
def Z1 : Fin 65536 → Fin 300 → EReal := bn (H1 m c) (meanK (H1 m c)) (varK (H1 m c)) (ag1 m c) (abe1 m c) (as1 m c) (am1 m c)
/-- The second layer's activations. -/
def H2 : Fin 65536 → Fin 100 → EReal := hid (Z1 m c) (aW2 m c) (ab2 m c)
/-- The second layer normalised with tile-wise statistics, with its noise. -/
def Z2 : Fin 65536 → Fin 100 → EReal := bn (H2 m c) (meanK (H2 m c)) (varK (H2 m c)) (ag2 m c) (abe2 m c) (as2 m c) (am2 m c)

/-! ## The first region -/

theorem entry0 : hid (mat (V1 m ρ c main_arg0 : S65536x784.Idx → EReal)) (mat (V1 m ρ c main_arg1 : S300x784.Idx → EReal))
      (row (V1 m ρ c main_v0 : S1x300.Idx → EReal)) = H1 m c :=
  hid_congr (funext fun r => funext fun k => congrFun (W1_arg0 m ρ c) (ix2 r k))
    (funext fun j => funext fun k => congrFun (W1_arg1 m ρ c) (ix2 j k)) (funext fun j => W1_v0 m ρ c j)

theorem h1 (p : Fin 65536) (j : Fin 300) : h1Arr m ρ c (ix2 p j) = H1 m c p j :=
  (R0.h1_eq (V1 m ρ) c p j).trans (congrFun (congrFun (entry0 m ρ c) p) j)

theorem st1 (h : Fin 2) (j : Fin 300) :
    st1Arr m ρ c (ix3 h 0 j) = coreSum (H1 m c) h j ∧ st1Arr m ρ c (ix3 h 1 j) = coreSum (sq (H1 m c)) h j := by
  obtain ⟨a, b⟩ := R0.stats_eq (V1 m ρ) c h j
  exact ⟨a.trans (congrFun (congrFun (congrArg coreSum (entry0 m ρ c)) h) j),
    b.trans (congrFun (congrFun (congrArg (fun H => coreSum (sq H)) (entry0 m ρ c)) h) j)⟩

/-! ## The second region -/

theorem entry1 : hid (bn (mat (V3 m ρ c main_v7_0 : S65536x300.Idx → EReal)) (row (V3 m ρ c main_v21 : S1x300.Idx → EReal))
        (row (V3 m ρ c main_v22 : S1x300.Idx → EReal)) (row (V3 m ρ c main_v1 : S1x300.Idx → EReal)) (row (V3 m ρ c main_v2 : S1x300.Idx → EReal))
        (mat (V3 m ρ c main_arg5 : S65536x300.Idx → EReal)) (mat (V3 m ρ c main_arg6 : S65536x300.Idx → EReal)))
      (mat (V3 m ρ c main_arg7 : S100x300.Idx → EReal)) (row (V3 m ρ c main_v3 : S1x100.Idx → EReal)) = H2 m c :=
  hid_congr
    (bn_congr (funext fun p => funext fun j => (congrFun (W3_h m ρ c) (ix2 p j)).trans (h1 m ρ c p j))
      (funext fun j => (W3_mean m ρ c j).trans (HostStats.rows_eq_spec (st1Arr m ρ c) (H1 m c) (st1 m ρ c) j).1)
      (funext fun j => (W3_var m ρ c j).trans (HostStats.rows_eq_spec (st1Arr m ρ c) (H1 m c) (st1 m ρ c) j).2)
      (funext fun j => W3_v1 m ρ c j) (funext fun j => W3_v2 m ρ c j)
      (funext fun r => funext fun k => congrFun (W3_arg5 m ρ c) (ix2 r k))
      (funext fun r => funext fun k => congrFun (W3_arg6 m ρ c) (ix2 r k)))
    (funext fun j => funext fun k => congrFun (W3_arg7 m ρ c) (ix2 j k)) (funext fun j => W3_v3 m ρ c j)

theorem h2 (p : Fin 65536) (j : Fin 100) : h2Arr m ρ c (ix2 p j) = H2 m c p j :=
  (R1.h2_eq (V3 m ρ) c p j).trans (congrFun (congrFun (entry1 m ρ c) p) j)

theorem st2 (h : Fin 2) (j : Fin 100) :
    st2Arr m ρ c (ix3 h 0 j) = coreSum (H2 m c) h j ∧ st2Arr m ρ c (ix3 h 1 j) = coreSum (sq (H2 m c)) h j := by
  obtain ⟨a, b⟩ := R1.stats_eq (V3 m ρ) c h j
  exact ⟨a.trans (congrFun (congrFun (congrArg coreSum (entry1 m ρ c)) h) j),
    b.trans (congrFun (congrFun (congrArg (fun H => coreSum (sq H)) (entry1 m ρ c)) h) j)⟩

/-! ## The third region and the result -/

theorem entry2 : dense (bn (mat (V5 m ρ c main_v23_0 : S65536x100.Idx → EReal)) (row (V5 m ρ c main_v37 : S1x100.Idx → EReal))
        (row (V5 m ρ c main_v38 : S1x100.Idx → EReal)) (row (V5 m ρ c main_v4 : S1x100.Idx → EReal)) (row (V5 m ρ c main_v5 : S1x100.Idx → EReal))
        (mat (V5 m ρ c main_arg11 : S65536x100.Idx → EReal)) (mat (V5 m ρ c main_arg12 : S65536x100.Idx → EReal)))
      (mat (V5 m ρ c main_arg13 : S10x100.Idx → EReal)) (row (V5 m ρ c main_v6 : S1x10.Idx → EReal)) = dense (Z2 m c) (aW3 m c) (ab3 m c) :=
  dense_congr
    (bn_congr (funext fun p => funext fun j => (congrFun (W5_h m ρ c) (ix2 p j)).trans (h2 m ρ c p j))
      (funext fun j => (W5_mean m ρ c j).trans (HostStats.rows_eq_spec (st2Arr m ρ c) (H2 m c) (st2 m ρ c) j).1)
      (funext fun j => (W5_var m ρ c j).trans (HostStats.rows_eq_spec (st2Arr m ρ c) (H2 m c) (st2 m ρ c) j).2)
      (funext fun j => W5_v4 m ρ c j) (funext fun j => W5_v5 m ρ c j)
      (funext fun r => funext fun k => congrFun (W5_arg11 m ρ c) (ix2 r k))
      (funext fun r => funext fun k => congrFun (W5_arg12 m ρ c) (ix2 r k)))
    (funext fun j => funext fun k => congrFun (W5_arg13 m ρ c) (ix2 j k)) (funext fun j => W5_v6 m ρ c j)

/-- The program's result at (p, q) is the network with tile-wise statistics, of the launch arrays. -/
theorem result_eq (p : Fin 65536) (q : Fin 10) :
    (W6 m ρ c (Proc.devRef .tc main_v39) : S65536x10.Idx → EReal) (ix2 p q)
      = netK (aX m c) (aW1 m c) (ab1 m c) (ag1 m c) (abe1 m c) (as1 m c) (am1 m c) (aW2 m c) (ab2 m c) (ag2 m c) (abe2 m c)
          (as2 m c) (am2 m c) (aW3 m c) (ab3 m c) p q :=
  (congrFun (W6_out m ρ c) (ix2 p q)).trans
    ((R2.out_eq (V5 m ρ) c p q).trans (congrFun (congrFun (entry2 m ρ c) p) q))

end Cert.KernelIdeal.Value

end
-- ==== Proof.RefRun.lean ====
/-
  The whole-batch network as a straight line of array operations.

  The program is a chain of one hundred and thirteen array operations: three dense layers (a transposed weight, a
  contraction, a row of biases broadcast down the batch), after each of the first two a rectifier, a column mean,
  a column variance (the mean recomputed, the squared deviations summed and divided by the batch size, the
  quotient selected against a not-a-number word by the test "batch size minus zero is positive"), the
  normalisation with its scale and shift, and the multiplicative and additive noise.  The rectifier, the variance
  and the selection inside the variance are functions of the program called at these places; a call means the
  callee's operations on the caller's operands, so here they are listed in place over the buffers of each call.

  Stated for any float values: the program equals the list run in order; the list touches TensorCore buffers
  only; hence every fair execution terminates with each buffer holding the fold of the operations' results over
  the launch contents.
-/
import proofs.«169054_j38500086842157_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- The program's operations in execution order, each call replaced by its callee's operations. -/
abbrev ops : List (HloOp τ sig (Elt F)) :=
  [ -- layer one: x · W1ᵀ + b1
    unary main_arg1 main_v0 (transpose S784x300 [1, 0] · transposes_S300x784_S784x300_1_0),
    binary main_arg0 main_v0 main_v1 (fun l r => Host.dotGeneral dot_S65536x784_S784x300_S65536x300_1_0_0_1_n_n none l r),
    unary main_arg2 main_v2 (broadcastInDim S1x300 ![1] bcast_S300_S1x300_1),
    unary main_v2 main_v3 (broadcastInDim S65536x300 ![0, 1] bcast_S1x300_S65536x300_0_1),
    binary main_v1 main_v3 main_v4 addf,
    -- the rectifier: maximum with the zero array
    TRef.nullary main_call0.cst (constant S_ .f32 0x00000000#32),
    TRef.unary main_call0.cst main_call0.v0 (broadcastInDim S65536x300 ![] bcast_S_S65536x300),
    TRef.binary (.of main_v4) main_call0.v0 main_call0.v1 maximumf,
    -- the column mean: the column sums over the batch size
    nullary main_cst (constant S_ .f32 0x00000000#32),
    binary main_v5 main_cst main_v6 (fun x v => Host.reduceAdd x v reducesTo_S65536x300_S300_d0 h_S_),
    nullary main_cst_0 (constant S_ .f32 0x47800000#32),
    unary main_cst_0 main_v7 (broadcastInDim S300 ![] bcast_S_S300),
    binary main_v6 main_v7 main_v8 Host.divf,
    nullary main_c (constantI S_ 32 0#32),
    -- the column variance: mean again as a row, squared deviations, their column sums over (batch size - 0)
    TRef.nullary main_call1.cst (constant S_ .f32 0x00000000#32),
    TRef.binary (.of main_v5) main_call1.cst main_call1.v0 (fun x v => Host.reduceAdd x v reducesTo_S65536x300_S300_d0 h_S_),
    TRef.unary main_call1.v0 main_call1.v1 (broadcastInDim S1x300 ![1] bcast_S300_S1x300_1),
    TRef.nullary main_call1.cst_0 (constant S_ .f32 0x47800000#32),
    TRef.unary main_call1.cst_0 main_call1.v2 (broadcastInDim S1x300 ![] bcast_S_S1x300),
    TRef.binary main_call1.v1 main_call1.v2 main_call1.v3 Host.divf,
    TRef.unary main_call1.v3 main_call1.v4 (broadcastInDim S65536x300 ![0, 1] bcast_S1x300_S65536x300_0_1),
    TRef.binary (.of main_v5) main_call1.v4 main_call1.v5 subf,
    TRef.binary main_call1.v5 main_call1.v5 main_call1.v6 mulf,
    TRef.unary (.of main_c) main_call1.v7 (sitofp .f32),
    TRef.nullary main_call1.cst_1 (constant S_ .f32 0x47800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S65536x300_S300_d0 h_S_),
    TRef.unary main_call1.v8 main_call1.v10 (broadcastInDim S300 ![] bcast_S_S300),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S300 ![] bcast_S_S300),
    TRef.ternary main_call1.v12 main_call1.v11 main_call1.call0.v1 main_call1.call0.v2 (fun p a b => select (broadcastInDim S300 ![] bcast_S_S300 p) a b),
    -- normalisation g · (h - mean) · rsqrt (var + eps) + be, then the noise s · _ + m
    unary main_v8 main_v10 (broadcastInDim S1x300 ![1] bcast_S300_S1x300_1),
    unary main_v10 main_v11 (broadcastInDim S65536x300 ![0, 1] bcast_S1x300_S65536x300_0_1),
    binary main_v5 main_v11 main_v12 subf,
    unary main_arg3 main_v13 (broadcastInDim S1x300 ![1] bcast_S300_S1x300_1),
    unary main_v13 main_v14 (broadcastInDim S65536x300 ![0, 1] bcast_S1x300_S65536x300_0_1),
    binary main_v14 main_v12 main_v15 mulf,
    nullary main_cst_1 (constant S_ .f32 0x3727C5AC#32),
    unary main_cst_1 main_v16 (broadcastInDim S300 ![] bcast_S_S300),
    binary main_v9 main_v16 main_v17 addf,
    unary main_v17 main_v18 Host.rsqrt,
    unary main_v18 main_v19 (broadcastInDim S1x300 ![1] bcast_S300_S1x300_1),
    unary main_v19 main_v20 (broadcastInDim S65536x300 ![0, 1] bcast_S1x300_S65536x300_0_1),
    binary main_v15 main_v20 main_v21 mulf,
    unary main_arg4 main_v22 (broadcastInDim S1x300 ![1] bcast_S300_S1x300_1),
    unary main_v22 main_v23 (broadcastInDim S65536x300 ![0, 1] bcast_S1x300_S65536x300_0_1),
    binary main_v21 main_v23 main_v24 addf,
    binary main_arg5 main_v24 main_v25 mulf,
    binary main_v25 main_arg6 main_v26 addf,
    -- layer two: z1 · W2ᵀ + b2
    unary main_arg7 main_v27 (transpose S300x100 [1, 0] · transposes_S100x300_S300x100_1_0),
    binary main_v26 main_v27 main_v28 (fun l r => Host.dotGeneral dot_S65536x300_S300x100_S65536x100_1_0_0_1_n_n none l r),
    unary main_arg8 main_v29 (broadcastInDim S1x100 ![1] bcast_S100_S1x100_1),
    unary main_v29 main_v30 (broadcastInDim S65536x100 ![0, 1] bcast_S1x100_S65536x100_0_1),
    binary main_v28 main_v30 main_v31 addf,
    -- the rectifier
    TRef.nullary main_call2.cst (constant S_ .f32 0x00000000#32),
    TRef.unary main_call2.cst main_call2.v0 (broadcastInDim S65536x100 ![] bcast_S_S65536x100),
    TRef.binary (.of main_v31) main_call2.v0 main_call2.v1 maximumf,
    -- the column mean
    nullary main_cst_2 (constant S_ .f32 0x00000000#32),
    binary main_v32 main_cst_2 main_v33 (fun x v => Host.reduceAdd x v reducesTo_S65536x100_S100_d0 h_S_),
    nullary main_cst_3 (constant S_ .f32 0x47800000#32),
    unary main_cst_3 main_v34 (broadcastInDim S100 ![] bcast_S_S100),
    binary main_v33 main_v34 main_v35 Host.divf,
    nullary main_c_4 (constantI S_ 32 0#32),
    -- the column variance
    TRef.nullary main_call3.cst (constant S_ .f32 0x00000000#32),
    TRef.binary (.of main_v32) main_call3.cst main_call3.v0 (fun x v => Host.reduceAdd x v reducesTo_S65536x100_S100_d0 h_S_),
    TRef.unary main_call3.v0 main_call3.v1 (broadcastInDim S1x100 ![1] bcast_S100_S1x100_1),
    TRef.nullary main_call3.cst_0 (constant S_ .f32 0x47800000#32),
    TRef.unary main_call3.cst_0 main_call3.v2 (broadcastInDim S1x100 ![] bcast_S_S1x100),
    TRef.binary main_call3.v1 main_call3.v2 main_call3.v3 Host.divf,
    TRef.unary main_call3.v3 main_call3.v4 (broadcastInDim S65536x100 ![0, 1] bcast_S1x100_S65536x100_0_1),
    TRef.binary (.of main_v32) main_call3.v4 main_call3.v5 subf,
    TRef.binary main_call3.v5 main_call3.v5 main_call3.v6 mulf,
    TRef.unary (.of main_c_4) main_call3.v7 (sitofp .f32),
    TRef.nullary main_call3.cst_1 (constant S_ .f32 0x47800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S65536x100_S100_d0 h_S_),
    TRef.unary main_call3.v8 main_call3.v10 (broadcastInDim S100 ![] bcast_S_S100),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S100 ![] bcast_S_S100),
    TRef.ternary main_call3.v12 main_call3.v11 main_call3.call0.v1 main_call3.call0.v2 (fun p a b => select (broadcastInDim S100 ![] bcast_S_S100 p) a b),
    -- normalisation and noise
    unary main_v35 main_v37 (broadcastInDim S1x100 ![1] bcast_S100_S1x100_1),
    unary main_v37 main_v38 (broadcastInDim S65536x100 ![0, 1] bcast_S1x100_S65536x100_0_1),
    binary main_v32 main_v38 main_v39 subf,
    unary main_arg9 main_v40 (broadcastInDim S1x100 ![1] bcast_S100_S1x100_1),
    unary main_v40 main_v41 (broadcastInDim S65536x100 ![0, 1] bcast_S1x100_S65536x100_0_1),
    binary main_v41 main_v39 main_v42 mulf,
    nullary main_cst_5 (constant S_ .f32 0x3727C5AC#32),
    unary main_cst_5 main_v43 (broadcastInDim S100 ![] bcast_S_S100),
    binary main_v36 main_v43 main_v44 addf,
    unary main_v44 main_v45 Host.rsqrt,
    unary main_v45 main_v46 (broadcastInDim S1x100 ![1] bcast_S100_S1x100_1),
    unary main_v46 main_v47 (broadcastInDim S65536x100 ![0, 1] bcast_S1x100_S65536x100_0_1),
    binary main_v42 main_v47 main_v48 mulf,
    unary main_arg10 main_v49 (broadcastInDim S1x100 ![1] bcast_S100_S1x100_1),
    unary main_v49 main_v50 (broadcastInDim S65536x100 ![0, 1] bcast_S1x100_S65536x100_0_1),
    binary main_v48 main_v50 main_v51 addf,
    binary main_arg11 main_v51 main_v52 mulf,
    binary main_v52 main_arg12 main_v53 addf,
    -- layer three: z2 · W3ᵀ + b3
    unary main_arg13 main_v54 (transpose S100x10 [1, 0] · transposes_S10x100_S100x10_1_0),
    binary main_v53 main_v54 main_v55 (fun l r => Host.dotGeneral dot_S65536x100_S100x10_S65536x10_1_0_0_1_n_n none l r),
    unary main_arg14 main_v56 (broadcastInDim S1x10 ![1] bcast_S10_S1x10_1),
    unary main_v56 main_v57 (broadcastInDim S65536x10 ![0, 1] bcast_S1x10_S65536x10_0_1),
    binary main_v55 main_v57 main_v58 addf ]

set_option maxRecDepth 4096 in
set_option maxHeartbeats 4000000 in
/-- The program is that straight line: with each called function replaced by its body and each call's buffers
    read off its record, both sides are one chain of operation steps once the sequencing is re-associated. -/
theorem main_eq (c : Dev nD) : main (F := F) c = seq ops := by
  simp only [main, main_part0, main_part1, fn_relu.body, fn_var.body, fn_where.body, fn_relu_0.body, fn_var_1.body,
    fn_where_2.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., binary_bufs_sub .., binary_bufs_sub ..,
    unary_bufs_sub .., binary_bufs_sub .., unary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., binary_bufs_sub .., binary_bufs_sub ..,
    unary_bufs_sub .., binary_bufs_sub .., unary_bufs_sub .., unary_bufs_sub .., binary_bufs_sub ..⟩

/-- For any float values, from any memory with zero counters: every weakly fair execution of the program on the
    TensorCores terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibBiasRows.lean ====
/-
  The bias stages of a graph convolution layer, as functions of whole arrays on the extended reals.

    biasRelu X B = max (X + B) 0     (entry (r,q): max (X(r,q) + B(0,q)) 0)
    biasOnly X B = X + B             (entry (r,q): X(r,q) + B(0,q))

  with the bias held as one row B of shape [1,N]. Each treats the rows of X independently, so a tiled program that
  runs it on a block of rows gets that block of rows of the result (`biasRelu_rows`, `biasOnly_rows`). The host
  spells the same functions with broadcasts (`hostBiasRelu`, `hostBiasOnly`), and makes the row from a bias vector
  either by a reshape or by a broadcast along the columns, the same row (`castRow_eq`). Nothing of real arithmetic
  is used, so every statement holds at the infinities too.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibBiasRows

open Idealize.ShloMosaic Idealize.ShloMosaic.ValueIdx

variable {M m N : Nat}

/-- The float zero the rectifier compares with. -/
abbrev zero32 : Ideal .f32 := Ideal.ofBits .f32 0x00000000#32

/-- A bias row added to every row, then the maximum with zero. -/
def biasRelu (X : FVec Ideal ⟨2, ![M, N]⟩ .f32) (B : FVec Ideal ⟨2, ![1, N]⟩ .f32) : FVec Ideal ⟨2, ![M, N]⟩ .f32 :=
  fun i => max (X i + B (ix2 (0 : Fin 1) ⟨(i 1).val, (i 1).isLt⟩)) zero32

/-- A bias row added to every row. -/
def biasOnly (X : FVec Ideal ⟨2, ![M, N]⟩ .f32) (B : FVec Ideal ⟨2, ![1, N]⟩ .f32) : FVec Ideal ⟨2, ![M, N]⟩ .f32 :=
  fun i => X i + B (ix2 (0 : Fin 1) ⟨(i 1).val, (i 1).isLt⟩)

theorem biasRelu_ix2 (X : FVec Ideal ⟨2, ![M, N]⟩ .f32) (B : FVec Ideal ⟨2, ![1, N]⟩ .f32) (r : Fin M) (q : Fin N) :
    biasRelu X B (ix2 r q) = max (X (ix2 r q) + B (ix2 (0 : Fin 1) q)) zero32 := rfl

theorem biasOnly_ix2 (X : FVec Ideal ⟨2, ![M, N]⟩ .f32) (B : FVec Ideal ⟨2, ![1, N]⟩ .f32) (r : Fin M) (q : Fin N) :
    biasOnly X B (ix2 r q) = X (ix2 r q) + B (ix2 (0 : Fin 1) q) := rfl

/-! ## A block of rows -/

/-- Bias and rectifier on a block of rows, through the identity casts and the row broadcast a tiled program prints,
    is that block of rows of `biasRelu`. -/
theorem biasRelu_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    maximumf (addf (shapeCast ⟨2, ![m, N]⟩ A hs) (broadcastTo ⟨2, ![m, N]⟩ (shapeCast ⟨2, ![1, N]⟩ B hs') hbc))
        (broadcast ⟨2, ![m, N]⟩ (Scalar.ofBits (F := Ideal) .f32 0x00000000#32)) j
      = biasRelu X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasRelu_ix2, maximumf_apply, addf_apply, broadcast_apply, shapeCast_self, broadcastTo_1b_ab_apply, shapeCast_self, hA, hB]
  rfl

/-- A bias on a block of rows, through the same casts and broadcast, is that block of rows of `biasOnly`. -/
theorem biasOnly_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    addf (shapeCast ⟨2, ![m, N]⟩ A hs) (broadcastTo ⟨2, ![m, N]⟩ (shapeCast ⟨2, ![1, N]⟩ B hs') hbc) j
      = biasOnly X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasOnly_ix2, addf_apply, shapeCast_self, broadcastTo_1b_ab_apply, shapeCast_self, hA, hB]

/-! ## The host's spelling -/

/-- A row [1,N] broadcast over the rows of [M,N] reads, at (r,q), the row at q. -/
theorem rowBcast_apply (B : FVec Ideal ⟨2, ![1, N]⟩ .f32)
    (h : (⟨2, ![1, N]⟩ : Shape).BroadcastsInDim ⟨2, ![M, N]⟩ (![0, 1] : Fin 2 → Fin 2)) (r : Fin M) (q : Fin N) :
    broadcastInDim ⟨2, ![M, N]⟩ ![0, 1] h B (ix2 r q) = B (ix2 (0 : Fin 1) q) := by
  refine broadcastInDim_apply (![0, 1] : Fin 2 → Fin 2) h B (ix2 r q) (ix2 (0 : Fin 1) q) fun ax => ?_
  match ax with
  | ⟨0, _⟩ => rfl
  | ⟨1, _⟩ =>
    show q.val = if N = 1 then 0 else q.val
    split
    · have := q.isLt; omega
    · rfl

/-- The float zero splat to any shape reads zero everywhere. -/
theorem zeroSplat_apply {s : Shape} (h : (⟨0, ![]⟩ : Shape).BroadcastsInDim s (![] : Fin 0 → Fin s.rank)) (i : s.Idx) :
    broadcastInDim s ![] h (constant (F := Ideal) ⟨0, ![]⟩ .f32 0x00000000#32) i = zero32 := by
  rw [broadcastInDim_apply (![] : Fin 0 → Fin s.rank) h _ i ix0 (fun a => a.elim0)]
  rfl

/-- The host's `max (X + broadcast B) (splat 0)` is `biasRelu`. -/
theorem hostBiasRelu (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf X (broadcastInDim ⟨2, ![M, N]⟩ ![0, 1] h B))
        (broadcastInDim ⟨2, ![M, N]⟩ ![] h0 (constant (F := Ideal) ⟨0, ![]⟩ .f32 0x00000000#32))
      = biasRelu X B := by
  funext i
  obtain ⟨r, q, rfl⟩ : ∃ (r : Fin M) (q : Fin N), i = ix2 r q := ⟨i 0, i 1, eq_ix2 i⟩
  rw [biasRelu_ix2, maximumf_apply, addf_apply, rowBcast_apply, zeroSplat_apply]

/-- The host's `X + broadcast B` is `biasOnly`. -/
theorem hostBiasOnly (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2)) :
    addf X (broadcastInDim ⟨2, ![M, N]⟩ ![0, 1] h B) = biasOnly X B := by
  funext i
  obtain ⟨r, q, rfl⟩ : ∃ (r : Fin M) (q : Fin N), i = ix2 r q := ⟨i 0, i 1, eq_ix2 i⟩
  rw [biasOnly_ix2, addf_apply, rowBcast_apply]

/-- A vector reshaped to one row and the same vector broadcast along the columns of a one-row matrix are the same
    row. -/
theorem castRow_eq (b : FVec Ideal ⟨1, ![N]⟩ .f32) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ ![1] hb b := by
  funext j
  obtain ⟨u, q, rfl⟩ : ∃ (u : Fin 1) (q : Fin N), j = ix2 u q := ⟨j 0, j 1, eq_ix2 j⟩
  rw [shapeCast_a_1a_apply]
  refine (broadcastInDim_apply (![1] : Fin 1 → Fin 2) hb b (ix2 u q) (ix1 q) fun ax => ?_).symm
  match ax with
  | ⟨0, _⟩ =>
    show q.val = if N = 1 then 0 else q.val
    split
    · have := q.isLt; omega
    · rfl

end Cert.LibBiasRows

end
-- ==== Proof.RefReadStages.lean ====
/-
  The stages of the whole-batch network as array operations, each read at an index.

  A dense layer is a contraction with the transposed weight plus the bias row broadcast down the batch; the rectifier
  is the maximum with the zero array; the column mean is the column sums over the batch size; the column variance
  recomputes the mean as a one-row matrix, sums the squared deviations down each column and divides by the batch size
  less a zero count, keeping the quotient because that divisor is positive; the normalisation subtracts the mean,
  scales by the gain and by the reciprocal root of the variance plus a small constant, adds the shift, and the noise
  multiplies and adds entrywise.  Each array-level definition below is one such stage over arrays of any feature
  width, and each lemma reads it at an entry as the corresponding function on the extended reals.  A lemma takes the
  earlier stage as an arbitrary array together with its entrywise description, so no lemma opens an earlier stage.
-/
import Idealize.ShloMosaic.Lib.IdealHost
import Idealize.ShloMosaic.Lib.ValueLayout
import proofs.«169054_j38500086842157_2_alg».proof.Proof.Spec
import proofs.«169054_j38500086842157_2_alg».proof.Proof.Arr
import proofs.«169054_j38500086842157_2_alg».proof.Proof.LibHostReads
import proofs.«169054_j38500086842157_2_alg».proof.Proof.LibRowForms
import proofs.«169054_j38500086842157_2_alg».proof.Proof.LibBiasRows

noncomputable section

open scoped BigOperators

namespace Cert.RefStages

open Idealize.ShloMosaic Idealize.ShloMosaic.ValueIdx Cert.Spec

/-! ## Shapes, words and the shape facts of one feature width -/

/-- A matrix shape. -/
abbrev shM (n p : ℕ) : Shape := ⟨2, ![n, p]⟩
/-- A vector shape. -/
abbrev shV (p : ℕ) : Shape := ⟨1, ![p]⟩
/-- A one-row matrix shape. -/
abbrev shR (p : ℕ) : Shape := ⟨2, ![1, p]⟩
/-- The scalar shape. -/
abbrev shS : Shape := ⟨0, ![]⟩

/-- The scalar shape has an entry. -/
theorem hS : 0 < shS.numel := by decide

/-- The scalar arrays of the four words the network uses: zero, the batch size, the small constant, not-a-number. -/
abbrev zeroW : FVec Ideal shS .f32 := constant (F := Ideal) shS .f32 0x00000000#32
abbrev cnW : FVec Ideal shS .f32 := constant (F := Ideal) shS .f32 0x47800000#32
abbrev epsW : FVec Ideal shS .f32 := constant (F := Ideal) shS .f32 0x3727C5AC#32
abbrev nanW : FVec Ideal shS .f32 := constant (F := Ideal) shS .f32 0x7FC00000#32

/-- Each word array read at its one entry. -/
theorem zeroW_apply (i : shS.Idx) : zeroW i = 0 := Ideal.ofBits_zero_f32
theorem cnW_apply (i : shS.Idx) : cnW i = cN := rfl
theorem epsW_apply (i : shS.Idx) : epsW i = eps := rfl

/-- The shape relations among a width's batch matrix, row, vector and the scalar that the statistics use. -/
structure WidthFacts (f : ℕ) : Prop where
  red : (shM 65536 f).ReducesTo ([0] : List (Fin (shM 65536 f).rank)) (shV f)
  sV : shS.BroadcastsInDim (shV f) (![] : Fin 0 → Fin (shV f).rank)
  sR : shS.BroadcastsInDim (shR f) (![] : Fin 0 → Fin (shR f).rank)
  sM : shS.BroadcastsInDim (shM 65536 f) (![] : Fin 0 → Fin (shM 65536 f).rank)
  vR : (shV f).BroadcastsInDim (shR f) (![1] : Fin 1 → Fin (shR f).rank)
  rM : (shR f).BroadcastsInDim (shM 65536 f) (![0, 1] : Fin 2 → Fin (shM 65536 f).rank)

variable {k f : ℕ}

/-! ## Layout reads -/

/-- A vector as a one-row matrix reads, at column q, the vector at q. -/
theorem vecRow_apply {α : Type} (h : (shV f).BroadcastsInDim (shR f) (![1] : Fin 1 → Fin (shR f).rank))
    (v : (shV f).Idx → α) (u : Fin 1) (q : Fin f) :
    broadcastInDim (shR f) ![1] h v (ix2 u q) = v (ix1 q) :=
  broadcastInDim_apply (![1] : Fin 1 → Fin (shR f).rank) h v (ix2 u q) (ix1 q) fun ax => by
    match ax with
    | ⟨0, _⟩ =>
      show q.val = if f = 1 then 0 else q.val
      split
      · have := q.isLt; omega
      · rfl

/-- A vector broadcast to one row and then down the batch. -/
def rowsA (hvR : (shV f).BroadcastsInDim (shR f) (![1] : Fin 1 → Fin (shR f).rank))
    (hrM : (shR f).BroadcastsInDim (shM 65536 f) (![0, 1] : Fin 2 → Fin (shM 65536 f).rank))
    (v : FVec Ideal (shV f) .f32) : FVec Ideal (shM 65536 f) .f32 :=
  broadcastInDim (shM 65536 f) ![0, 1] hrM (broadcastInDim (shR f) ![1] hvR v)

/-- It reads, at (r, j), the vector at j. -/
theorem rowsA_apply (hvR) (hrM) (v : FVec Ideal (shV f) .f32) (r : Fin 65536) (j : Fin f) :
    rowsA hvR hrM v (ix2 r j) = v (ix1 j) := by
  unfold rowsA
  rw [Cert.LibBiasRows.rowBcast_apply, vecRow_apply]

/-- The column sums of a matrix from a scalar start: the start plus the sum over the rows. -/
theorem colSum_apply {a b : ℕ} {u : Shape} (x : FVec Ideal (shM a b) .f32) (init : u.Idx → Ideal .f32)
    (h' : (shM a b).ReducesTo ([0] : List (Fin (shM a b).rank)) (shV b)) (hu : 0 < u.numel) (c : Fin b) :
    Host.reduceAdd x init h' hu (ix1 c) = init (Shape.Idx.first hu) + ∑ r : Fin a, x (ix2 r c) := by
  have h : (shM a b).Reduces [(0 : Fin 2)] (shV b) := ⟨h'.1, Nat.one_pos, h'.2⟩
  rw [hostReduceAdd_apply]
  refine (Ideal.hostReduceAdd_single h' h x _ (ix1 c)).trans ?_
  exact congrArg (_ + ·) (Finset.sum_congr rfl fun r _ => congrArg x (lift_col h c r))

/-! ## The dense layer and the rectifier -/

/-- X·Wᵀ + b. -/
def denseA (D : DotDims (shM 65536 k) (shM k f) (shM 65536 f))
    (hT : (shM f k).Transposes ([1, 0] : List (Fin (shM f k).rank)) (shM k f))
    (hvR : (shV f).BroadcastsInDim (shR f) (![1] : Fin 1 → Fin (shR f).rank))
    (hrM : (shR f).BroadcastsInDim (shM 65536 f) (![0, 1] : Fin 2 → Fin (shM 65536 f).rank))
    (X : FVec Ideal (shM 65536 k) .f32) (W : FVec Ideal (shM f k) .f32) (b : FVec Ideal (shV f) .f32) :
    FVec Ideal (shM 65536 f) .f32 :=
  addf (Host.dotGeneral D none X (transpose (shM k f) [1, 0] W hT)) (rowsA hvR hrM b)

theorem denseA_apply (D : DotDims (shM 65536 k) (shM k f) (shM 65536 f)) (hD : D = DotDims.plain 65536 k f) (hT) (hvR) (hrM)
    (XA : FVec Ideal (shM 65536 k) .f32) (W : FVec Ideal (shM f k) .f32) (b : FVec Ideal (shV f) .f32)
    (X : Fin 65536 → Fin k → EReal) (hX : ∀ p c, XA (ix2 p c) = X p c) (p : Fin 65536) (j : Fin f) :
    denseA D hT hvR hrM XA W b (ix2 p j) = dense X (mat W) (vec b) p j := by
  unfold denseA dense
  rw [addf_apply, Cert.LibHostReads.dot_apply D hD, rowsA_apply]
  refine congrArg (· + _) (Finset.sum_congr rfl fun c _ => ?_)
  rw [transpose_ix2_apply, hX]

/-- The maximum with the zero array. -/
def reluA (w : WidthFacts f) (Y : FVec Ideal (shM 65536 f) .f32) : FVec Ideal (shM 65536 f) .f32 :=
  maximumf Y (broadcastInDim (shM 65536 f) ![] w.sM zeroW)

theorem reluA_apply (w : WidthFacts f) (Y : FVec Ideal (shM 65536 f) .f32) (i : (shM 65536 f).Idx) :
    reluA w Y i = max (Y i) 0 := by
  unfold reluA
  rw [maximumf_apply, Cert.LibHostReads.splat_apply, zeroW_apply]

/-- A dense layer followed by the rectifier, entrywise. -/
theorem hidA_apply (w : WidthFacts f) (D : DotDims (shM 65536 k) (shM k f) (shM 65536 f)) (hD : D = DotDims.plain 65536 k f) (hT)
    (XA : FVec Ideal (shM 65536 k) .f32) (W : FVec Ideal (shM f k) .f32) (b : FVec Ideal (shV f) .f32)
    (X : Fin 65536 → Fin k → EReal) (hX : ∀ p c, XA (ix2 p c) = X p c) (p : Fin 65536) (j : Fin f) :
    reluA w (denseA D hT w.vR w.rM XA W b) (ix2 p j) = hid X (mat W) (vec b) p j := by
  rw [reluA_apply, denseA_apply D hD hT w.vR w.rM XA W b X hX]
  rfl

/-! ## The column mean -/

/-- The column sums from zero. -/
def sumA (w : WidthFacts f) (HA : FVec Ideal (shM 65536 f) .f32) : FVec Ideal (shV f) .f32 :=
  Host.reduceAdd HA zeroW w.red hS

theorem sumA_apply (w : WidthFacts f) (HA : FVec Ideal (shM 65536 f) .f32) (j : Fin f) :
    sumA w HA (ix1 j) = ∑ r : Fin 65536, HA (ix2 r j) := by
  unfold sumA
  rw [colSum_apply, zeroW_apply, zero_add]

/-- The column sums over the batch size. -/
def meanA (w : WidthFacts f) (HA : FVec Ideal (shM 65536 f) .f32) : FVec Ideal (shV f) .f32 :=
  Host.divf (sumA w HA) (broadcastInDim (shV f) ![] w.sV cnW)

theorem meanA_apply (w : WidthFacts f) (HA : FVec Ideal (shM 65536 f) .f32) (H : Fin 65536 → Fin f → EReal)
    (hH : ∀ r j, HA (ix2 r j) = H r j) (j : Fin f) : meanA w HA (ix1 j) = meanR H j := by
  unfold meanA meanR
  rw [hostDivf_apply, sumA_apply, Cert.LibHostReads.splat_apply, cnW_apply]
  simp only [hH]

/-! ## The column variance -/

/-- The batch size as a real number. -/
theorem cN_eq : cN = ((65536 : ℝ) : EReal) := by
  unfold cN
  simp [Ideal.ofBits, Ideal.ieee, -EReal.coe_mul]; norm_num

theorem cN_pos : (0 : EReal) < cN := by
  rw [cN_eq]; exact EReal.coe_pos.mpr (by norm_num)

/-- The divisor of the variance: the batch size less the count word converted to a float. -/
def cntA (cA : IVec shS 32) : FVec Ideal shS .f32 := subf cnW (sitofp .f32 cA)

/-- With the zero count it is the batch size. -/
theorem cntA_apply (cA : IVec shS 32) (hc : cA ix0 = 0#32) (i : shS.Idx) : cntA cA i = cN := by
  obtain rfl := eq_ix0 i
  unfold cntA
  rw [subf_apply, cnW_apply, sitofp_apply, hc]
  show cN - (((0#32 : BitVec 32).toInt : ℝ) : EReal) = cN
  simp

/-- The deviations from the column mean, the mean taken through its one-row form. -/
def devA (w : WidthFacts f) (HA : FVec Ideal (shM 65536 f) .f32) : FVec Ideal (shM 65536 f) .f32 :=
  subf HA (broadcastInDim (shM 65536 f) ![0, 1] w.rM
    (Host.divf (broadcastInDim (shR f) ![1] w.vR (sumA w HA)) (broadcastInDim (shR f) ![] w.sR cnW)))

theorem devA_apply (w : WidthFacts f) (HA : FVec Ideal (shM 65536 f) .f32) (H : Fin 65536 → Fin f → EReal)
    (hH : ∀ r j, HA (ix2 r j) = H r j) (r : Fin 65536) (j : Fin f) :
    devA w HA (ix2 r j) = H r j - meanR H j := by
  unfold devA meanR
  rw [subf_apply, Cert.LibBiasRows.rowBcast_apply, hostDivf_apply, vecRow_apply, sumA_apply,
    Cert.LibHostReads.splat_apply, cnW_apply]
  simp only [hH]

/-- The column variance: the squared deviations' column sums over the divisor, selected against not-a-number by
    the test that the divisor is positive. -/
def varA (w : WidthFacts f) (HA : FVec Ideal (shM 65536 f) .f32) (cA : IVec shS 32) : FVec Ideal (shV f) .f32 :=
  select (broadcastInDim (shV f) ![] w.sV (cmpf .ogt (cntA cA) zeroW))
    (Host.divf (sumA w (mulf (devA w HA) (devA w HA))) (broadcastInDim (shV f) ![] w.sV (cntA cA)))
    (broadcastInDim (shV f) ![] w.sV nanW)

theorem varA_apply (w : WidthFacts f) (HA : FVec Ideal (shM 65536 f) .f32) (cA : IVec shS 32) (hc : cA ix0 = 0#32)
    (H : Fin 65536 → Fin f → EReal) (hH : ∀ r j, HA (ix2 r j) = H r j) (j : Fin f) :
    varA w HA cA (ix1 j) = varR H j := by
  have hbit : broadcastInDim (shV f) ![] w.sV (cmpf .ogt (cntA cA) zeroW) (ix1 j) = 1#1 := by
    rw [Cert.LibHostReads.splat_apply, cmpf_apply, cntA_apply cA hc, zeroW_apply, Ideal.cmpf_def]
    simp [Ideal.cmp, cN_pos]
  unfold varA
  rw [select_apply, hbit, select_one, hostDivf_apply, sumA_apply, Cert.LibHostReads.splat_apply, cntA_apply cA hc]
  unfold varR
  simp only [mulf_apply, devA_apply w HA H hH]

/-! ## The normalisation and the noise -/

/-- s · (g · (h − mean) · rsqrt (var + ε) + β) + m, as the program spells it. -/
def bnA (w : WidthFacts f) (HA : FVec Ideal (shM 65536 f) .f32) (meanV varV gV beV : FVec Ideal (shV f) .f32)
    (sA mA : FVec Ideal (shM 65536 f) .f32) : FVec Ideal (shM 65536 f) .f32 :=
  addf (mulf sA (addf (mulf (mulf (rowsA w.vR w.rM gV) (subf HA (rowsA w.vR w.rM meanV)))
      (rowsA w.vR w.rM (Host.rsqrt (addf varV (broadcastInDim (shV f) ![] w.sV epsW))))) (rowsA w.vR w.rM beV))) mA

theorem bnA_apply (w : WidthFacts f) (HA : FVec Ideal (shM 65536 f) .f32) (meanV varV gV beV : FVec Ideal (shV f) .f32)
    (sA mA : FVec Ideal (shM 65536 f) .f32) (H : Fin 65536 → Fin f → EReal) (mean var : Fin f → EReal)
    (hH : ∀ r j, HA (ix2 r j) = H r j) (hmean : ∀ j, meanV (ix1 j) = mean j) (hvar : ∀ j, varV (ix1 j) = var j)
    (p : Fin 65536) (j : Fin f) :
    bnA w HA meanV varV gV beV sA mA (ix2 p j) = bn H mean var (vec gV) (vec beV) (mat sA) (mat mA) p j := by
  unfold bnA bn
  rw [addf_apply, mulf_apply, addf_apply, mulf_apply, mulf_apply, subf_apply, rowsA_apply, rowsA_apply, rowsA_apply,
    rowsA_apply, hH, hmean]
  show _ * (_ * _ * FloatOps.hostUnary .rsqrt (addf varV (broadcastInDim (shV f) ![] w.sV epsW) (ix1 j)) + _) + _ = _
  rw [Ideal.hostUnary_rsqrt_def, addf_apply, Cert.LibHostReads.splat_apply, epsW_apply, hvar]

end Cert.RefStages

end
-- ==== Proof.RefRead.lean ====
/-
  The whole-batch network's result and arguments read back from its straight line of operations.

  The fold of the operations over any buffer contents leaves every argument buffer as it was, and leaves in the result
  buffer the composition of the stages: a dense layer with rectifier, the column statistics, the normalisation with
  noise, twice, and a last dense layer.  Read at an entry, stage by stage, that composition is the network with
  whole-batch statistics as a function on the extended reals.  The run of the program then says so of every final
  memory.
-/
import proofs.«169054_j38500086842157_2_alg».proof.Proof.RefRun
import proofs.«169054_j38500086842157_2_alg».proof.Proof.RefReadStages

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Spec Cert.RefStages

/-! ## The arguments are not written -/

section Args
variable {F : FTy → Type} [FloatOps F]

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

theorem arg11_eq (V : Valuation τ sig (Elt F)) :
    after ops V (main_arg11 : DevRef τ sig) = V (main_arg11 : DevRef τ sig) := by
  after_results_simp

theorem arg12_eq (V : Valuation τ sig (Elt F)) :
    after ops V (main_arg12 : DevRef τ sig) = V (main_arg12 : DevRef τ sig) := by
  after_results_simp

theorem arg13_eq (V : Valuation τ sig (Elt F)) :
    after ops V (main_arg13 : DevRef τ sig) = V (main_arg13 : DevRef τ sig) := by
  after_results_simp

theorem arg14_eq (V : Valuation τ sig (Elt F)) :
    after ops V (main_arg14 : DevRef τ sig) = V (main_arg14 : DevRef τ sig) := by
  after_results_simp

end Args

/-! ## The result as the composition of the stages -/

/-- The shape relations of the two hidden widths. -/
theorem w300 : WidthFacts 300 :=
  ⟨reducesTo_S65536x300_S300_d0, bcast_S_S300, bcast_S_S1x300, bcast_S_S65536x300, bcast_S300_S1x300_1, bcast_S1x300_S65536x300_0_1⟩
theorem w100 : WidthFacts 100 :=
  ⟨reducesTo_S65536x100_S100_d0, bcast_S_S100, bcast_S_S1x100, bcast_S_S65536x100, bcast_S100_S1x100_1, bcast_S1x100_S65536x100_0_1⟩

/-- The three contractions are plain matrix products. -/
theorem dot1_plain : dot_S65536x784_S784x300_S65536x300_1_0_0_1_n_n = DotDims.plain 65536 784 300 := rfl
theorem dot2_plain : dot_S65536x300_S300x100_S65536x100_1_0_0_1_n_n = DotDims.plain 65536 300 100 := rfl
theorem dot3_plain : dot_S65536x100_S100x10_S65536x10_1_0_0_1_n_n = DotDims.plain 65536 100 10 := rfl

/-- The first hidden layer, the first normalised layer, the second hidden layer, the second normalised layer and
    the output, as arrays of the fifteen argument arrays. -/
def h1A (x : FVec Ideal S65536x784 .f32) (W1 : FVec Ideal S300x784 .f32) (b1 : FVec Ideal S300 .f32) : FVec Ideal S65536x300 .f32 :=
  reluA w300 (denseA dot_S65536x784_S784x300_S65536x300_1_0_0_1_n_n transposes_S300x784_S784x300_1_0 w300.vR w300.rM x W1 b1)

def z1A (x : FVec Ideal S65536x784 .f32) (W1 : FVec Ideal S300x784 .f32) (b1 g1 be1 : FVec Ideal S300 .f32)
    (s1 m1 : FVec Ideal S65536x300 .f32) : FVec Ideal S65536x300 .f32 :=
  bnA w300 (h1A x W1 b1) (meanA w300 (h1A x W1 b1)) (varA w300 (h1A x W1 b1) (constantI S_ 32 0#32)) g1 be1 s1 m1

def h2A (x : FVec Ideal S65536x784 .f32) (W1 : FVec Ideal S300x784 .f32) (b1 g1 be1 : FVec Ideal S300 .f32)
    (s1 m1 : FVec Ideal S65536x300 .f32) (W2 : FVec Ideal S100x300 .f32) (b2 : FVec Ideal S100 .f32) : FVec Ideal S65536x100 .f32 :=
  reluA w100 (denseA dot_S65536x300_S300x100_S65536x100_1_0_0_1_n_n transposes_S100x300_S300x100_1_0 w100.vR w100.rM
    (z1A x W1 b1 g1 be1 s1 m1) W2 b2)

def z2A (x : FVec Ideal S65536x784 .f32) (W1 : FVec Ideal S300x784 .f32) (b1 g1 be1 : FVec Ideal S300 .f32)
    (s1 m1 : FVec Ideal S65536x300 .f32) (W2 : FVec Ideal S100x300 .f32) (b2 g2 be2 : FVec Ideal S100 .f32)
    (s2 m2 : FVec Ideal S65536x100 .f32) : FVec Ideal S65536x100 .f32 :=
  bnA w100 (h2A x W1 b1 g1 be1 s1 m1 W2 b2) (meanA w100 (h2A x W1 b1 g1 be1 s1 m1 W2 b2))
    (varA w100 (h2A x W1 b1 g1 be1 s1 m1 W2 b2) (constantI S_ 32 0#32)) g2 be2 s2 m2

def netA (x : FVec Ideal S65536x784 .f32) (W1 : FVec Ideal S300x784 .f32) (b1 g1 be1 : FVec Ideal S300 .f32)
    (s1 m1 : FVec Ideal S65536x300 .f32) (W2 : FVec Ideal S100x300 .f32) (b2 g2 be2 : FVec Ideal S100 .f32)
    (s2 m2 : FVec Ideal S65536x100 .f32) (W3 : FVec Ideal S10x100 .f32) (b3 : FVec Ideal S10 .f32) : FVec Ideal S65536x10 .f32 :=
  denseA dot_S65536x100_S100x10_S65536x10_1_0_0_1_n_n transposes_S10x100_S100x10_1_0 bcast_S10_S1x10_1 bcast_S1x10_S65536x10_0_1
    (z2A x W1 b1 g1 be1 s1 m1 W2 b2 g2 be2 s2 m2) W3 b3

attribute [local irreducible] Host.reduceAdd transpose broadcastInDim Host.divf Host.rsqrt in
set_option maxRecDepth 16384 in
set_option maxHeartbeats 4000000 in
/-- The fold at the result buffer is the composition of the stages over the argument buffers' contents: each
    operation's result is its function of the buffers it reads, and the stage definitions are those functions
    composed in the program's order. -/
theorem out_eq (V : Valuation τ sig (Elt Ideal)) :
    after ops V (main_v58 : DevRef τ sig)
      = netA (V (main_arg0 : DevRef τ sig) : FVec Ideal S65536x784 .f32)
          (V (main_arg1 : DevRef τ sig) : FVec Ideal S300x784 .f32)
          (V (main_arg2 : DevRef τ sig) : FVec Ideal S300 .f32)
          (V (main_arg3 : DevRef τ sig) : FVec Ideal S300 .f32)
          (V (main_arg4 : DevRef τ sig) : FVec Ideal S300 .f32)
          (V (main_arg5 : DevRef τ sig) : FVec Ideal S65536x300 .f32)
          (V (main_arg6 : DevRef τ sig) : FVec Ideal S65536x300 .f32)
          (V (main_arg7 : DevRef τ sig) : FVec Ideal S100x300 .f32)
          (V (main_arg8 : DevRef τ sig) : FVec Ideal S100 .f32)
          (V (main_arg9 : DevRef τ sig) : FVec Ideal S100 .f32)
          (V (main_arg10 : DevRef τ sig) : FVec Ideal S100 .f32)
          (V (main_arg11 : DevRef τ sig) : FVec Ideal S65536x100 .f32)
          (V (main_arg12 : DevRef τ sig) : FVec Ideal S65536x100 .f32)
          (V (main_arg13 : DevRef τ sig) : FVec Ideal S10x100 .f32)
          (V (main_arg14 : DevRef τ sig) : FVec Ideal S10 .f32) := by
  after_results_simp
  rfl

/-! ## The composition read at an entry -/

/-- The output at (p, q) is the network with whole-batch statistics. -/
theorem netA_apply (x : FVec Ideal S65536x784 .f32) (W1 : FVec Ideal S300x784 .f32) (b1 g1 be1 : FVec Ideal S300 .f32)
    (s1 m1 : FVec Ideal S65536x300 .f32) (W2 : FVec Ideal S100x300 .f32) (b2 g2 be2 : FVec Ideal S100 .f32)
    (s2 m2 : FVec Ideal S65536x100 .f32) (W3 : FVec Ideal S10x100 .f32) (b3 : FVec Ideal S10 .f32) (p : Fin 65536) (q : Fin 10) :
    netA x W1 b1 g1 be1 s1 m1 W2 b2 g2 be2 s2 m2 W3 b3 (ix2 p q)
      = netR (mat x) (mat W1) (vec b1) (vec g1) (vec be1) (mat s1) (mat m1) (mat W2) (vec b2) (vec g2) (vec be2) (mat s2) (mat m2)
          (mat W3) (vec b3) p q := by
  have hH1 : ∀ r j, h1A x W1 b1 (ix2 r j) = hid (mat x) (mat W1) (vec b1) r j := fun r j =>
    hidA_apply w300 _ dot1_plain _ x W1 b1 (mat x) (fun _ _ => rfl) r j
  have hZ1 : ∀ r j, z1A x W1 b1 g1 be1 s1 m1 (ix2 r j)
      = bn (hid (mat x) (mat W1) (vec b1)) (meanR (hid (mat x) (mat W1) (vec b1))) (varR (hid (mat x) (mat W1) (vec b1)))
          (vec g1) (vec be1) (mat s1) (mat m1) r j := fun r j =>
    bnA_apply w300 _ _ _ g1 be1 s1 m1 _ _ _ hH1 (meanA_apply w300 _ _ hH1) (varA_apply w300 _ _ rfl _ hH1) r j
  have hH2 : ∀ r j, h2A x W1 b1 g1 be1 s1 m1 W2 b2 (ix2 r j) = hid _ (mat W2) (vec b2) r j := fun r j =>
    hidA_apply w100 _ dot2_plain _ _ W2 b2 _ hZ1 r j
  have hZ2 : ∀ r j, z2A x W1 b1 g1 be1 s1 m1 W2 b2 g2 be2 s2 m2 (ix2 r j) = bn _ _ _ (vec g2) (vec be2) (mat s2) (mat m2) r j :=
    fun r j => bnA_apply w100 _ _ _ g2 be2 s2 m2 _ _ _ hH2 (meanA_apply w100 _ _ hH2) (varA_apply w100 _ _ rfl _ hH2) r j
  exact denseA_apply _ dot3_plain _ _ _ _ W3 b3 _ hZ2 p q

/-- The result buffer after the operations, read at (p, q). -/
theorem out_apply (V : Valuation τ sig (Elt Ideal)) (p : Fin 65536) (q : Fin 10) :
    (after ops V (main_v58 : DevRef τ sig) : S65536x10.Idx → EReal) (ix2 p q)
      = netR (mat (V (main_arg0 : DevRef τ sig) : FVec Ideal S65536x784 .f32))
          (mat (V (main_arg1 : DevRef τ sig) : FVec Ideal S300x784 .f32))
          (vec (V (main_arg2 : DevRef τ sig) : FVec Ideal S300 .f32))
          (vec (V (main_arg3 : DevRef τ sig) : FVec Ideal S300 .f32))
          (vec (V (main_arg4 : DevRef τ sig) : FVec Ideal S300 .f32))
          (mat (V (main_arg5 : DevRef τ sig) : FVec Ideal S65536x300 .f32))
          (mat (V (main_arg6 : DevRef τ sig) : FVec Ideal S65536x300 .f32))
          (mat (V (main_arg7 : DevRef τ sig) : FVec Ideal S100x300 .f32))
          (vec (V (main_arg8 : DevRef τ sig) : FVec Ideal S100 .f32))
          (vec (V (main_arg9 : DevRef τ sig) : FVec Ideal S100 .f32))
          (vec (V (main_arg10 : DevRef τ sig) : FVec Ideal S100 .f32))
          (mat (V (main_arg11 : DevRef τ sig) : FVec Ideal S65536x100 .f32))
          (mat (V (main_arg12 : DevRef τ sig) : FVec Ideal S65536x100 .f32))
          (mat (V (main_arg13 : DevRef τ sig) : FVec Ideal S10x100 .f32))
          (vec (V (main_arg14 : DevRef τ sig) : FVec Ideal S10 .f32)) p q := by
  rw [out_eq]
  exact netA_apply _ _ _ _ _ _ _ _ _ _ _ _ _ _ _ p q

/-! ## The run -/

/-- From any memory with zero counters, every weakly fair execution of the program on the TensorCores terminates;
    in every final state the result buffer holds, entry by entry, the network with whole-batch statistics of the
    launch contents of the fifteen argument buffers, and those buffers hold what they held. -/
theorem run_net (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (∀ (p : Fin 65536) (q : Fin 10), (r.2.mem ((c.tc : Thread nD τ).loc main_v58) : S65536x10.Idx → EReal) (ix2 p q)
          = netR (mat (m ((c.tc : Thread nD τ).loc main_arg0) : FVec Ideal S65536x784 .f32))
              (mat (m ((c.tc : Thread nD τ).loc main_arg1) : FVec Ideal S300x784 .f32))
              (vec (m ((c.tc : Thread nD τ).loc main_arg2) : FVec Ideal S300 .f32))
              (vec (m ((c.tc : Thread nD τ).loc main_arg3) : FVec Ideal S300 .f32))
              (vec (m ((c.tc : Thread nD τ).loc main_arg4) : FVec Ideal S300 .f32))
              (mat (m ((c.tc : Thread nD τ).loc main_arg5) : FVec Ideal S65536x300 .f32))
              (mat (m ((c.tc : Thread nD τ).loc main_arg6) : FVec Ideal S65536x300 .f32))
              (mat (m ((c.tc : Thread nD τ).loc main_arg7) : FVec Ideal S100x300 .f32))
              (vec (m ((c.tc : Thread nD τ).loc main_arg8) : FVec Ideal S100 .f32))
              (vec (m ((c.tc : Thread nD τ).loc main_arg9) : FVec Ideal S100 .f32))
              (vec (m ((c.tc : Thread nD τ).loc main_arg10) : FVec Ideal S100 .f32))
              (mat (m ((c.tc : Thread nD τ).loc main_arg11) : FVec Ideal S65536x100 .f32))
              (mat (m ((c.tc : Thread nD τ).loc main_arg12) : FVec Ideal S65536x100 .f32))
              (mat (m ((c.tc : Thread nD τ).loc main_arg13) : FVec Ideal S10x100 .f32))
              (vec (m ((c.tc : Thread nD τ).loc main_arg14) : FVec Ideal S10 .f32)) p q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨fun p q => (congrFun (h c main_v58) (ix2 p q)).trans (out_apply (launchContents m c) p q),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _)⟩)
    (run_main m ρ)

end Cert.ReferenceIdeal.RefValue

end
-- ==== Proof.LibBlockSums.lean ====
/-
  Two re-indexing facts for sums cut into consecutive blocks of equal length, in any additive commutative monoid.

  A sum over the first a * b natural numbers is the sum, over the a blocks, of the sums over the b positions inside a
  block, the position k of block c being the number c * b + k. The same for a sum over Fin n with a * b = n, where
  the summand at block k, position r is read at the index k * b + r (which is below n, so the guard on the index is
  always satisfied).
-/
import Mathlib.Algebra.BigOperators.Fin
import Mathlib.Algebra.BigOperators.Intervals

open scoped BigOperators

namespace Cert.LibBlockSums

/-- A sum over the first a * b natural numbers, cut into a consecutive blocks of length b: the block c holds the numbers
    c * b + k for k below b. By induction on the number of blocks, splitting the last block off the range. -/
theorem sum_range_mul {M : Type*} [AddCommMonoid M] (a b : ℕ) (g : ℕ → M) :
    ∑ c ∈ Finset.range a, ∑ k ∈ Finset.range b, g (c * b + k) = ∑ t ∈ Finset.range (a * b), g t := by
  induction a with
  | zero => simp
  | succ a ih => rw [Finset.sum_range_succ, ih, add_one_mul, Finset.sum_range_add]

/-- A sum over Fin n with a * b = n, cut into a consecutive blocks of length b: block k, position r reads the index
    k * b + r. The guard k * b + r < n holds for every k below a, so the guarded summand is the function's value; the
    guarded function on the natural numbers (the value below n, zero from n on) turns both sides into sums over ranges,
    where the cut is `sum_range_mul`. -/
theorem sum_blocks {M : Type*} [AddCommMonoid M] (a b n : ℕ) (hn : a * b = n) (f : Fin n → M) :
    ∑ k ∈ Finset.range a, ∑ r : Fin b, (if h : k * b + r.val < n then f ⟨k * b + r.val, h⟩ else 0) = ∑ i : Fin n, f i := by
  have hg : ∀ k : ℕ, (∑ r : Fin b, (if h : k * b + r.val < n then f ⟨k * b + r.val, h⟩ else 0))
      = ∑ r ∈ Finset.range b, (fun t : ℕ => if h : t < n then f ⟨t, h⟩ else 0) (k * b + r) := fun k =>
    (Finset.sum_range fun r : ℕ => (fun t : ℕ => if h : t < n then f ⟨t, h⟩ else 0) (k * b + r)).symm
  rw [Finset.sum_congr rfl fun k _ => hg k, sum_range_mul a b fun t : ℕ => if h : t < n then f ⟨t, h⟩ else 0, hn,
    Finset.sum_range]
  exact Finset.sum_congr rfl fun i _ => dif_pos i.2

end Cert.LibBlockSums
-- ==== Proof.NetLaw1.lean ====
/-
  Regrouping a column sum, and the two constants.

  A sum over the 65536 rows of the batch is the sum over the 32 tiles of the sums over the 2048 rows of a tile, and a sum
  over the 32 tiles is the sum over the two halves of the sums over the 16 tiles of a half.  Both facts are the same
  statement about a finite sum in a commutative monoid cut into consecutive blocks of equal length, so they hold for
  extended reals with no hypothesis on the entries.  Hence the two halves' partial sums add up to the whole column sum,
  and the mean taken from the partial sums is the mean taken from the whole sum.

  The two constants are spelled as 32-bit words: one denotes the real number 65536, the other a positive real number.
-/
import proofs.«169054_j38500086842157_2_alg».proof.Proof.Spec
import proofs.«169054_j38500086842157_2_alg».proof.Proof.LibBlockSums

noncomputable section

open scoped BigOperators
open Idealize.ShloMosaic

namespace Cert.Spec

/-- A sum over Fin n with a * b = n, cut into a blocks of length b, the entry at block k, position r being read through
    any indexing whose value is k * b + r. -/
theorem sum_by_blocks {M : Type*} [AddCommMonoid M] (a b n : ℕ) (hn : a * b = n) (g : Fin n → M)
    (idx : Fin a → Fin b → Fin n) (hidx : ∀ k r, (idx k r).val = k.val * b + r.val) :
    ∑ k : Fin a, ∑ r : Fin b, g (idx k r) = ∑ i : Fin n, g i := by
  rw [← Cert.LibBlockSums.sum_blocks a b n hn g, Finset.sum_range]
  refine Finset.sum_congr rfl fun k _ => Finset.sum_congr rfl fun r _ => ?_
  have h : k.val * b + r.val < n := by rw [← hidx k r]; exact (idx k r).isLt
  rw [dif_pos h]
  exact congrArg g (Fin.ext (hidx k r))

variable {f : Nat}

/-- The column sum over the batch is the sum of the 32 tile sums. -/
theorem sum_tileSum (H : Fin 65536 → Fin f → EReal) (j : Fin f) :
    ∑ t : Fin 32, tileSum H t j = ∑ r : Fin 65536, H r j :=
  sum_by_blocks 32 2048 65536 (by norm_num) (fun r => H r j) rowOf (fun _ _ => rfl)

/-- The sum of the 32 tile sums is the sum of the two halves' sums. -/
theorem sum_coreSum (H : Fin 65536 → Fin f → EReal) (j : Fin f) :
    ∑ c : Fin 2, coreSum H c j = ∑ t : Fin 32, tileSum H t j :=
  sum_by_blocks 2 16 32 (by norm_num) (fun t => tileSum H t j) ptOf (fun _ _ => rfl)

/-- The two halves' partial sums add up to the whole column sum. -/
theorem coreSum_add (H : Fin 65536 → Fin f → EReal) (j : Fin f) :
    coreSum H 0 j + coreSum H 1 j = ∑ r : Fin 65536, H r j := by
  rw [← sum_tileSum, ← sum_coreSum, Fin.sum_univ_two]

/-- The mean from the partial sums is the mean from the whole sum. -/
theorem meanK_eq_meanR (H : Fin 65536 → Fin f → EReal) : meanK H = meanR H := by
  funext j
  rw [meanK, meanR, coreSum_add]

/-- The batch size word denotes the real number 65536. -/
theorem cN_eq : cN = ((65536 : ℝ) : EReal) := by
  simp [cN, Ideal.ofBits, Ideal.ieee, -EReal.coe_mul]
  norm_num

/-- The ε word denotes a positive real number. -/
theorem eps_eq : ∃ e : ℝ, 0 < e ∧ eps = (e : EReal) := by
  simp [eps, Ideal.ofBits, Ideal.ieee, -EReal.coe_mul]

end Cert.Spec

end
-- ==== Proof.NetLaw2.lean ====
/-
  The variance identity on real entries.

  For real numbers y_1 .. y_n with mean μ = (Σ y)/n, the mean of the squares minus the square of the mean is the mean of
  the squared deviations: Σ (y − μ)² = Σ y² − 2 μ Σ y + n μ², and Σ y = n μ.  The right side is a mean of squares, so it
  is not negative, and clamping the left side below at zero changes nothing.

  On the extended reals the laws used here fail at the infinities, so each column is first written as the image of a
  column of real numbers; the coercion of the reals commutes with sums, differences, products and finite sums, so both
  variances are images of the two sides of the real identity.
-/
import proofs.«169054_j38500086842157_2_alg».proof.Proof.NetLaw1

noncomputable section

open scoped BigOperators
open Idealize.ShloMosaic

namespace Cert.Spec

/-- The coercion of the reals into the extended reals commutes with finite sums. -/
theorem coe_sum {ι : Type*} (s : Finset ι) (y : ι → ℝ) : ((∑ i ∈ s, y i : ℝ) : EReal) = ∑ i ∈ s, (y i : EReal) := by
  classical
  induction s using Finset.induction_on with
  | empty => rw [Finset.sum_empty, Finset.sum_empty]; rfl
  | insert a s ha ih => rw [Finset.sum_insert ha, Finset.sum_insert ha, EReal.coe_add, ih]

/-- The sum of the squared deviations from any number μ, expanded. -/
theorem sum_dev_sq {n : ℕ} (y : Fin n → ℝ) (μ : ℝ) :
    ∑ r, (y r - μ) * (y r - μ) = (∑ r, y r * y r) - 2 * μ * (∑ r, y r) + (n : ℝ) * (μ * μ) := by
  have h1 : ∀ r, (y r - μ) * (y r - μ) = y r * y r - 2 * μ * y r + μ * μ := fun r => by ring
  rw [Finset.sum_congr rfl fun r _ => h1 r, Finset.sum_add_distrib, Finset.sum_sub_distrib, ← Finset.mul_sum,
    Finset.sum_const, Finset.card_univ, Fintype.card_fin, nsmul_eq_mul]

/-- The variance identity for a sum S, a sum of squares Q and a count N other than zero. -/
theorem var_alg (S Q N : ℝ) (hN : N ≠ 0) :
    Q * (1 / N) - S * (1 / N) * (S * (1 / N))
      = (Q - 2 * (S * (1 / N)) * S + N * (S * (1 / N) * (S * (1 / N)))) * (1 / N) := by
  field_simp
  ring

/-- Mean of the squares minus square of the mean is the mean of the squared deviations. -/
theorem real_var {n : ℕ} (N : ℝ) (hn : (n : ℝ) = N) (hN : N ≠ 0) (y : Fin n → ℝ) :
    (∑ r, y r * y r) * (1 / N) - (∑ r, y r) * (1 / N) * ((∑ r, y r) * (1 / N))
      = (∑ r, (y r - (∑ r, y r) * (1 / N)) * (y r - (∑ r, y r) * (1 / N))) * (1 / N) := by
  rw [sum_dev_sq, hn]
  exact var_alg _ _ N hN

variable {f : Nat}

/-- Division by the batch size is the product with the real number 1/65536. -/
theorem div_cN (x : EReal) : Ideal.div x cN = x * ((1 / 65536 : ℝ) : EReal) := by
  rw [cN_eq, Ideal.div_coe (by norm_num)]

section
variable {H : Fin 65536 → Fin f → EReal} {y : Fin 65536 → Fin f → ℝ} (hy : ∀ r j, H r j = (y r j : EReal))
include hy

/-- A column sum of real entries is the image of the real column sum. -/
theorem colSum_coe (j : Fin f) : ∑ r : Fin 65536, H r j = ((∑ r, y r j : ℝ) : EReal) := by
  rw [coe_sum]
  exact Finset.sum_congr rfl fun r _ => hy r j

/-- The mean of a column of real entries is the image of the real mean. -/
theorem meanR_coe (j : Fin f) : meanR H j = (((∑ r, y r j) * (1 / 65536) : ℝ) : EReal) := by
  rw [meanR, div_cN, colSum_coe hy, ← EReal.coe_mul]

/-- The mean of the squared deviations of a column of real entries is the image of the real one. -/
theorem varR_coe (j : Fin f) :
    varR H j = (((∑ r, (y r j - (∑ r, y r j) * (1 / 65536)) * (y r j - (∑ r, y r j) * (1 / 65536))) * (1 / 65536) : ℝ) : EReal) := by
  have h1 : ∀ r, (H r j - meanR H j) * (H r j - meanR H j)
      = (((y r j - (∑ r, y r j) * (1 / 65536)) * (y r j - (∑ r, y r j) * (1 / 65536)) : ℝ) : EReal) := fun r => by
    rw [meanR_coe hy j, hy r j, ← EReal.coe_sub, ← EReal.coe_mul]
  rw [varR, div_cN, Finset.sum_congr rfl fun r _ => h1 r, ← coe_sum, ← EReal.coe_mul]

/-- The clamped difference E[h²] − mean² of a column of real entries is the clamped image of the real difference. -/
theorem varK_coe (j : Fin f) :
    varK H j = max (((∑ r, y r j * y r j) * (1 / 65536)
      - (∑ r, y r j) * (1 / 65536) * ((∑ r, y r j) * (1 / 65536)) : ℝ) : EReal) 0 := by
  have hsq : ∑ r : Fin 65536, sq H r j = ((∑ r, y r j * y r j : ℝ) : EReal) := by
    rw [coe_sum]
    exact Finset.sum_congr rfl fun r _ => by rw [sq, hy r j, ← EReal.coe_mul]
  rw [varK, meanK_eq_meanR, coreSum_add, div_cN, meanR_coe hy j, hsq, ← EReal.coe_mul, ← EReal.coe_mul, ← EReal.coe_sub]

end

/-- The real mean of the squared deviations is not negative. -/
theorem real_var_nonneg {n : ℕ} (N : ℝ) (hN : 0 ≤ N) (y : Fin n → ℝ) (μ : ℝ) :
    0 ≤ (∑ r, (y r - μ) * (y r - μ)) * (1 / N) :=
  mul_nonneg (Finset.sum_nonneg fun r _ => mul_self_nonneg _) (one_div_nonneg.mpr hN)

/-- The statistics of an array with real entries: the two means agree, the two variances agree, the mean is real and
    the variance is the image of a real number that is not negative. -/
theorem stats_eq {H : Fin 65536 → Fin f → EReal} (hH : Real2 H) :
    meanK H = meanR H ∧ varK H = varR H ∧ Real1 (meanR H)
      ∧ ∃ v : Fin f → ℝ, (∀ j, 0 ≤ v j) ∧ ∀ j, varR H j = (v j : EReal) := by
  choose y hy using hH
  have hnn : ∀ j, 0 ≤ (∑ r, (y r j - (∑ r, y r j) * (1 / 65536)) * (y r j - (∑ r, y r j) * (1 / 65536))) * (1 / (65536 : ℝ)) :=
    fun j => real_var_nonneg 65536 (by norm_num) (fun r => y r j) _
  refine ⟨meanK_eq_meanR H, ?_, fun j => ⟨_, meanR_coe hy j⟩, _, hnn, fun j => varR_coe hy j⟩
  funext j
  rw [varK_coe hy j, varR_coe hy j, real_var 65536 (by norm_num) (by norm_num) (fun r => y r j),
    max_eq_left (EReal.coe_nonneg.mpr (hnn j))]

end Cert.Spec

end
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.NetLaw3.lean ====
/-
  Real entries are kept by every layer, and the two networks agree on real inputs.

  A hidden layer is a finite sum of products plus a bias, clamped below at zero: real entries in, real entries out.  The
  normalisation multiplies by the reciprocal square root of variance plus ε; with the variance the image of a real
  number that is not negative and ε the image of a positive one, the argument is the image of a positive real and the
  reciprocal square root is real, so the normalised and perturbed array has real entries again.  The two networks
  differ only in the column statistics handed to the two normalisations, and those agree on arrays with real entries:
  first for the first hidden layer, which makes the first normalised array the same on both sides and real, then for
  the second hidden layer.
-/
import proofs.«169054_j38500086842157_2_alg».proof.Proof.NetLaw2
import proofs.«169054_j38500086842157_2_alg».proof.Proof.LibRealClosed

noncomputable section

open scoped BigOperators
open Idealize.ShloMosaic
open Cert.LibRealClosed

namespace Cert.Spec

/-- Clamping a real below at zero gives a real: the coercion is monotone, so it commutes with max. -/
theorem isReal_max_zero {x : EReal} (hx : IsReal x) : IsReal (max x 0) := by
  obtain ⟨a, rfl⟩ := hx
  refine ⟨max a 0, ?_⟩
  rw [← EReal.coe_zero]
  exact (EReal.coe_strictMono.monotone.map_max).symm

/-- The reciprocal square root of the image of a positive real is real. -/
theorem rsqrt_real {v e : ℝ} (hv : 0 ≤ v) (he : 0 < e) : IsReal (Ideal.rsqrt ((v : EReal) + (e : EReal))) := by
  have hpos : 0 < v + e := by linarith
  rw [← EReal.coe_add, Ideal.rsqrt_coe, if_neg (not_lt.mpr hpos.le), if_neg hpos.ne']
  exact ⟨_, rfl⟩

variable {k f : Nat}

/-- A hidden layer of real inputs, weights and biases has real entries. -/
theorem hid_real {X : Fin 65536 → Fin k → EReal} {W : Fin f → Fin k → EReal} {b : Fin f → EReal}
    (hX : Real2 X) (hW : Real2 W) (hb : Real1 b) : Real2 (hid X W b) := fun r j =>
  isReal_max_zero (IsReal.add (IsReal.sum _ _ fun c _ => IsReal.mul (hX r c) (hW j c)) (hb j))

/-- The normalised and perturbed array has real entries when every argument does and the variance is the image of a
    real number that is not negative. -/
theorem bn_real {H s mm : Fin 65536 → Fin f → EReal} {mean var g be : Fin f → EReal}
    (hH : Real2 H) (hmean : Real1 mean) (v : Fin f → ℝ) (hv : ∀ j, 0 ≤ v j) (hvar : ∀ j, var j = (v j : EReal))
    (hg : Real1 g) (hbe : Real1 be) (hs : Real2 s) (hmm : Real2 mm) : Real2 (bn H mean var g be s mm) := by
  obtain ⟨e, he, hee⟩ := eps_eq
  intro r j
  have h := rsqrt_real (hv j) he
  show IsReal (s r j * (g j * (H r j - mean j) * Ideal.rsqrt (var j + eps) + be j) + mm r j)
  rw [hvar j, hee]
  exact IsReal.add (IsReal.mul (hs r j) (IsReal.add (IsReal.mul (IsReal.mul (hg j) (IsReal.sub (hH r j) (hmean j))) h) (hbe j)))
    (hmm r j)

variable {k1 f1 f2 f3 : Nat}

/-- On real inputs the network with tile-wise statistics is the network with whole-batch statistics. -/
theorem netK_eq_netR
    (x : Fin 65536 → Fin k1 → EReal) (W1 : Fin f1 → Fin k1 → EReal) (b1 g1 be1 : Fin f1 → EReal) (s1 m1 : Fin 65536 → Fin f1 → EReal)
    (W2 : Fin f2 → Fin f1 → EReal) (b2 g2 be2 : Fin f2 → EReal) (s2 m2 : Fin 65536 → Fin f2 → EReal)
    (W3 : Fin f3 → Fin f2 → EReal) (b3 : Fin f3 → EReal)
    (hx : Real2 x) (hW1 : Real2 W1) (hb1 : Real1 b1) (hg1 : Real1 g1) (hbe1 : Real1 be1) (hs1 : Real2 s1) (hm1 : Real2 m1)
    (hW2 : Real2 W2) (hb2 : Real1 b2) (hg2 : Real1 g2) (hbe2 : Real1 be2) (hs2 : Real2 s2) (hm2 : Real2 m2)
    (hW3 : Real2 W3) (hb3 : Real1 b3) :
    netK x W1 b1 g1 be1 s1 m1 W2 b2 g2 be2 s2 m2 W3 b3 = netR x W1 b1 g1 be1 s1 m1 W2 b2 g2 be2 s2 m2 W3 b3 := by
  have hH1 : Real2 (hid x W1 b1) := hid_real hx hW1 hb1
  obtain ⟨em1, ev1, hmr1, v1, hv1, hvr1⟩ := stats_eq hH1
  have hZ1 : Real2 (bn (hid x W1 b1) (meanR (hid x W1 b1)) (varR (hid x W1 b1)) g1 be1 s1 m1) :=
    bn_real hH1 hmr1 v1 hv1 hvr1 hg1 hbe1 hs1 hm1
  have hH2 := hid_real hZ1 hW2 hb2
  obtain ⟨em2, ev2, -, -⟩ := stats_eq hH2
  simp only [netK, netR]
  rw [em1, ev1, em2, ev2]

end Cert.Spec

end
-- ==== Proof.NetLaw.lean ====
/-
  The two networks agree on real inputs: the regrouping of the column sums and the constants, the variance identity on
  real entries, and the layers that keep entries real, gathered under one name.
-/
import proofs.«169054_j38500086842157_2_alg».proof.Proof.NetLaw1
import proofs.«169054_j38500086842157_2_alg».proof.Proof.NetLaw2
import proofs.«169054_j38500086842157_2_alg».proof.Proof.NetLaw3
-- ==== Proof.LibFiniteInputs.lean ====
/-
  Finite inputs are real numbers.

  A certificate's usual precondition says of each float argument x that all(|x| < +∞). It prints as a reduction by
  "and", over every axis and from the constant 1, of the comparison of |x| with a broadcast of the word 0x7F800000. On
  the extended reals |x| is max x (-x), that word is ⊤, and the comparison is the linear order's: so when the reduction
  is 1 at its one index, every entry x has max x (-x) < ⊤, which excludes x = ⊤ directly and x = ⊥ through -⊥ = ⊤, and
  what is left is a real number. Generic in the argument's shape and in the axes of the reduction.
-/
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

noncomputable section

open Idealize.ShloMosaic Idealize.ShloMosaic.ValueIdx

namespace Cert.LibFiniteInputs

/-- The rank-0 shape has one index. -/
instance : Subsingleton (⟨0, ![]⟩ : Shape).Idx := ⟨fun a b => funext fun d => d.elim0⟩

/-- The word 0x7F800000 read as an f32 is +∞. -/
theorem ofBits_inf_f32 : Ideal.ofBits .f32 0x7F800000#32 = ⊤ := by simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One argument's part of the precondition: if all(|x| < +∞), printed as the reduce by and over all axes of the
    comparison of |x| with the broadcast +∞ word, is 1 at the one index, every entry of x is a real number. -/
theorem real_of_all_finite {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (h : Host.reduce IntOp.andi
          (cmpf .olt (Host.absf x) (broadcastInDim S ![] hb (constant (⟨0, ![]⟩ : Shape) .f32 0x7F800000#32)))
          (constantI (⟨0, ![]⟩ : Shape) 1 1#1) hr hu ix0 = 1#1) :
    ∀ i, ∃ r : ℝ, x i = (r : EReal) := by
  intro i
  have e := Host.reduce_andi_all _ _ hr hu ix0 h i
  have e' : Ideal.cmp .olt (max (x i) (-(x i))) ⊤ = 1#1 := by
    rw [← ofBits_inf_f32]; exact e
  refine real_of_abs_lt_top (x i) ?_
  simp only [Ideal.cmp] at e'
  by_contra hc
  simp [hc] at e'

end Cert.LibFiniteInputs

end
-- ==== Proof.Finite.lean ====
/-
  Finite inputs are real: the precondition read argument by argument.

  The precondition is one bit: the conjunction, over the fifteen argument arrays, of "every entry has absolute value
  below +∞".  The conjunction is nested to the left, ((((p0 ∧ p1) ∧ p2) ∧ p3) … ) ∧ p14, so it is split from the right,
  one argument at a time.  Each conjunct is a reduction by "and" over all axes of the entrywise comparison of |x| with
  +∞, and when it is 1 every entry of that argument is a real number.  A matrix is then read at (row, column) and a
  vector at its coordinate.
-/
import proofs.«169054_j38500086842157_2_alg».proof.Proof.Spec
import proofs.«169054_j38500086842157_2_alg».proof.Proof.Arr
import proofs.«169054_j38500086842157_2_alg».proof.Proof.LibFiniteInputs
import proofs.«169054_j38500086842157_2_alg».proof.Pre_finite_inputs

noncomputable section

open Idealize.ShloMosaic Idealize.ShloMosaic.ValueIdx
open Cert.Spec Cert.Pre_finite_inputs Cert.LibFiniteInputs

namespace Cert.Finite

/-- A matrix all of whose entries are real, read at (row, column). -/
theorem real2_of {n p : Nat} {A : (⟨2, ![n, p]⟩ : Shape).Idx → EReal} (hA : ∀ i, ∃ r : ℝ, A i = (r : EReal)) :
    Real2 (mat A) := fun r j => hA (ix2 r j)

/-- A vector all of whose entries are real, read at its coordinate. -/
theorem real1_of {n : Nat} {v : (⟨1, ![n]⟩ : Shape).Idx → EReal} (hv : ∀ i, ∃ r : ℝ, v i = (r : EReal)) :
    Real1 (vec v) := fun j => hv (ix1 j)

/-- Under the precondition every argument has real entries. -/
theorem real_args [Facts] (a0 : S65536x784.Idx → EReal) (a1 : S300x784.Idx → EReal) (a2 a3 a4 : S300.Idx → EReal)
    (a5 a6 : S65536x300.Idx → EReal) (a7 : S100x300.Idx → EReal) (a8 a9 a10 : S100.Idx → EReal)
    (a11 a12 : S65536x100.Idx → EReal) (a13 : S10x100.Idx → EReal) (a14 : S10.Idx → EReal)
    (h : Cert.Pre_finite_inputs.fn (F := Ideal) a0 a1 a2 a3 a4 a5 a6 a7 a8 a9 a10 a11 a12 a13 a14 = fun _ => 1#1) :
    Real2 (mat a0) ∧ Real2 (mat a1) ∧ Real1 (vec a2) ∧ Real1 (vec a3) ∧ Real1 (vec a4) ∧ Real2 (mat a5) ∧ Real2 (mat a6)
      ∧ Real2 (mat a7) ∧ Real1 (vec a8) ∧ Real1 (vec a9) ∧ Real1 (vec a10) ∧ Real2 (mat a11) ∧ Real2 (mat a12)
      ∧ Real2 (mat a13) ∧ Real1 (vec a14) := by
  have h0 := congrFun h ix0
  dsimp only [fn, fn_part1, fn_part2, fn_part3, fn_part4, Idealize.ShloMosaic.andi] at h0
  obtain ⟨h0, c14⟩ := IntOp.andi_eq_one.1 h0
  obtain ⟨h0, c13⟩ := IntOp.andi_eq_one.1 h0
  obtain ⟨h0, c12⟩ := IntOp.andi_eq_one.1 h0
  obtain ⟨h0, c11⟩ := IntOp.andi_eq_one.1 h0
  obtain ⟨h0, c10⟩ := IntOp.andi_eq_one.1 h0
  obtain ⟨h0, c9⟩ := IntOp.andi_eq_one.1 h0
  obtain ⟨h0, c8⟩ := IntOp.andi_eq_one.1 h0
  obtain ⟨h0, c7⟩ := IntOp.andi_eq_one.1 h0
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨h0, c2⟩ := IntOp.andi_eq_one.1 h0
  obtain ⟨c0, c1⟩ := IntOp.andi_eq_one.1 h0
  exact ⟨real2_of (real_of_all_finite a0 _ _ _ c0), real2_of (real_of_all_finite a1 _ _ _ c1),
    real1_of (real_of_all_finite a2 _ _ _ c2), real1_of (real_of_all_finite a3 _ _ _ c3),
    real1_of (real_of_all_finite a4 _ _ _ c4), real2_of (real_of_all_finite a5 _ _ _ c5),
    real2_of (real_of_all_finite a6 _ _ _ c6), real2_of (real_of_all_finite a7 _ _ _ c7),
    real1_of (real_of_all_finite a8 _ _ _ c8), real1_of (real_of_all_finite a9 _ _ _ c9),
    real1_of (real_of_all_finite a10 _ _ _ c10), real2_of (real_of_all_finite a11 _ _ _ c11),
    real2_of (real_of_all_finite a12 _ _ _ c12), real2_of (real_of_all_finite a13 _ _ _ c13),
    real1_of (real_of_all_finite a14 _ _ _ c14)⟩

end Cert.Finite

end
-- ==== Proof.Claims.lean ====
/-
  The five claims.

  The three frames: the two kernel programs' are generated whole; the reference's is its run with the result
  dropped.  The idealisation rewrote nothing, so there is nothing to preserve.  The equivalence: at the exact
  instance the kernel program's result is the network with tile-wise statistics of its arguments and the
  reference's result is the network with whole-batch statistics of the same arguments; under the precondition
  every argument entry is a real number, and on real entries the two networks are one function — the tile-wise
  column sums regroup to the whole-batch sums, and E[h²] − mean² is the mean squared deviation, which is not
  negative, so taking its maximum with zero changes nothing.
-/
import proofs.«169054_j38500086842157_2_alg».proof.Defs
import proofs.«169054_j38500086842157_2_alg».proof.Proof.Gen.Kernel
import proofs.«169054_j38500086842157_2_alg».proof.Proof.Gen.Kernel.Frame
import proofs.«169054_j38500086842157_2_alg».proof.Proof.Gen.KernelIdeal
import proofs.«169054_j38500086842157_2_alg».proof.Proof.Gen.KernelIdeal.Frame
import proofs.«169054_j38500086842157_2_alg».proof.Proof.Gen.ReferenceIdeal
import proofs.«169054_j38500086842157_2_alg».proof.Proof.Gen.Pre_finite_inputs
import proofs.«169054_j38500086842157_2_alg».proof.Proof.KerRun
import proofs.«169054_j38500086842157_2_alg».proof.Proof.KerValue
import proofs.«169054_j38500086842157_2_alg».proof.Proof.RefRead
import proofs.«169054_j38500086842157_2_alg».proof.Proof.NetLaw
import proofs.«169054_j38500086842157_2_alg».proof.Proof.Finite

set_option maxRecDepth 16384

noncomputable section

namespace Cert.Proof.Claims

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run_net m ρ)

theorem preserves : Cert.preserves_Kernel_KernelIdeal := trivial

theorem algebraic : Cert.algebraic_KernelIdeal_ReferenceIdeal := by
  intro m ρ m' ρ' hpre hagree
  refine ⟨fun c => Cert.KernelIdeal.Gen.W6 m ρ c (Proc.devRef .tc Cert.KernelIdeal.main_v39),
    Cert.KernelIdeal.Run.run_result m ρ, ?_⟩
  refine (θ_run Cert.ReferenceIdeal.defs _ _).mono (fun r h c => ⟨?_, (h c).2⟩)
    (Cert.ReferenceIdeal.RefValue.run_net m' ρ')
  obtain ⟨e0, e1, e2, e3, e4, e5, e6, e7, e8, e9, e10, e11, e12, e13, e14⟩ := hagree c
  obtain ⟨r0, r1, r2, r3, r4, r5, r6, r7, r8, r9, r10, r11, r12, r13, r14⟩ :=
    Cert.Finite.real_args _ _ _ _ _ _ _ _ _ _ _ _ _ _ _ (hpre c)
  show (r.2.mem ((c.tc : Thread Cert.ReferenceIdeal.nD Cert.ReferenceIdeal.τ).loc Cert.ReferenceIdeal.main_v58)
      : Cert.ReferenceIdeal.S65536x10.Idx → EReal) = _
  funext i
  obtain ⟨p, q, rfl⟩ : ∃ (p : Fin 65536) (q : Fin 10), i = ix2 p q := ⟨i 0, i 1, eq_ix2 i⟩
  refine ((h c).1 p q).trans ?_
  rw [e0, e1, e2, e3, e4, e5, e6, e7, e8, e9, e10, e11, e12, e13, e14]
  refine Eq.trans ?_ (Cert.KernelIdeal.Value.result_eq m ρ c p q).symm
  exact (congrFun (congrFun (Cert.Spec.netK_eq_netR _ _ _ _ _ _ _ _ _ _ _ _ _ _ _
    r0 r1 r2 r3 r4 r5 r6 r7 r8 r9 r10 r11 r12 r13 r14) p) q).symm

end Cert.Proof.Claims

end
-- ==== Proof.lean ====
/-
  The certificate: a three-layer perceptron with batch normalisation and noise, computed by three tiled kernel
  passes over the batch, against its plain formulation.  The claims are proved in Proof/Claims.lean; what each
  part says is at the head of its module: the two networks as functions (Proof/Spec.lean) and the law that makes
  them one on real entries (Proof/NetLaw*.lean); the kernel program's run and the contents it passes from region
  to region (Proof/RunAll.lean, Proof/Hosts.lean); each region's output as a function of what it is entered with
  (Proof/Region0*.lean, Proof/Region1*.lean, Proof/Region2*.lean); the composition (Proof/KerValue.lean); the
  reference's run and result (Proof/RefRun.lean, Proof/RefRead*.lean); and that the precondition makes every
  argument entry a real number (Proof/Finite.lean).
-/
import proofs.«169054_j38500086842157_2_alg».proof.Defs
import proofs.«169054_j38500086842157_2_alg».proof.Proof.Gen.Kernel
import proofs.«169054_j38500086842157_2_alg».proof.Proof.Gen.Kernel.Skeleton
import proofs.«169054_j38500086842157_2_alg».proof.Proof.Gen.Kernel.Launch
import proofs.«169054_j38500086842157_2_alg».proof.Proof.Gen.Kernel.Points
import proofs.«169054_j38500086842157_2_alg».proof.Proof.Gen.Kernel.Frame
import proofs.«169054_j38500086842157_2_alg».proof.Proof.Gen.KernelIdeal
import proofs.«169054_j38500086842157_2_alg».proof.Proof.Gen.KernelIdeal.Skeleton
import proofs.«169054_j38500086842157_2_alg».proof.Proof.Gen.KernelIdeal.Launch
import proofs.«169054_j38500086842157_2_alg».proof.Proof.Gen.KernelIdeal.Points
import proofs.«169054_j38500086842157_2_alg».proof.Proof.Gen.KernelIdeal.Frame
import proofs.«169054_j38500086842157_2_alg».proof.Proof.Gen.ReferenceIdeal
import proofs.«169054_j38500086842157_2_alg».proof.Proof.Gen.Pre_finite_inputs
import proofs.«169054_j38500086842157_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
